-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x768 : Shape := ⟨3, ![64, 64, 768]⟩
abbrev S1x64x768 : Shape := ⟨3, ![1, 64, 768]⟩
abbrev S28672x768 : Shape := ⟨2, ![28672, 768]⟩
abbrev S28672 : Shape := ⟨1, ![28672]⟩
abbrev S4096 : Shape := ⟨1, ![4096]⟩
abbrev S64x2 : Shape := ⟨2, ![64, 2]⟩
abbrev S2x768x768 : Shape := ⟨3, ![2, 768, 768]⟩
abbrev S2x768 : Shape := ⟨2, ![2, 768]⟩
abbrev S_ : Shape := ⟨0, ![]⟩

class Facts : Prop where
  bcast_S_S64x64x768 : S_.BroadcastsInDim S64x64x768 (![] : Fin 0 → Fin S64x64x768.rank)
  reducesTo_S64x64x768_S_d0_1_2 : S64x64x768.ReducesTo [0, 1, 2] S_
  h_S_ : 0 < S_.numel
  bcast_S_S1x64x768 : S_.BroadcastsInDim S1x64x768 (![] : Fin 0 → Fin S1x64x768.rank)
  reducesTo_S1x64x768_S_d0_1_2 : S1x64x768.ReducesTo [0, 1, 2] S_
  bcast_S_S28672x768 : S_.BroadcastsInDim S28672x768 (![] : Fin 0 → Fin S28672x768.rank)
  reducesTo_S28672x768_S_d0_1 : S28672x768.ReducesTo [0, 1] S_
  bcast_S_S4096 : S_.BroadcastsInDim S4096 (![] : Fin 0 → Fin S4096.rank)
  reducesTo_S4096_S_d0 : S4096.ReducesTo [0] S_
  bcast_S_S2x768x768 : S_.BroadcastsInDim S2x768x768 (![] : Fin 0 → Fin S2x768x768.rank)
  reducesTo_S2x768x768_S_d0_1_2 : S2x768x768.ReducesTo [0, 1, 2] S_
  bcast_S_S2x768 : S_.BroadcastsInDim S2x768 (![] : Fin 0 → Fin S2x768.rank)
  reducesTo_S2x768_S_d0_1 : S2x768.ReducesTo [0, 1] S_

variable [Facts]

def fn_part3 {F : FTy → Type} [FloatOps F] (main_arg13 : FVec F S2x768 .f32) (main_v48 : IVec S_ 1) (main_v49 : FVec F S2x768 .f32) (main_v50 : FVec F S2x768 .f32) : IVec S_ 1 :=
  let main_v51 : IVec S2x768 1 := cmpf .olt main_v49 main_v50
  let main_c_19 : IVec S_ 1 := constantI S_ 1 1#1
  let main_v52 : IVec S_ 1 := (fun x v => Host.reduce IntOp.andi x v reducesTo_S2x768_S_d0_1 h_S_) main_v51 main_c_19
  let main_v53 : IVec S_ 1 := andi main_v48 main_v52
  let main_v54 : FVec F S2x768 .f32 := Host.absf main_arg13
  let main_cst_20 : FVec F S_ .f32 := constant S_ .f32 0x7F800000#32
  let main_v55 : FVec F S2x768 .f32 := broadcastInDim S2x768 ![] bcast_S_S2x768 main_cst_20
  let main_v56 : IVec S2x768 1 := cmpf .olt main_v54 main_v55
  let main_c_21 : IVec S_ 1 := constantI S_ 1 1#1
  let main_v57 : IVec S_ 1 := (fun x v => Host.reduce IntOp.andi x v reducesTo_S2x768_S_d0_1 h_S_) main_v56 main_c_21
  let main_v58 : IVec S_ 1 := andi main_v53 main_v57
  main_v58

def fn_part2 {F : FTy → Type} [FloatOps F] (main_arg9 : FVec F S2x768 .f32) (main_arg10 : FVec F S2x768x768 .f32) (main_arg11 : FVec F S2x768 .f32) (main_arg12 : FVec F S2x768 .f32) (main_arg13 : FVec F S2x768 .f32) (main_v33 : IVec S_ 1) : IVec S_ 1 :=
  let main_v34 : FVec F S2x768 .f32 := Host.absf main_arg9
  let main_cst_12 : FVec F S_ .f32 := constant S_ .f32 0x7F800000#32
  let main_v35 : FVec F S2x768 .f32 := broadcastInDim S2x768 ![] bcast_S_S2x768 main_cst_12
  let main_v36 : IVec S2x768 1 := cmpf .olt main_v34 main_v35
  let main_c_13 : IVec S_ 1 := constantI S_ 1 1#1
  let main_v37 : IVec S_ 1 := (fun x v => Host.reduce IntOp.andi x v reducesTo_S2x768_S_d0_1 h_S_) main_v36 main_c_13
  let main_v38 : IVec S_ 1 := andi main_v33 main_v37
  let main_v39 : FVec F S2x768x768 .f32 := Host.absf main_arg10
  let main_cst_14 : FVec F S_ .f32 := constant S_ .f32 0x7F800000#32
  let main_v40 : FVec F S2x768x768 .f32 := broadcastInDim S2x768x768 ![] bcast_S_S2x768x768 main_cst_14
  let main_v41 : IVec S2x768x768 1 := cmpf .olt main_v39 main_v40
  let main_c_15 : IVec S_ 1 := constantI S_ 1 1#1
  let main_v42 : IVec S_ 1 := (fun x v => Host.reduce IntOp.andi x v reducesTo_S2x768x768_S_d0_1_2 h_S_) main_v41 main_c_15
  let main_v43 : IVec S_ 1 := andi main_v38 main_v42
  let main_v44 : FVec F S2x768 .f32 := Host.absf main_arg11
  let main_cst_16 : FVec F S_ .f32 := constant S_ .f32 0x7F800000#32
  let main_v45 : FVec F S2x768 .f32 := broadcastInDim S2x768 ![] bcast_S_S2x768 main_cst_16
  let main_v46 : IVec S2x768 1 := cmpf .olt main_v44 main_v45
  let main_c_17 : IVec S_ 1 := constantI S_ 1 1#1
  let main_v47 : IVec S_ 1 := (fun x v => Host.reduce IntOp.andi x v reducesTo_S2x768_S_d0_1 h_S_) main_v46 main_c_17
  let main_v48 : IVec S_ 1 := andi main_v43 main_v47
  let main_v49 : FVec F S2x768 .f32 := Host.absf main_arg12
  let main_cst_18 : FVec F S_ .f32 := constant S_ .f32 0x7F800000#32
  let main_v50 : FVec F S2x768 .f32 := broadcastInDim S2x768 ![] bcast_S_S2x768 main_cst_18
  fn_part3 (F := F) main_arg13 main_v48 main_v49 main_v50

def fn_part1 {F : FTy → Type} [FloatOps F] (main_arg6 : FVec F S2x768x768 .f32) (main_arg7 : FVec F S2x768 .f32) (main_arg8 : FVec F S2x768x768 .f32) (main_arg9 : FVec F S2x768 .f32) (main_arg10 : FVec F S2x768x768 .f32) (main_arg11 : FVec F S2x768 .f32) (main_arg12 : FVec F S2x768 .f32) (main_arg13 : FVec F S2x768 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2x768x768 .f32 := Host.absf main_arg6
  let main_cst_6 : FVec F S_ .f32 := constant S_ .f32 0x7F800000#32
  let main_v20 : FVec F S2x768x768 .f32 := broadcastInDim S2x768x768 ![] bcast_S_S2x768x768 main_cst_6
  let main_v21 : IVec S2x768x768 1 := cmpf .olt main_v19 main_v20
  let main_c_7 : IVec S_ 1 := constantI S_ 1 1#1
  let main_v22 : IVec S_ 1 := (fun x v => Host.reduce IntOp.andi x v reducesTo_S2x768x768_S_d0_1_2 h_S_) main_v21 main_c_7
  let main_v23 : IVec S_ 1 := andi main_v18 main_v22
  let main_v24 : FVec F S2x768 .f32 := Host.absf main_arg7
  let main_cst_8 : FVec F S_ .f32 := constant S_ .f32 0x7F800000#32
  let main_v25 : FVec F S2x768 .f32 := broadcastInDim S2x768 ![] bcast_S_S2x768 main_cst_8
  let main_v26 : IVec S2x768 1 := cmpf .olt main_v24 main_v25
  let main_c_9 : IVec S_ 1 := constantI S_ 1 1#1
  let main_v27 : IVec S_ 1 := (fun x v => Host.reduce IntOp.andi x v reducesTo_S2x768_S_d0_1 h_S_) main_v26 main_c_9
  let main_v28 : IVec S_ 1 := andi main_v23 main_v27
  let main_v29 : FVec F S2x768x768 .f32 := Host.absf main_arg8
  let main_cst_10 : FVec F S_ .f32 := constant S_ .f32 0x7F800000#32
  let main_v30 : FVec F S2x768x768 .f32 := broadcastInDim S2x768x768 ![] bcast_S_S2x768x768 main_cst_10
  let main_v31 : IVec S2x768x768 1 := cmpf .olt main_v29 main_v30
  let main_c_11 : IVec S_ 1 := constantI S_ 1 1#1
  let main_v32 : IVec S_ 1 := (fun x v => Host.reduce IntOp.andi x v reducesTo_S2x768x768_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S64x64x768 .f32) (main_arg1 : FVec F S1x64x768 .f32) (main_arg2 : FVec F S28672x768 .f32) (main_arg3 : IVec S28672 32) (main_arg4 : FVec F S4096 .f32) (main_arg5 : IVec S64x2 32) (main_arg6 : FVec F S2x768x768 .f32) (main_arg7 : FVec F S2x768 .f32) (main_arg8 : FVec F S2x768x768 .f32) (main_arg9 : FVec F S2x768 .f32) (main_arg10 : FVec F S2x768x768 .f32) (main_arg11 : FVec F S2x768 .f32) (main_arg12 : FVec F S2x768 .f32) (main_arg13 : FVec F S2x768 .f32) : IVec S_ 1 :=
  let main_v0 : FVec F S64x64x768 .f32 := Host.absf main_arg0
  let main_cst : FVec F S_ .f32 := constant S_ .f32 0x7F800000#32
  let main_v1 : FVec F S64x64x768 .f32 := broadcastInDim S64x64x768 ![] bcast_S_S64x64x768 main_cst
  let main_v2 : IVec S64x64x768 1 := cmpf .olt main_v0 main_v1
  let main_c : IVec S_ 1 := constantI S_ 1 1#1
  let main_v3 : IVec S_ 1 := (fun x v => Host.reduce IntOp.andi x v reducesTo_S64x64x768_S_d0_1_2 h_S_) main_v2 main_c
  let main_v4 : FVec F S1x64x768 .f32 := Host.absf main_arg1
  let main_cst_0 : FVec F S_ .f32 := constant S_ .f32 0x7F800000#32
  let main_v5 : FVec F S1x64x768 .f32 := broadcastInDim S1x64x768 ![] bcast_S_S1x64x768 main_cst_0
  let main_v6 : IVec S1x64x768 1 := cmpf .olt main_v4 main_v5
  let main_c_1 : IVec S_ 1 := constantI S_ 1 1#1
  let main_v7 : IVec S_ 1 := (fun x v => Host.reduce IntOp.andi x v reducesTo_S1x64x768_S_d0_1_2 h_S_) main_v6 main_c_1
  let main_v8 : IVec S_ 1 := andi main_v3 main_v7
  let main_v9 : FVec F S28672x768 .f32 := Host.absf main_arg2
  let main_cst_2 : FVec F S_ .f32 := constant S_ .f32 0x7F800000#32
  let main_v10 : FVec F S28672x768 .f32 := broadcastInDim S28672x768 ![] bcast_S_S28672x768 main_cst_2
  let main_v11 : IVec S28672x768 1 := cmpf .olt main_v9 main_v10
  let main_c_3 : IVec S_ 1 := constantI S_ 1 1#1
  let main_v12 : IVec S_ 1 := (fun x v => Host.reduce IntOp.andi x v reducesTo_S28672x768_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_arg7 main_arg8 main_arg9 main_arg10 main_arg11 main_arg12 main_arg13 main_v13 main_v16
-- ==== Kernel.lean ====
abbrev S64x64x768 : Shape := ⟨3, ![64, 64, 768]⟩
abbrev S1x64x768 : Shape := ⟨3, ![1, 64, 768]⟩
abbrev S28672x768 : Shape := ⟨2, ![28672, 768]⟩
abbrev S28672 : Shape := ⟨1, ![28672]⟩
abbrev S4096 : Shape := ⟨1, ![4096]⟩
abbrev S64x2 : Shape := ⟨2, ![64, 2]⟩
abbrev S2x768x768 : Shape := ⟨3, ![2, 768, 768]⟩
abbrev S2x768 : Shape := ⟨2, ![2, 768]⟩
abbrev S_ : Shape := ⟨0, ![]⟩
abbrev S28672x1 : Shape := ⟨2, ![28672, 1]⟩
abbrev S64x448x768 : Shape := ⟨3, ![64, 448, 768]⟩
abbrev S64x512x768 : Shape := ⟨3, ![64, 512, 768]⟩
abbrev S1x512x768 : Shape := ⟨3, ![1, 512, 768]⟩
abbrev S512x768 : Shape := ⟨2, ![512, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S512x512 : Shape := ⟨2, ![512, 512]⟩
abbrev S512 : Shape := ⟨1, ![512]⟩
abbrev S512x1 : Shape := ⟨2, ![512, 1]⟩

abbrev nBuf : Space → Nat
  | .hbm => 39
  | .vmem => 12
  | .smem => 0
  | _ => 0

abbrev bufTy : (tb : Table) → Fin (tcTables nBuf tb) → BufTy
  | .hbm, ⟨0, _⟩ => ⟨S64x64x768, .f32⟩
  | .hbm, ⟨1, _⟩ => ⟨S1x64x768, .f32⟩
  | .hbm, ⟨2, _⟩ => ⟨S28672x768, .f32⟩
  | .hbm, ⟨3, _⟩ => ⟨S28672, .i32⟩
  | .hbm, ⟨4, _⟩ => ⟨S4096, .f32⟩
  | .hbm, ⟨5, _⟩ => ⟨S64x2, .i32⟩
  | .hbm, ⟨6, _⟩ => ⟨S2x768x768, .f32⟩
  | .hbm, ⟨7, _⟩ => ⟨S2x768, .f32⟩
  | .hbm, ⟨8, _⟩ => ⟨S2x768x768, .f32⟩
  | .hbm, ⟨9, _⟩ => ⟨S2x768, .f32⟩
  | .hbm, ⟨10, _⟩ => ⟨S2x768x768, .f32⟩
  | .hbm, ⟨11, _⟩ => ⟨S2x768, .f32⟩
  | .hbm, ⟨12, _⟩ => ⟨S2x768, .f32⟩
  | .hbm, ⟨13, _⟩ => ⟨S2x768, .f32⟩
  | .hbm, ⟨14, _⟩ => ⟨S_, .i32⟩
  | .hbm, ⟨15, _⟩ => ⟨S28672, .i32⟩
  | .hbm, ⟨16, _⟩ => ⟨S28672, .i1⟩
  | .hbm, ⟨17, _⟩ => ⟨S_, .i32⟩
  | .hbm, ⟨18, _⟩ => ⟨S28672, .i32⟩
  | .hbm, ⟨19, _⟩ => ⟨S28672, .i32⟩
  | .hbm, ⟨20, _⟩ => ⟨S28672, .i32⟩
  | .hbm, ⟨21, _⟩ => ⟨S28672x1, .i32⟩
  | .hbm, ⟨22, _⟩ => ⟨S28672, .f32⟩
  | .hbm, ⟨23, _⟩ => ⟨S28672x1, .f32⟩
  | .hbm, ⟨24, _⟩ => ⟨S28672x768, .f32⟩
  | .hbm, ⟨25, _⟩ => ⟨S28672x768, .f32⟩
  | .hbm, ⟨26, _⟩ => ⟨S64x448x768, .f32⟩
  | .hbm, ⟨27, _⟩ => ⟨S64x64x768, .f32⟩
  | .hbm, ⟨28, _⟩ => ⟨S64x64x768, .f32⟩
  | .hbm, ⟨29, _⟩ => ⟨S64x512x768, .f32⟩
  | .hbm, ⟨30, _⟩ => ⟨S2x768x768, .f32⟩
  | .hbm, ⟨31, _⟩ => ⟨S2x768x768, .f32⟩
  | .hbm, ⟨32, _⟩ => ⟨S2x768x768, .f32⟩
  | .hbm, ⟨33, _⟩ => ⟨S64x512x768, .f32⟩
  | .hbm, ⟨34, _⟩ => ⟨S64x64x768, .f32⟩
  | .hbm, ⟨35, _⟩ => ⟨S64x64x768, .f32⟩
  | .hbm, ⟨36, _⟩ => ⟨S64x448x768, .f32⟩
  | .hbm, ⟨37, _⟩ => ⟨S28672x768, .f32⟩
  | .hbm, ⟨38, _⟩ => ⟨S28672x768, .f32⟩
  | .local _ .vmem, ⟨0, _⟩ => ⟨S1x512x768, .f32⟩
  | .local _ .vmem, ⟨1, _⟩ => ⟨S1x512x768, .f32⟩
  | .local _ .vmem, ⟨2, _⟩ => ⟨S2x768x768, .f32⟩
  | .local _ .vmem, ⟨3, _⟩ => ⟨S2x768x768, .f32⟩
  | .local _ .vmem, ⟨4, _⟩ => ⟨S2x768x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S2x768, .f32⟩
  | .local _ .vmem, ⟨9, _⟩ => ⟨S2x768, .f32⟩
  | .local _ .vmem, ⟨10, _⟩ => ⟨S1x512x768, .f32⟩
  | .local _ .vmem, ⟨11, _⟩ => ⟨S1x512x768, .f32⟩
  | _, _ => ⟨S64x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S28672 : S_.BroadcastsInDim S28672 (![] : Fin 0 → Fin S28672.rank)
  bcast_S28672_S28672x1_0 : S28672.BroadcastsInDim S28672x1 (![0] : Fin 1 → Fin S28672x1.rank)
  bcast_S28672x1_S28672x768_0_1 : S28672x1.BroadcastsInDim S28672x768 (![0, 1] : Fin 2 → Fin S28672x768.rank)
  shapeCasts_S28672x768_S64x448x768 : S28672x768.ShapeCasts S64x448x768
  bcast_S1x64x768_S64x64x768_0_1_2 : S1x64x768.BroadcastsInDim S64x64x768 (![0, 1, 2] : Fin 3 → Fin S64x64x768.rank)
  concatenates_S64x64x768_S64x448x768_S64x512x768_d1 : Shape.Concatenates [S64x64x768, S64x448x768] S64x512x768 1
  transposes_S2x768x768_S2x768x768_0_2_1 : S2x768x768.Transposes [0, 2, 1] S2x768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S2x768x768_S1x768x768_0_0_0 : ∀ a, (![0, 0, 0] : Fin 3 → Nat) a + S1x768x768.size a ≤ S2x768x768.size a
  h_S1x768x768 : 0 < S1x768x768.numel
  shapeCasts_S1x768x768_S768x768 : S1x768x768.ShapeCasts S768x768
  bitsLt_bf16_f32 : FTy.bits .bf16 < FTy.bits .f32
  inb_S2x768_S1x768_0_0 : ∀ a, (![0, 0] : Fin 2 → Nat) a + S1x768.size a ≤ S2x768.size a
  h_S1x768 : 0 < S1x768.numel
  shapeCasts_S1x768_S768 : S1x768.ShapeCasts S768
  shapeCasts_S768_S1x768 : S768.ShapeCasts S1x768
  broadcasts_S1x768_S512x768 : S1x768.Broadcasts S512x768
  reduces_S512x512_S512 : S512x512.Reduces [1] S512
  shapeCasts_S512_S512x1 : S512.ShapeCasts S512x1
  broadcasts_S512x1_S512x512 : S512x1.Broadcasts S512x512
  reduces_S512x768_S512 : S512x768.Reduces [1] S512
  broadcasts_S512x1_S512x768 : S512x1.Broadcasts S512x768
  inb_S2x768x768_S1x768x768_1_0_0 : ∀ a, (![1, 0, 0] : Fin 3 → Nat) a + S1x768x768.size a ≤ S2x768x768.size a
  inb_S2x768_S1x768_1_0 : ∀ a, (![1, 0] : Fin 2 → Nat) a + S1x768.size a ≤ S2x768.size a
  shapeCasts_S512x768_S1x512x768 : S512x768.ShapeCasts S1x512x768
  slices_S64x512x768_S64x64x768_0_0_0 : S64x512x768.Slices ![0, 0, 0] S64x64x768
  slices_S64x512x768_S64x448x768_0_64_0 : S64x512x768.Slices ![0, 64, 0] S64x448x768
  shapeCasts_S64x448x768_S28672x768 : S64x448x768.ShapeCasts S28672x768
  gather_S4096_S28672x1_S28672_n_0_n_n_0_1_1_wf : GatherDims.WF S4096 S28672x1 S28672 [] [0] [] [0] [] 1 ![1]
  dot_S512x768_S768x768_S512x768_1_0_0_1_n_n_wf : DotDims.WF S512x768 S768x768 S512x768 [1] [0] [0] [1] [] []
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x768x768.size a ≤ S2x768x768.size a
  hwx0_1 : ∀ i : grid0.Coords, EltTy.bits .f32 = 32 ∨ (Rect.block (s := S2x768x768) S2x768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x768x768.size a ≤ S2x768x768.size a
  hwx0_2 : ∀ i : grid0.Coords, EltTy.bits .f32 = 32 ∨ (Rect.block (s := S2x768x768) S2x768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768x768.size a ≤ S2x768x768.size a
  hwx0_3 : ∀ i : grid0.Coords, EltTy.bits .f32 = 32 ∨ (Rect.block (s := S2x768x768) S2x768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x768.size a ≤ S2x768.size a
  hwx0_4 : ∀ i : grid0.Coords, EltTy.bits .f32 = 32 ∨ (Rect.block (s := S2x768) S2x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x768.size a ≤ S2x768.size a
  hwx0_5 : ∀ i : grid0.Coords, EltTy.bits .f32 = 32 ∨ (Rect.block (s := S2x768) S2x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x768.size a ≤ S2x768.size a
  hwx0_6 : ∀ i : grid0.Coords, EltTy.bits .f32 = 32 ∨ (Rect.block (s := S2x768) S2x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x768.size a ≤ S2x768.size a
  hwx0_7 : ∀ i : grid0.Coords, EltTy.bits .f32 = 32 ∨ (Rect.block (s := S2x768) S2x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x768.size a ≤ S2x768.size a
  hwx0_8 : ∀ i : grid0.Coords, EltTy.bits .f32 = 32 ∨ (Rect.block (s := S2x768) S2x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x768.size a ≤ S64x512x768.size a
  hwx0_9 : ∀ i : grid0.Coords, EltTy.bits .f32 = 32 ∨ (Rect.block (s := S64x512x768) S1x512x768.size (cc0_transform_9 i) (hinb0_9 i)).WholeWords (EltTy.packing .f32)

variable [Facts₀]

def gather_S4096_S28672x1_S28672_n_0_n_n_0_1_1 : GatherDims S4096 S28672x1 S28672 where
  offsetDims := []
  collapsedSliceDims := [0]
  operandBatchingDims := []
  startIndicesBatchingDims := []
  startIndexMap := [0]
  indexVectorDim := 1
  sliceSizes := ![1]
  wf := gather_S4096_S28672x1_S28672_n_0_n_n_0_1_1_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_v13) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2x768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2x768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S2x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S2x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S2x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S2x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S2x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x512x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x64x768 : Shape := ⟨3, ![64, 64, 768]⟩
abbrev S1x64x768 : Shape := ⟨3, ![1, 64, 768]⟩
abbrev S28672x768 : Shape := ⟨2, ![28672, 768]⟩
abbrev S28672 : Shape := ⟨1, ![28672]⟩
abbrev S4096 : Shape := ⟨1, ![4096]⟩
abbrev S64x2 : Shape := ⟨2, ![64, 2]⟩
abbrev S2x768x768 : Shape := ⟨3, ![2, 768, 768]⟩
abbrev S2x768 : Shape := ⟨2, ![2, 768]⟩
abbrev S_ : Shape := ⟨0, ![]⟩
abbrev S28672x1 : Shape := ⟨2, ![28672, 1]⟩
abbrev S64x448x768 : Shape := ⟨3, ![64, 448, 768]⟩
abbrev S64x512x768 : Shape := ⟨3, ![64, 512, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S1x1x768 : Shape := ⟨3, ![1, 1, 768]⟩
abbrev S64x512x512 : Shape := ⟨3, ![64, 512, 512]⟩
abbrev S64x512 : Shape := ⟨2, ![64, 512]⟩
abbrev S64x512x1 : Shape := ⟨3, ![64, 512, 1]⟩

abbrev nBuf : Space → Nat
  | .hbm => 201
  | .vmem => 0
  | .smem => 0
  | _ => 0

abbrev hbmTy0_0 (i : Nat) : BufTy := match i % 128 with
  | 0 => ⟨S64x64x768, .f32⟩
  | 1 => ⟨S1x64x768, .f32⟩
  | 2 => ⟨S28672x768, .f32⟩
  | 3 => ⟨S28672, .i32⟩
  | 4 => ⟨S4096, .f32⟩
  | 5 => ⟨S64x2, .i32⟩
  | 6 => ⟨S2x768x768, .f32⟩
  | 7 => ⟨S2x768, .f32⟩
  | 8 => ⟨S2x768x768, .f32⟩
  | 9 => ⟨S2x768, .f32⟩
  | 10 => ⟨S2x768x768, .f32⟩
  | 11 => ⟨S2x768, .f32⟩
  | 12 => ⟨S2x768, .f32⟩
  | 13 => ⟨S2x768, .f32⟩
  | 14 => ⟨S_, .i32⟩
  | 15 => ⟨S28672, .i32⟩
  | 16 => ⟨S28672, .i1⟩
  | 17 => ⟨S_, .i32⟩
  | 18 => ⟨S28672, .i32⟩
  | 19 => ⟨S28672, .i32⟩
  | 20 => ⟨S28672, .i32⟩
  | 21 => ⟨S28672x1, .i32⟩
  | 22 => ⟨S28672, .f32⟩
  | 23 => ⟨S28672x1, .f32⟩
  | 24 => ⟨S28672x768, .f32⟩
  | 25 => ⟨S28672x768, .f32⟩
  | 26 => ⟨S64x448x768, .f32⟩
  | 27 => ⟨S64x64x768, .f32⟩
  | 28 => ⟨S64x64x768, .f32⟩
  | 29 => ⟨S64x512x768, .f32⟩
  | 30 => ⟨S1x768x768, .f32⟩
  | 31 => ⟨S768x768, .f32⟩
  | 32 => ⟨S768x768, .f32⟩
  | 33 => ⟨S64x512x768, .f32⟩
  | 34 => ⟨S1x768, .f32⟩
  | 35 => ⟨S768, .f32⟩
  | 36 => ⟨S1x1x768, .f32⟩
  | 37 => ⟨S64x512x768, .f32⟩
  | 38 => ⟨S64x512x768, .f32⟩
  | 39 => ⟨S1x768x768, .f32⟩
  | 40 => ⟨S768x768, .f32⟩
  | 41 => ⟨S768x768, .f32⟩
  | 42 => ⟨S64x512x768, .f32⟩
  | 43 => ⟨S1x768, .f32⟩
  | 44 => ⟨S768, .f32⟩
  | 45 => ⟨S1x1x768, .f32⟩
  | 46 => ⟨S64x512x768, .f32⟩
  | 47 => ⟨S64x512x768, .f32⟩
  | 48 => ⟨S1x768x768, .f32⟩
  | 49 => ⟨S768x768, .f32⟩
  | 50 => ⟨S768x768, .f32⟩
  | 51 => ⟨S64x512x768, .f32⟩
  | 52 => ⟨S1x768, .f32⟩
  | 53 => ⟨S768, .f32⟩
  | 54 => ⟨S1x1x768, .f32⟩
  | 55 => ⟨S64x512x768, .f32⟩
  | 56 => ⟨S64x512x768, .f32⟩
  | 57 => ⟨S64x512x512, .f32⟩
  | 58 => ⟨S_, .f32⟩
  | 59 => ⟨S64x512x512, .f32⟩
  | 60 => ⟨S64x512x512, .f32⟩
  | 61 => ⟨S_, .f32⟩
  | 62 => ⟨S64x512, .f32⟩
  | 63 => ⟨S_, .f32⟩
  | 64 => ⟨S64x512, .f32⟩
  | 65 => ⟨S64x512, .f32⟩
  | 66 => ⟨S64x512x1, .f32⟩
  | 67 => ⟨S64x512x512, .f32⟩
  | 68 => ⟨S64x512x512, .f32⟩
  | 69 => ⟨S64x512x512, .f32⟩
  | 70 => ⟨S_, .f32⟩
  | 71 => ⟨S64x512, .f32⟩
  | 72 => ⟨S64x512x1, .f32⟩
  | 73 => ⟨S64x512x512, .f32⟩
  | 74 => ⟨S64x512x512, .f32⟩
  | 75 => ⟨S64x512x768, .f32⟩
  | 76 => ⟨S_, .f32⟩
  | 77 => ⟨S64x512x768, .f32⟩
  | 78 => ⟨S64x512x768, .f32⟩
  | 79 => ⟨S64x512x768, .f32⟩
  | 80 => ⟨S1x768, .f32⟩
  | 81 => ⟨S768, .f32⟩
  | 82 => ⟨S1x768, .f32⟩
  | 83 => ⟨S768, .f32⟩
  | 84 => ⟨S_, .f32⟩
  | 85 => ⟨S64x512, .f32⟩
  | 86 => ⟨S64x512x1, .f32⟩
  | 87 => ⟨S_, .f32⟩
  | 88 => ⟨S64x512x1, .f32⟩
  | 89 => ⟨S64x512x1, .f32⟩
  | 90 => ⟨S64x512x768, .f32⟩
  | 91 => ⟨S64x512x768, .f32⟩
  | 92 => ⟨S64x512x768, .f32⟩
  | 93 => ⟨S_, .f32⟩
  | 94 => ⟨S64x512, .f32⟩
  | 95 => ⟨S64x512x1, .f32⟩
  | 96 => ⟨S_, .f32⟩
  | 97 => ⟨S64x512x1, .f32⟩
  | 98 => ⟨S64x512x1, .f32⟩
  | 99 => ⟨S64x512x768, .f32⟩
  | 100 => ⟨S64x512x768, .f32⟩
  | 101 => ⟨S_, .f32⟩
  | 102 => ⟨S64x512x1, .f32⟩
  | 103 => ⟨S64x512x1, .f32⟩
  | 104 => ⟨S64x512x1, .f32⟩
  | 105 => ⟨S64x512x768, .f32⟩
  | 106 => ⟨S64x512x768, .f32⟩
  | 107 => ⟨S1x1x768, .f32⟩
  | 108 => ⟨S64x512x768, .f32⟩
  | 109 => ⟨S64x512x768, .f32⟩
  | 110 => ⟨S1x1x768, .f32⟩
  | 111 => ⟨S64x512x768, .f32⟩
  | 112 => ⟨S64x512x768, .f32⟩
  | 113 => ⟨S1x768x768, .f32⟩
  | 114 => ⟨S768x768, .f32⟩
  | 115 => ⟨S768x768, .f32⟩
  | 116 => ⟨S64x512x768, .f32⟩
  | 117 => ⟨S1x768, .f32⟩
  | 118 => ⟨S768, .f32⟩
  | 119 => ⟨S1x1x768, .f32⟩
  | 120 => ⟨S64x512x768, .f32⟩
  | 121 => ⟨S64x512x768, .f32⟩
  | 122 => ⟨S1x768x768, .f32⟩
  | 123 => ⟨S768x768, .f32⟩
  | 124 => ⟨S768x768, .f32⟩
  | 125 => ⟨S64x512x768, .f32⟩
  | 126 => ⟨S1x768, .f32⟩
  | 127 => ⟨S768, .f32⟩
  | _ => ⟨S64x64x768, .f32⟩

abbrev hbmTy0_1 (i : Nat) : BufTy := match i % 128 with
  | 0 => ⟨S1x1x768, .f32⟩
  | 1 => ⟨S64x512x768, .f32⟩
  | 2 => ⟨S64x512x768, .f32⟩
  | 3 => ⟨S1x768x768, .f32⟩
  | 4 => ⟨S768x768, .f32⟩
  | 5 => ⟨S768x768, .f32⟩
  | 6 => ⟨S64x512x768, .f32⟩
  | 7 => ⟨S1x768, .f32⟩
  | 8 => ⟨S768, .f32⟩
  | 9 => ⟨S1x1x768, .f32⟩
  | 10 => ⟨S64x512x768, .f32⟩
  | 11 => ⟨S64x512x768, .f32⟩
  | 12 => ⟨S64x512x512, .f32⟩
  | 13 => ⟨S_, .f32⟩
  | 14 => ⟨S64x512x512, .f32⟩
  | 15 => ⟨S64x512x512, .f32⟩
  | 16 => ⟨S_, .f32⟩
  | 17 => ⟨S64x512, .f32⟩
  | 18 => ⟨S_, .f32⟩
  | 19 => ⟨S64x512, .f32⟩
  | 20 => ⟨S64x512, .f32⟩
  | 21 => ⟨S64x512x1, .f32⟩
  | 22 => ⟨S64x512x512, .f32⟩
  | 23 => ⟨S64x512x512, .f32⟩
  | 24 => ⟨S64x512x512, .f32⟩
  | 25 => ⟨S_, .f32⟩
  | 26 => ⟨S64x512, .f32⟩
  | 27 => ⟨S64x512x1, .f32⟩
  | 28 => ⟨S64x512x512, .f32⟩
  | 29 => ⟨S64x512x512, .f32⟩
  | 30 => ⟨S64x512x768, .f32⟩
  | 31 => ⟨S_, .f32⟩
  | 32 => ⟨S64x512x768, .f32⟩
  | 33 => ⟨S64x512x768, .f32⟩
  | 34 => ⟨S64x512x768, .f32⟩
  | 35 => ⟨S1x768, .f32⟩
  | 36 => ⟨S768, .f32⟩
  | 37 => ⟨S1x768, .f32⟩
  | 38 => ⟨S768, .f32⟩
  | 39 => ⟨S_, .f32⟩
  | 40 => ⟨S64x512, .f32⟩
  | 41 => ⟨S64x512x1, .f32⟩
  | 42 => ⟨S_, .f32⟩
  | 43 => ⟨S64x512x1, .f32⟩
  | 44 => ⟨S64x512x1, .f32⟩
  | 45 => ⟨S64x512x768, .f32⟩
  | 46 => ⟨S64x512x768, .f32⟩
  | 47 => ⟨S64x512x768, .f32⟩
  | 48 => ⟨S_, .f32⟩
  | 49 => ⟨S64x512, .f32⟩
  | 50 => ⟨S64x512x1, .f32⟩
  | 51 => ⟨S_, .f32⟩
  | 52 => ⟨S64x512x1, .f32⟩
  | 53 => ⟨S64x512x1, .f32⟩
  | 54 => ⟨S64x512x768, .f32⟩
  | 55 => ⟨S64x512x768, .f32⟩
  | 56 => ⟨S_, .f32⟩
  | 57 => ⟨S64x512x1, .f32⟩
  | 58 => ⟨S64x512x1, .f32⟩
  | 59 => ⟨S64x512x1, .f32⟩
  | 60 => ⟨S64x512x768, .f32⟩
  | 61 => ⟨S64x512x768, .f32⟩
  | 62 => ⟨S1x1x768, .f32⟩
  | 63 => ⟨S64x512x768, .f32⟩
  | 64 => ⟨S64x512x768, .f32⟩
  | 65 => ⟨S1x1x768, .f32⟩
  | 66 => ⟨S64x512x768, .f32⟩
  | 67 => ⟨S64x512x768, .f32⟩
  | 68 => ⟨S64x64x768, .f32⟩
  | 69 => ⟨S64x64x768, .f32⟩
  | 70 => ⟨S64x448x768, .f32⟩
  | 71 => ⟨S28672x768, .f32⟩
  | 72 => ⟨S28672x768, .f32⟩
  | _ => ⟨S64x64x768, .f32⟩

abbrev hbmTy (i : Nat) : BufTy := match i / 128 with
  | 0 => hbmTy0_0 i
  | 1 => hbmTy0_1 i
  | _ => ⟨S64x64x768, .f32⟩

abbrev bufTy : (tb : Table) → Fin (tcTables nBuf tb) → BufTy
  | .hbm, ⟨i, _⟩ => hbmTy i
  | _, _ => ⟨S64x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_v43 : Ref sig .tc := ⟨.hbm, 60, rfl⟩
abbrev main_cst_1 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_4 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_6 : Ref sig .tc := ⟨.hbm, 93, rfl⟩
abbrev main_v69 : Ref sig .tc := ⟨.hbm, 94, rfl⟩
abbrev main_v70 : Ref sig .tc := ⟨.hbm, 95, rfl⟩
abbrev main_cst_7 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_9 : Ref sig .tc := ⟨.hbm, 141, rfl⟩
abbrev main_v114 : Ref sig .tc := ⟨.hbm, 142, rfl⟩
abbrev main_v115 : Ref sig .tc := ⟨.hbm, 143, rfl⟩
abbrev main_cst_10 : Ref sig .tc := ⟨.hbm, 144, rfl⟩
abbrev main_v116 : Ref sig .tc := ⟨.hbm, 145, rfl⟩
abbrev main_cst_11 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_12 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_call1_cst : Ref sig .tc := ⟨.hbm, 159, rfl⟩
abbrev main_call1_v0 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_13 : Ref sig .tc := ⟨.hbm, 167, rfl⟩
abbrev main_v134 : Ref sig .tc := ⟨.hbm, 168, rfl⟩
abbrev main_v135 : Ref sig .tc := ⟨.hbm, 169, rfl⟩
abbrev main_cst_14 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_15 : Ref sig .tc := ⟨.hbm, 176, rfl⟩
abbrev main_v141 : Ref sig .tc := ⟨.hbm, 177, rfl⟩
abbrev main_v142 : Ref sig .tc := ⟨.hbm, 178, rfl⟩
abbrev main_cst_16 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_17 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩

abbrev nD : Nat := 1
abbrev τ : Topo := Topo.v7x

variable {F : FTy → Type} [FloatOps F]

class Facts₀ : Prop where
  bcast_S_S28672 : S_.BroadcastsInDim S28672 (![] : Fin 0 → Fin S28672.rank)
  bcast_S28672_S28672x1_0 : S28672.BroadcastsInDim S28672x1 (![0] : Fin 1 → Fin S28672x1.rank)
  bcast_S28672x1_S28672x768_0_1 : S28672x1.BroadcastsInDim S28672x768 (![0, 1] : Fin 2 → Fin S28672x768.rank)
  shapeCasts_S28672x768_S64x448x768 : S28672x768.ShapeCasts S64x448x768
  bcast_S1x64x768_S64x64x768_0_1_2 : S1x64x768.BroadcastsInDim S64x64x768 (![0, 1, 2] : Fin 3 → Fin S64x64x768.rank)
  concatenates_S64x64x768_S64x448x768_S64x512x768_d1 : Shape.Concatenates [S64x64x768, S64x448x768] S64x512x768 1
  slices_S2x768x768_S1x768x768_0_0_0 : S2x768x768.Slices ![0, 0, 0] S1x768x768
  shapeCasts_S1x768x768_S768x768 : S1x768x768.ShapeCasts S768x768
  transposes_S768x768_S768x768_1_0 : S768x768.Transposes [1, 0] S768x768
  slices_S2x768_S1x768_0_0 : S2x768.Slices ![0, 0] S1x768
  shapeCasts_S1x768_S768 : S1x768.ShapeCasts S768
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  bcast_S_S64x512x512 : S_.BroadcastsInDim S64x512x512 (![] : Fin 0 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512x768 : S_.BroadcastsInDim S64x512x768 (![] : Fin 0 → Fin S64x512x768.rank)
  reducesTo_S64x512x768_S64x512_d2 : S64x512x768.ReducesTo [2] S64x512
  bcast_S_S64x512x1 : S_.BroadcastsInDim S64x512x1 (![] : Fin 0 → Fin S64x512x1.rank)
  bcast_S64x512x1_S64x512x768_0_1_2 : S64x512x1.BroadcastsInDim S64x512x768 (![0, 1, 2] : Fin 3 → Fin S64x512x768.rank)
  slices_S2x768x768_S1x768x768_1_0_0 : S2x768x768.Slices ![1, 0, 0] S1x768x768
  slices_S2x768_S1x768_1_0 : S2x768.Slices ![1, 0] S1x768
  slices_S64x512x768_S64x64x768_0_0_0 : S64x512x768.Slices ![0, 0, 0] S64x64x768
  slices_S64x512x768_S64x448x768_0_64_0 : S64x512x768.Slices ![0, 64, 0] S64x448x768
  shapeCasts_S64x448x768_S28672x768 : S64x448x768.ShapeCasts S28672x768
  gather_S4096_S28672x1_S28672_n_0_n_n_0_1_1_wf : GatherDims.WF S4096 S28672x1 S28672 [] [0] [] [0] [] 1 ![1]
  dot_S64x512x768_S768x768_S64x512x768_2_0_01_1_n_n_wf : DotDims.WF S64x512x768 S768x768 S64x512x768 [2] [0] [0, 1] [1] [] []
  dot_S64x512x768_S64x512x768_S64x512x512_2_2_1_1_0_0_wf : DotDims.WF S64x512x768 S64x512x768 S64x512x512 [2] [2] [1] [1] [0] [0]
  dot_S64x512x512_S64x512x768_S64x512x768_2_1_1_2_0_0_wf : DotDims.WF S64x512x512 S64x512x768 S64x512x768 [2] [1] [1] [2] [0] [0]

variable [Facts₀]

def gather_S4096_S28672x1_S28672_n_0_n_n_0_1_1 : GatherDims S4096 S28672x1 S28672 where
  offsetDims := []
  collapsedSliceDims := [0]
  operandBatchingDims := []
  startIndicesBatchingDims := []
  startIndexMap := [0]
  indexVectorDim := 1
  sliceSizes := ![1]
  wf := gather_S4096_S28672x1_S28672_n_0_n_n_0_1_1_wf
def dot_S64x512x768_S768x768_S64x512x768_2_0_01_1_n_n : DotDims S64x512x768 S768x768 S64x512x768 where
  lhsContracting := [2]
  rhsContracting := [0]
  lhsNonContracting := [0, 1]
  rhsNonContracting := [1]
  lhsBatch := []
  rhsBatch := []
  wf := dot_S64x512x768_S768x768_S64x512x768_2_0_01_1_n_n_wf
def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf
def dot_S64x512x512_S64x512x768_S64x512x768_2_1_1_2_0_0 : DotDims S64x512x512 S64x512x768 S64x512x768 where
  lhsContracting := [2]
  rhsContracting := [1]
  lhsNonContracting := [1]
  rhsNonContracting := [2]
  lhsBatch := [0]
  rhsBatch := [0]
  wf := dot_S64x512x512_S64x512x768_S64x512x768_2_1_1_2_0_0_wf

class Facts : Prop extends Facts₀ where

variable [Facts]
-- ==== Proof.Spec.lean ====
/-
  The value both programs compute for one passage, written once, index by index, over the extended reals.

  A passage is a matrix x of 512 token rows and 768 features. One layer of the network takes three weight matrices
  Wq, Wk, Wv (768 by 768, already in the orientation "feature in, feature out"), three bias rows bq, bk, bv and a
  gain and a shift row g, b of the layer normalisation, and returns a matrix of the same extents:

    q = x Wq + bq,  k = x Wk + bk,  v = x Wv + bv                       (three projections)
    z(n, m) = scale * sum over d of q(n, d) k(m, d)                      (scaled scores)
    M(n) = max (bottom, fold of max from bottom over m of z(n, m))       (the row's maximum)
    e(n, m) = exp (z(n, m) - M(n)),  D(n) = sum over m of e(n, m)
    p(n, m) = e(n, m) / D(n)                                             (softmax)
    a(n, d) = max (sum over m of p(n, m) v(m, d), 0)                     (context, rectified)
    y = x + a                                                            (residual)
    mu(n) = (sum over d of y(n, d)) / 768,  c(n, d) = y(n, d) - mu(n)
    var(n) = (sum over d of c(n, d)^2) / 768
    out(n, d) = c(n, d) * rsqrt (var(n) + eps) * g(d) + b(d)             (layer normalisation)

  The constants scale, 768, eps and the bottom are the binary32 words the programs carry; they are kept as words
  and never evaluated: the same word denotes the same extended real wherever it stands. Every sum is a sum over a
  finite index type, so no order of summation is part of the value.
-/
import Idealize.ShloMosaic.PureOps.Ideal
import Idealize.ShloMosaic.PureOps.Ideal.Laws

noncomputable section

namespace Cert.AttnLayer

open Idealize.ShloMosaic

/-- A matrix of token rows and features, as a function of the two coordinates. -/
abbrev Mat (r c : Nat) := Fin r → Fin c → EReal

/-- A projection: x W + bias. -/
def proj (W : Mat 768 768) (bias : Fin 768 → EReal) (x : Mat 512 768) : Mat 512 768 :=
  fun n e => (∑ d : Fin 768, x n d * W d e) + bias e

/-- The scaled scores of queries against keys. -/
def scores (q k : Mat 512 768) : Mat 512 512 :=
  fun n m => Ideal.ofBits .f32 0x3D13CD3A#32 * ∑ d : Fin 768, q n d * k m d

/-- A row's maximum, folded from the bottom and once more joined with the bottom. -/
def rowMax (z : Mat 512 512) (n : Fin 512) : EReal :=
  max (Ideal.ofBits .f32 0xFF800000#32)
    ((Finset.univ : Finset (Fin 512)).fold max (Ideal.ofBits .f32 0xFF800000#32) (fun m => z n m))

/-- The exponentials of a row shifted by its maximum. -/
def expo (z : Mat 512 512) : Mat 512 512 := fun n m => Ideal.exp (z n m - rowMax z n)

/-- The softmax of the scores along a row. -/
def soft (z : Mat 512 512) : Mat 512 512 := fun n m => Ideal.div (expo z n m) (∑ j : Fin 512, expo z n j)

/-- The rectified context: the softmax weights applied to the values. -/
def ctx (p : Mat 512 512) (v : Mat 512 768) : Mat 512 768 := fun n d => max (∑ m : Fin 512, p n m * v m d) 0

/-- A row's mean over the 768 features. -/
def mean (y : Mat 512 768) (n : Fin 512) : EReal := Ideal.div (∑ d : Fin 768, y n d) (Ideal.ofBits .f32 0x44400000#32)

/-- A row centred at its mean. -/
def cent (y : Mat 512 768) : Mat 512 768 := fun n d => y n d - mean y n

/-- A row's variance over the 768 features. -/
def var (y : Mat 512 768) (n : Fin 512) : EReal :=
  Ideal.div (∑ d : Fin 768, cent y n d * cent y n d) (Ideal.ofBits .f32 0x44400000#32)

/-- The layer normalisation of y with gain g and shift b. -/
def lnorm (g b : Fin 768 → EReal) (y : Mat 512 768) : Mat 512 768 :=
  fun n d => cent y n d * Ideal.rsqrt (var y n + Ideal.ofBits .f32 0x3727C5AC#32) * g d + b d

/-- One layer: attention of the passage on itself, the residual, the normalisation. -/
def layer (Wq Wk Wv : Mat 768 768) (bq bk bv g b : Fin 768 → EReal) (x : Mat 512 768) : Mat 512 768 :=
  lnorm g b (fun n d => x n d + ctx (soft (scores (proj Wq bq x) (proj Wk bk x))) (proj Wv bv x) n d)

/-- The whole network on one passage: the layer twice, with the first then the second slice of each stacked parameter. -/
def twoLayers (Wq Wk Wv : Fin 2 → Mat 768 768) (bq bk bv g b : Fin 2 → Fin 768 → EReal) (x : Mat 512 768) : Mat 512 768 :=
  layer (Wq 1) (Wk 1) (Wv 1) (bq 1) (bk 1) (bv 1) (g 1) (b 1) (layer (Wq 0) (Wk 0) (Wv 0) (bq 0) (bk 0) (bv 0) (g 0) (b 0) x)

end Cert.AttnLayer

end
-- ==== Proof.HostLayer.lean ====
/-
  The reference's arithmetic for all passages at once, stage by stage, read at an index.

  The reference computes one attention layer on the whole batch [64, 512, 768]: the same operations as the kernel's,
  with one more leading axis p for the passage, which every operation carries along unchanged (a batch axis of a
  general dot product, a kept axis of a reduction, an axis every broadcast copies). Each stage is written once as the
  host operations the reference applies and is shown to be, at (p, n, d), the corresponding stage of the specification
  on passage p alone: no stage mixes passages.
-/
import proofs.«104126_j60206851555566_1_alg».proof.Proof.Gen.ReferenceIdeal
import proofs.«104126_j60206851555566_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.HostLayer

open Idealize.ShloMosaic Idealize.ShloMosaic.ValueIdx Cert.ReferenceIdeal
open Cert.AttnLayer Cert.ReferenceIdeal.Gen

/-! ## Arrays as functions of coordinates -/

/-- Passage p of a [64, 512, 768] array, as a matrix. -/
abbrev pas (X : FVec Ideal S64x512x768 .f32) (p : Fin 64) : Mat 512 768 := fun n d => X (ix3 p n d)
/-- Passage p of a [64, 512, 512] array, as a matrix. -/
abbrev psq (Z : FVec Ideal S64x512x512 .f32) (p : Fin 64) : Mat 512 512 := fun n m => Z (ix3 p n m)
/-- A [768, 768] array as a matrix. -/
abbrev wMat (W : FVec Ideal S768x768 .f32) : Mat 768 768 := fun d e => W (ix2 d e)
/-- A [768] array as a row. -/
abbrev bRow (c : FVec Ideal S768 .f32) : Fin 768 → EReal := fun e => c (ix1 e)

/-! ## Where each operand is read, axis by axis -/

theorem l_W_0 (i : S64x512x768.Idx) (q : dot_S64x512x768_S768x768_S64x512x768_2_0_01_1_n_n.contr.Idx) :
    (dot_S64x512x768_S768x768_S64x512x768_2_0_01_1_n_n.lhsIdx i q 0).val = (i 0).val := by
  unfold DotDims.lhsIdx
  rw [dif_neg (show ¬(0 : Fin S64x512x768.rank) ∈ dot_S64x512x768_S768x768_S64x512x768_2_0_01_1_n_n.lhsBatch by decide), dif_pos (show (0 : Fin S64x512x768.rank) ∈ dot_S64x512x768_S768x768_S64x512x768_2_0_01_1_n_n.lhsNonContracting by decide)]
  rfl
theorem l_W_1 (i : S64x512x768.Idx) (q : dot_S64x512x768_S768x768_S64x512x768_2_0_01_1_n_n.contr.Idx) :
    (dot_S64x512x768_S768x768_S64x512x768_2_0_01_1_n_n.lhsIdx i q 1).val = (i 1).val := by
  unfold DotDims.lhsIdx
  rw [dif_neg (show ¬(1 : Fin S64x512x768.rank) ∈ dot_S64x512x768_S768x768_S64x512x768_2_0_01_1_n_n.lhsBatch by decide), dif_pos (show (1 : Fin S64x512x768.rank) ∈ dot_S64x512x768_S768x768_S64x512x768_2_0_01_1_n_n.lhsNonContracting by decide)]
  rfl
theorem l_W_2 (i : S64x512x768.Idx) (q : dot_S64x512x768_S768x768_S64x512x768_2_0_01_1_n_n.contr.Idx) :
    (dot_S64x512x768_S768x768_S64x512x768_2_0_01_1_n_n.lhsIdx i q 2).val = (q ⟨0, by decide⟩).val :=
  dot_S64x512x768_S768x768_S64x512x768_2_0_01_1_n_n.lhsIdx_val_of_single rfl i q
theorem r_W_0 (i : S64x512x768.Idx) (q : dot_S64x512x768_S768x768_S64x512x768_2_0_01_1_n_n.contr.Idx) :
    (dot_S64x512x768_S768x768_S64x512x768_2_0_01_1_n_n.rhsIdx i q 0).val = (q ⟨0, by decide⟩).val :=
  dot_S64x512x768_S768x768_S64x512x768_2_0_01_1_n_n.rhsIdx_val_of_single rfl i q
theorem r_W_1 (i : S64x512x768.Idx) (q : dot_S64x512x768_S768x768_S64x512x768_2_0_01_1_n_n.contr.Idx) :
    (dot_S64x512x768_S768x768_S64x512x768_2_0_01_1_n_n.rhsIdx i q 1).val = (i 2).val := by
  unfold DotDims.rhsIdx
  rw [dif_neg (show ¬(1 : Fin S768x768.rank) ∈ dot_S64x512x768_S768x768_S64x512x768_2_0_01_1_n_n.rhsBatch by decide), dif_pos (show (1 : Fin S768x768.rank) ∈ dot_S64x512x768_S768x768_S64x512x768_2_0_01_1_n_n.rhsNonContracting by decide)]
  rfl
theorem l_QK_0 (i : S64x512x512.Idx) (q : dot_S64x512x768_S64x512x768_S64x512x512_2_2_1_1_0_0.contr.Idx) :
    (dot_S64x512x768_S64x512x768_S64x512x512_2_2_1_1_0_0.lhsIdx i q 0).val = (i 0).val := by
  unfold DotDims.lhsIdx
  rw [dif_pos (show (0 : Fin S64x512x768.rank) ∈ dot_S64x512x768_S64x512x768_S64x512x512_2_2_1_1_0_0.lhsBatch by decide)]
  rfl
theorem l_QK_1 (i : S64x512x512.Idx) (q : dot_S64x512x768_S64x512x768_S64x512x512_2_2_1_1_0_0.contr.Idx) :
    (dot_S64x512x768_S64x512x768_S64x512x512_2_2_1_1_0_0.lhsIdx i q 1).val = (i 1).val := by
  unfold DotDims.lhsIdx
  rw [dif_neg (show ¬(1 : Fin S64x512x768.rank) ∈ dot_S64x512x768_S64x512x768_S64x512x512_2_2_1_1_0_0.lhsBatch by decide), dif_pos (show (1 : Fin S64x512x768.rank) ∈ dot_S64x512x768_S64x512x768_S64x512x512_2_2_1_1_0_0.lhsNonContracting by decide)]
  rfl
theorem l_QK_2 (i : S64x512x512.Idx) (q : dot_S64x512x768_S64x512x768_S64x512x512_2_2_1_1_0_0.contr.Idx) :
    (dot_S64x512x768_S64x512x768_S64x512x512_2_2_1_1_0_0.lhsIdx i q 2).val = (q ⟨0, by decide⟩).val :=
  dot_S64x512x768_S64x512x768_S64x512x512_2_2_1_1_0_0.lhsIdx_val_of_single rfl i q
theorem r_QK_0 (i : S64x512x512.Idx) (q : dot_S64x512x768_S64x512x768_S64x512x512_2_2_1_1_0_0.contr.Idx) :
    (dot_S64x512x768_S64x512x768_S64x512x512_2_2_1_1_0_0.rhsIdx i q 0).val = (i 0).val := by
  unfold DotDims.rhsIdx
  rw [dif_pos (show (0 : Fin S64x512x768.rank) ∈ dot_S64x512x768_S64x512x768_S64x512x512_2_2_1_1_0_0.rhsBatch by decide)]
  rfl
theorem r_QK_1 (i : S64x512x512.Idx) (q : dot_S64x512x768_S64x512x768_S64x512x512_2_2_1_1_0_0.contr.Idx) :
    (dot_S64x512x768_S64x512x768_S64x512x512_2_2_1_1_0_0.rhsIdx i q 1).val = (i 2).val := by
  unfold DotDims.rhsIdx
  rw [dif_neg (show ¬(1 : Fin S64x512x768.rank) ∈ dot_S64x512x768_S64x512x768_S64x512x512_2_2_1_1_0_0.rhsBatch by decide), dif_pos (show (1 : Fin S64x512x768.rank) ∈ dot_S64x512x768_S64x512x768_S64x512x512_2_2_1_1_0_0.rhsNonContracting by decide)]
  rfl
theorem r_QK_2 (i : S64x512x512.Idx) (q : dot_S64x512x768_S64x512x768_S64x512x512_2_2_1_1_0_0.contr.Idx) :
    (dot_S64x512x768_S64x512x768_S64x512x512_2_2_1_1_0_0.rhsIdx i q 2).val = (q ⟨0, by decide⟩).val :=
  dot_S64x512x768_S64x512x768_S64x512x512_2_2_1_1_0_0.rhsIdx_val_of_single rfl i q
theorem l_PV_0 (i : S64x512x768.Idx) (q : dot_S64x512x512_S64x512x768_S64x512x768_2_1_1_2_0_0.contr.Idx) :
    (dot_S64x512x512_S64x512x768_S64x512x768_2_1_1_2_0_0.lhsIdx i q 0).val = (i 0).val := by
  unfold DotDims.lhsIdx
  rw [dif_pos (show (0 : Fin S64x512x512.rank) ∈ dot_S64x512x512_S64x512x768_S64x512x768_2_1_1_2_0_0.lhsBatch by decide)]
  rfl
theorem l_PV_1 (i : S64x512x768.Idx) (q : dot_S64x512x512_S64x512x768_S64x512x768_2_1_1_2_0_0.contr.Idx) :
    (dot_S64x512x512_S64x512x768_S64x512x768_2_1_1_2_0_0.lhsIdx i q 1).val = (i 1).val := by
  unfold DotDims.lhsIdx
  rw [dif_neg (show ¬(1 : Fin S64x512x512.rank) ∈ dot_S64x512x512_S64x512x768_S64x512x768_2_1_1_2_0_0.lhsBatch by decide), dif_pos (show (1 : Fin S64x512x512.rank) ∈ dot_S64x512x512_S64x512x768_S64x512x768_2_1_1_2_0_0.lhsNonContracting by decide)]
  rfl
theorem l_PV_2 (i : S64x512x768.Idx) (q : dot_S64x512x512_S64x512x768_S64x512x768_2_1_1_2_0_0.contr.Idx) :
    (dot_S64x512x512_S64x512x768_S64x512x768_2_1_1_2_0_0.lhsIdx i q 2).val = (q ⟨0, by decide⟩).val :=
  dot_S64x512x512_S64x512x768_S64x512x768_2_1_1_2_0_0.lhsIdx_val_of_single rfl i q
theorem r_PV_0 (i : S64x512x768.Idx) (q : dot_S64x512x512_S64x512x768_S64x512x768_2_1_1_2_0_0.contr.Idx) :
    (dot_S64x512x512_S64x512x768_S64x512x768_2_1_1_2_0_0.rhsIdx i q 0).val = (i 0).val := by
  unfold DotDims.rhsIdx
  rw [dif_pos (show (0 : Fin S64x512x768.rank) ∈ dot_S64x512x512_S64x512x768_S64x512x768_2_1_1_2_0_0.rhsBatch by decide)]
  rfl
theorem r_PV_1 (i : S64x512x768.Idx) (q : dot_S64x512x512_S64x512x768_S64x512x768_2_1_1_2_0_0.contr.Idx) :
    (dot_S64x512x512_S64x512x768_S64x512x768_2_1_1_2_0_0.rhsIdx i q 1).val = (q ⟨0, by decide⟩).val :=
  dot_S64x512x512_S64x512x768_S64x512x768_2_1_1_2_0_0.rhsIdx_val_of_single rfl i q
theorem r_PV_2 (i : S64x512x768.Idx) (q : dot_S64x512x512_S64x512x768_S64x512x768_2_1_1_2_0_0.contr.Idx) :
    (dot_S64x512x512_S64x512x768_S64x512x768_2_1_1_2_0_0.rhsIdx i q 2).val = (i 2).val := by
  unfold DotDims.rhsIdx
  rw [dif_neg (show ¬(2 : Fin S64x512x768.rank) ∈ dot_S64x512x512_S64x512x768_S64x512x768_2_1_1_2_0_0.rhsBatch by decide), dif_pos (show (2 : Fin S64x512x768.rank) ∈ dot_S64x512x512_S64x512x768_S64x512x768_2_1_1_2_0_0.rhsNonContracting by decide)]
  rfl

/-! ## The three general dot products at an entry -/

/-- The batch against one weight matrix: at (p, n, e), the sum over k of X(p, n, k) W(k, e). -/
theorem dotW_apply (X : FVec Ideal S64x512x768 .f32) (W : FVec Ideal S768x768 .f32) (p : Fin 64) (n : Fin 512) (e : Fin 768) :
    Host.dotGeneral dot_S64x512x768_S768x768_S64x512x768_2_0_01_1_n_n none X W (ix3 p n e)
      = ∑ k : Fin 768, X (ix3 p n k) * W (ix2 k e) := by
  simp only [Host.dotGeneral]
  rw [Ideal.dotGeneral_apply, ← Equiv.sum_comp (contrEquiv1 dot_S64x512x768_S768x768_S64x512x768_2_0_01_1_n_n 768 rfl rfl).symm]
  refine Finset.sum_congr rfl fun k _ => ?_
  have hk := contrEquiv1_symm_val dot_S64x512x768_S768x768_S64x512x768_2_0_01_1_n_n 768 rfl rfl k
  have el : dot_S64x512x768_S768x768_S64x512x768_2_0_01_1_n_n.lhsIdx (ix3 p n e)
      ((contrEquiv1 dot_S64x512x768_S768x768_S64x512x768_2_0_01_1_n_n 768 rfl rfl).symm k) = ix3 p n k :=
    funext fun a => Fin.ext (by
      match a with
      | ⟨0, _⟩ => exact l_W_0 _ _
      | ⟨1, _⟩ => exact l_W_1 _ _
      | ⟨2, _⟩ => exact (l_W_2 _ _).trans hk)
  have er : dot_S64x512x768_S768x768_S64x512x768_2_0_01_1_n_n.rhsIdx (ix3 p n e)
      ((contrEquiv1 dot_S64x512x768_S768x768_S64x512x768_2_0_01_1_n_n 768 rfl rfl).symm k) = ix2 k e :=
    funext fun a => Fin.ext (by
      match a with
      | ⟨0, _⟩ => exact (r_W_0 _ _).trans hk
      | ⟨1, _⟩ => exact r_W_1 _ _)
  rw [el, er]

/-- Queries against keys, passage by passage: at (p, n, m), the sum over k of Q(p, n, k) K(p, m, k). -/
theorem dotQK_apply (Q K : FVec Ideal S64x512x768 .f32) (p : Fin 64) (n m : Fin 512) :
    Host.dotGeneral dot_S64x512x768_S64x512x768_S64x512x512_2_2_1_1_0_0 none Q K (ix3 p n m)
      = ∑ k : Fin 768, Q (ix3 p n k) * K (ix3 p m k) := by
  simp only [Host.dotGeneral]
  rw [Ideal.dotGeneral_apply, ← Equiv.sum_comp (contrEquiv1 dot_S64x512x768_S64x512x768_S64x512x512_2_2_1_1_0_0 768 rfl rfl).symm]
  refine Finset.sum_congr rfl fun k _ => ?_
  have hk := contrEquiv1_symm_val dot_S64x512x768_S64x512x768_S64x512x512_2_2_1_1_0_0 768 rfl rfl k
  have el : dot_S64x512x768_S64x512x768_S64x512x512_2_2_1_1_0_0.lhsIdx (ix3 p n m)
      ((contrEquiv1 dot_S64x512x768_S64x512x768_S64x512x512_2_2_1_1_0_0 768 rfl rfl).symm k) = ix3 p n k :=
    funext fun a => Fin.ext (by
      match a with
      | ⟨0, _⟩ => exact l_QK_0 _ _
      | ⟨1, _⟩ => exact l_QK_1 _ _
      | ⟨2, _⟩ => exact (l_QK_2 _ _).trans hk)
  have er : dot_S64x512x768_S64x512x768_S64x512x512_2_2_1_1_0_0.rhsIdx (ix3 p n m)
      ((contrEquiv1 dot_S64x512x768_S64x512x768_S64x512x512_2_2_1_1_0_0 768 rfl rfl).symm k) = ix3 p m k :=
    funext fun a => Fin.ext (by
      match a with
      | ⟨0, _⟩ => exact r_QK_0 _ _
      | ⟨1, _⟩ => exact r_QK_1 _ _
      | ⟨2, _⟩ => exact (r_QK_2 _ _).trans hk)
  rw [el, er]

/-- Softmax weights against values, passage by passage: at (p, n, d), the sum over m of P(p, n, m) V(p, m, d). -/
theorem dotPV_apply (P : FVec Ideal S64x512x512 .f32) (V : FVec Ideal S64x512x768 .f32) (p : Fin 64) (n : Fin 512) (d : Fin 768) :
    Host.dotGeneral dot_S64x512x512_S64x512x768_S64x512x768_2_1_1_2_0_0 none P V (ix3 p n d)
      = ∑ k : Fin 512, P (ix3 p n k) * V (ix3 p k d) := by
  simp only [Host.dotGeneral]
  rw [Ideal.dotGeneral_apply, ← Equiv.sum_comp (contrEquiv1 dot_S64x512x512_S64x512x768_S64x512x768_2_1_1_2_0_0 512 rfl rfl).symm]
  refine Finset.sum_congr rfl fun k _ => ?_
  have hk := contrEquiv1_symm_val dot_S64x512x512_S64x512x768_S64x512x768_2_1_1_2_0_0 512 rfl rfl k
  have el : dot_S64x512x512_S64x512x768_S64x512x768_2_1_1_2_0_0.lhsIdx (ix3 p n d)
      ((contrEquiv1 dot_S64x512x512_S64x512x768_S64x512x768_2_1_1_2_0_0 512 rfl rfl).symm k) = ix3 p n k :=
    funext fun a => Fin.ext (by
      match a with
      | ⟨0, _⟩ => exact l_PV_0 _ _
      | ⟨1, _⟩ => exact l_PV_1 _ _
      | ⟨2, _⟩ => exact (l_PV_2 _ _).trans hk)
  have er : dot_S64x512x512_S64x512x768_S64x512x768_2_1_1_2_0_0.rhsIdx (ix3 p n d)
      ((contrEquiv1 dot_S64x512x512_S64x512x768_S64x512x768_2_1_1_2_0_0 512 rfl rfl).symm k) = ix3 p k d :=
    funext fun a => Fin.ext (by
      match a with
      | ⟨0, _⟩ => exact r_PV_0 _ _
      | ⟨1, _⟩ => exact (r_PV_1 _ _).trans hk
      | ⟨2, _⟩ => exact r_PV_2 _ _)
  rw [el, er]

/-! ## Broadcasts at an entry -/

/-- A scalar broadcast to any shape is the scalar everywhere. -/
theorem scalar_apply {t : Shape} (h : S_.BroadcastsInDim t (![] : Fin 0 → Fin t.rank)) (c : FVec Ideal S_ .f32) (i : t.Idx) :
    broadcastInDim t ![] h c i = c ix0 :=
  broadcastInDim_apply _ h c i ix0 (fun a => a.elim0)

/-- A row of 768 broadcast over passages and tokens, at (p, n, e), is the row's entry e. -/
theorem biasRow_apply (c : FVec Ideal S768 .f32) (p : Fin 64) (n : Fin 512) (e : Fin 768) :
    broadcastInDim S64x512x768 ![0, 1, 2] bcast_S1x1x768_S64x512x768_0_1_2 (broadcastInDim S1x1x768 ![2] bcast_S768_S1x1x768_2 c) (ix3 p n e)
      = bRow c e :=
  (broadcastInDim_apply _ bcast_S1x1x768_S64x512x768_0_1_2 _ (ix3 p n e) (ix3 (0 : Fin 1) (0 : Fin 1) e) (fun a => by
      match a with
      | ⟨0, _⟩ => rfl
      | ⟨1, _⟩ => rfl
      | ⟨2, _⟩ => rfl)).trans
    (broadcastInDim_apply _ bcast_S768_S1x1x768_2 c (ix3 (0 : Fin 1) (0 : Fin 1) e) (ix1 e) (fun a => by
      match a with
      | ⟨0, _⟩ => rfl))

/-- A per-row statistic [64, 512] as a column [64, 512, 1], at (p, n, 0). -/
theorem col_apply (s : FVec Ideal S64x512 .f32) (p : Fin 64) (n : Fin 512) (u : Fin 1) :
    broadcastInDim S64x512x1 ![0, 1] bcast_S64x512_S64x512x1_0_1 s (ix3 p n u) = s (ix2 p n) :=
  broadcastInDim_apply _ bcast_S64x512_S64x512x1_0_1 s (ix3 p n u) (ix2 p n) (fun a => by
    match a with
    | ⟨0, _⟩ => rfl
    | ⟨1, _⟩ => rfl)

/-- A column [64, 512, 1] broadcast along 512 columns, at (p, n, m). -/
theorem colSq_apply (s : FVec Ideal S64x512x1 .f32) (p : Fin 64) (n m : Fin 512) :
    broadcastInDim S64x512x512 ![0, 1, 2] bcast_S64x512x1_S64x512x512_0_1_2 s (ix3 p n m) = s (ix3 p n (0 : Fin 1)) :=
  broadcastInDim_apply _ bcast_S64x512x1_S64x512x512_0_1_2 s (ix3 p n m) (ix3 p n (0 : Fin 1)) (fun a => by
    match a with
    | ⟨0, _⟩ => rfl
    | ⟨1, _⟩ => rfl
    | ⟨2, _⟩ => rfl)

/-- A column [64, 512, 1] broadcast along 768 columns, at (p, n, d). -/
theorem col768_apply (s : FVec Ideal S64x512x1 .f32) (p : Fin 64) (n : Fin 512) (d : Fin 768) :
    broadcastInDim S64x512x768 ![0, 1, 2] bcast_S64x512x1_S64x512x768_0_1_2 s (ix3 p n d) = s (ix3 p n (0 : Fin 1)) :=
  broadcastInDim_apply _ bcast_S64x512x1_S64x512x768_0_1_2 s (ix3 p n d) (ix3 p n (0 : Fin 1)) (fun a => by
    match a with
    | ⟨0, _⟩ => rfl
    | ⟨1, _⟩ => rfl
    | ⟨2, _⟩ => rfl)

/-! ## Reductions along the last axis at an entry -/

/-- The host sum along axis 2 of a [64, 512, b] array from a zero scalar, at (p, n): the sum over the row. -/
theorem sumSq_apply (E : FVec Ideal S64x512x512 .f32) (p : Fin 64) (n : Fin 512) :
    Host.reduceAdd E (constant (F := Ideal) S_ .f32 0x00000000#32) reducesTo_S64x512x512_S64x512_d2 h_S_ (ix2 p n)
      = ∑ k : Fin 512, E (ix3 p n k) := by
  simp only [Host.reduceAdd, Ideal.hostReduceAdd_def]
  rw [Ideal.hostReduceAdd_single reducesTo_S64x512x512_S64x512_d2 (by decide)]
  show Ideal.ofBits .f32 0x00000000#32 + _ = _
  rw [Ideal.ofBits_zero_f32, zero_add]
  refine Finset.sum_congr rfl fun k _ => ?_
  exact congrArg E (funext fun a => Fin.ext (by match a with | ⟨0, _⟩ => rfl | ⟨1, _⟩ => rfl | ⟨2, _⟩ => rfl))

theorem sum768_apply (Y : FVec Ideal S64x512x768 .f32) (p : Fin 64) (n : Fin 512) :
    Host.reduceAdd Y (constant (F := Ideal) S_ .f32 0x00000000#32) reducesTo_S64x512x768_S64x512_d2 h_S_ (ix2 p n)
      = ∑ k : Fin 768, Y (ix3 p n k) := by
  simp only [Host.reduceAdd, Ideal.hostReduceAdd_def]
  rw [Ideal.hostReduceAdd_single reducesTo_S64x512x768_S64x512_d2 (by decide)]
  show Ideal.ofBits .f32 0x00000000#32 + _ = _
  rw [Ideal.ofBits_zero_f32, zero_add]
  refine Finset.sum_congr rfl fun k _ => ?_
  exact congrArg Y (funext fun a => Fin.ext (by match a with | ⟨0, _⟩ => rfl | ⟨1, _⟩ => rfl | ⟨2, _⟩ => rfl))

/-- The host maximum along axis 2 from the bottom word, at (p, n): the fold of max over the row. -/
theorem maxSq_apply (Z : FVec Ideal S64x512x512 .f32) (p : Fin 64) (n : Fin 512) :
    Host.reduce FloatOps.maximumf Z (constant (F := Ideal) S_ .f32 0xFF800000#32) reducesTo_S64x512x512_S64x512_d2 h_S_ (ix2 p n)
      = (Finset.univ : Finset (Fin 512)).fold max (Ideal.ofBits .f32 0xFF800000#32) (fun k => Z (ix3 p n k)) :=
  (Host.reduce_eq_fold_single FloatOps.maximumf Z _ reducesTo_S64x512x512_S64x512_d2 (by decide) h_S_ (ix2 p n)).trans
    (congrArg ((Finset.univ : Finset (Fin 512)).fold max (Ideal.ofBits .f32 0xFF800000#32))
      (funext fun k => congrArg Z (funext fun a => Fin.ext (by match a with | ⟨0, _⟩ => rfl | ⟨1, _⟩ => rfl | ⟨2, _⟩ => rfl))))

/-! ## The stages as host operations -/

def hproj (X : FVec Ideal S64x512x768 .f32) (W : FVec Ideal S768x768 .f32) (c : FVec Ideal S768 .f32) : FVec Ideal S64x512x768 .f32 :=
  addf (Host.dotGeneral dot_S64x512x768_S768x768_S64x512x768_2_0_01_1_n_n none X W)
    (broadcastInDim S64x512x768 ![0, 1, 2] bcast_S1x1x768_S64x512x768_0_1_2 (broadcastInDim S1x1x768 ![2] bcast_S768_S1x1x768_2 c))

def hscores (Q K : FVec Ideal S64x512x768 .f32) : FVec Ideal S64x512x512 .f32 :=
  mulf (broadcastInDim S64x512x512 ![] bcast_S_S64x512x512 (constant (F := Ideal) S_ .f32 0x3D13CD3A#32))
    (Host.dotGeneral dot_S64x512x768_S64x512x768_S64x512x512_2_2_1_1_0_0 none Q K)

def hrowmax (Z : FVec Ideal S64x512x512 .f32) : FVec Ideal S64x512 .f32 :=
  maximumf (broadcastInDim S64x512 ![] bcast_S_S64x512 (constant (F := Ideal) S_ .f32 0xFF800000#32))
    (Host.reduce FloatOps.maximumf Z (constant (F := Ideal) S_ .f32 0xFF800000#32) reducesTo_S64x512x512_S64x512_d2 h_S_)

def hshift (Z : FVec Ideal S64x512x512 .f32) : FVec Ideal S64x512x512 .f32 :=
  subf Z (broadcastInDim S64x512x512 ![0, 1, 2] bcast_S64x512x1_S64x512x512_0_1_2
    (broadcastInDim S64x512x1 ![0, 1] bcast_S64x512_S64x512x1_0_1 (hrowmax Z)))

def hnorm (E : FVec Ideal S64x512x512 .f32) : FVec Ideal S64x512x512 .f32 :=
  Host.divf E (broadcastInDim S64x512x512 ![0, 1, 2] bcast_S64x512x1_S64x512x512_0_1_2
    (broadcastInDim S64x512x1 ![0, 1] bcast_S64x512_S64x512x1_0_1
      (Host.reduceAdd E (constant (F := Ideal) S_ .f32 0x00000000#32) reducesTo_S64x512x512_S64x512_d2 h_S_)))

def hctx (P : FVec Ideal S64x512x512 .f32) (V : FVec Ideal S64x512x768 .f32) : FVec Ideal S64x512x768 .f32 :=
  maximumf (Host.dotGeneral dot_S64x512x512_S64x512x768_S64x512x768_2_1_1_2_0_0 none P V)
    (broadcastInDim S64x512x768 ![] bcast_S_S64x512x768 (constant (F := Ideal) S_ .f32 0x00000000#32))

def hmean (Y : FVec Ideal S64x512x768 .f32) : FVec Ideal S64x512x1 .f32 :=
  Host.divf (broadcastInDim S64x512x1 ![0, 1] bcast_S64x512_S64x512x1_0_1
      (Host.reduceAdd Y (constant (F := Ideal) S_ .f32 0x00000000#32) reducesTo_S64x512x768_S64x512_d2 h_S_))
    (broadcastInDim S64x512x1 ![] bcast_S_S64x512x1 (constant (F := Ideal) S_ .f32 0x44400000#32))

def hcent (Y : FVec Ideal S64x512x768 .f32) : FVec Ideal S64x512x768 .f32 :=
  subf Y (broadcastInDim S64x512x768 ![0, 1, 2] bcast_S64x512x1_S64x512x768_0_1_2 (hmean Y))

def hvar (Y : FVec Ideal S64x512x768 .f32) : FVec Ideal S64x512x1 .f32 :=
  Host.divf (broadcastInDim S64x512x1 ![0, 1] bcast_S64x512_S64x512x1_0_1
      (Host.reduceAdd (mulf (hcent Y) (hcent Y)) (constant (F := Ideal) S_ .f32 0x00000000#32) reducesTo_S64x512x768_S64x512_d2 h_S_))
    (broadcastInDim S64x512x1 ![] bcast_S_S64x512x1 (constant (F := Ideal) S_ .f32 0x44400000#32))

def hlnorm (g b : FVec Ideal S768 .f32) (Y : FVec Ideal S64x512x768 .f32) : FVec Ideal S64x512x768 .f32 :=
  addf (mulf (mulf (hcent Y)
        (broadcastInDim S64x512x768 ![0, 1, 2] bcast_S64x512x1_S64x512x768_0_1_2
          (Host.rsqrt (addf (hvar Y) (broadcastInDim S64x512x1 ![] bcast_S_S64x512x1 (constant (F := Ideal) S_ .f32 0x3727C5AC#32))))))
      (broadcastInDim S64x512x768 ![0, 1, 2] bcast_S1x1x768_S64x512x768_0_1_2 (broadcastInDim S1x1x768 ![2] bcast_S768_S1x1x768_2 g)))
    (broadcastInDim S64x512x768 ![0, 1, 2] bcast_S1x1x768_S64x512x768_0_1_2 (broadcastInDim S1x1x768 ![2] bcast_S768_S1x1x768_2 b))

/-- One layer on the whole batch. -/
def hlayer (X : FVec Ideal S64x512x768 .f32) (Wq Wk Wv : FVec Ideal S768x768 .f32) (bq bk bv g b : FVec Ideal S768 .f32) :
    FVec Ideal S64x512x768 .f32 :=
  hlnorm g b (addf X (hctx (hnorm (Host.exp (hshift (hscores (hproj X Wq bq) (hproj X Wk bk))))) (hproj X Wv bv)))

/-! ## Each stage at an entry -/

theorem hproj_eq (X : FVec Ideal S64x512x768 .f32) (W : FVec Ideal S768x768 .f32) (c : FVec Ideal S768 .f32) (p : Fin 64) :
    pas (hproj X W c) p = proj (wMat W) (bRow c) (pas X p) := by
  funext n e
  show addf _ _ (ix3 p n e) = _
  rw [addf_apply, biasRow_apply, dotW_apply]
  rfl

theorem hscores_eq (Q K : FVec Ideal S64x512x768 .f32) (p : Fin 64) : psq (hscores Q K) p = scores (pas Q p) (pas K p) := by
  funext n m
  show mulf _ _ (ix3 p n m) = _
  rw [mulf_apply, scalar_apply, dotQK_apply]
  rfl

theorem hrowmax_eq (Z : FVec Ideal S64x512x512 .f32) (p : Fin 64) : (fun n => hrowmax Z (ix2 p n)) = rowMax (psq Z p) := by
  funext n
  show maximumf _ _ (ix2 p n) = _
  rw [maximumf_apply, scalar_apply, maxSq_apply]
  rfl

theorem hshift_apply (Z : FVec Ideal S64x512x512 .f32) (p : Fin 64) (n m : Fin 512) :
    hshift Z (ix3 p n m) = Z (ix3 p n m) - hrowmax Z (ix2 p n) := by
  show subf Z _ (ix3 p n m) = _
  rw [subf_apply, colSq_apply, col_apply]

theorem hexpo_eq (Z : FVec Ideal S64x512x512 .f32) (p : Fin 64) : psq (Host.exp (hshift Z)) p = expo (psq Z p) := by
  funext n m
  show Ideal.exp (hshift Z (ix3 p n m)) = _
  rw [hshift_apply]
  exact congrArg (fun t => Ideal.exp (Z (ix3 p n m) - t)) (congrFun (hrowmax_eq Z p) n)

theorem hnorm_apply (E : FVec Ideal S64x512x512 .f32) (p : Fin 64) (n m : Fin 512) :
    hnorm E (ix3 p n m) = Ideal.div (E (ix3 p n m)) (∑ j : Fin 512, E (ix3 p n j)) := by
  show Ideal.div _ _ = _
  rw [colSq_apply, col_apply, sumSq_apply]

theorem hsoft_eq (Z : FVec Ideal S64x512x512 .f32) (p : Fin 64) : psq (hnorm (Host.exp (hshift Z))) p = soft (psq Z p) := by
  funext n m
  show hnorm _ (ix3 p n m) = _
  rw [hnorm_apply]
  show Ideal.div (psq (Host.exp (hshift Z)) p n m) (∑ j : Fin 512, psq (Host.exp (hshift Z)) p n j) = _
  rw [hexpo_eq]
  rfl

theorem hctx_eq (P : FVec Ideal S64x512x512 .f32) (V : FVec Ideal S64x512x768 .f32) (p : Fin 64) :
    pas (hctx P V) p = ctx (psq P p) (pas V p) := by
  funext n d
  show maximumf _ _ (ix3 p n d) = _
  rw [maximumf_apply, scalar_apply, dotPV_apply]
  show max _ (Ideal.ofBits .f32 0x00000000#32) = _
  rw [Ideal.ofBits_zero_f32]
  rfl

theorem hmean_eq (Y : FVec Ideal S64x512x768 .f32) (p : Fin 64) : (fun n => hmean Y (ix3 p n (0 : Fin 1))) = mean (pas Y p) := by
  funext n
  show Ideal.div _ _ = _
  rw [col_apply, scalar_apply, sum768_apply]
  rfl

theorem hcent_eq (Y : FVec Ideal S64x512x768 .f32) (p : Fin 64) : pas (hcent Y) p = cent (pas Y p) := by
  funext n d
  show subf _ _ (ix3 p n d) = _
  rw [subf_apply, col768_apply]
  exact congrArg (Y (ix3 p n d) - ·) (congrFun (hmean_eq Y p) n)

theorem hvar_eq (Y : FVec Ideal S64x512x768 .f32) (p : Fin 64) : (fun n => hvar Y (ix3 p n (0 : Fin 1))) = var (pas Y p) := by
  funext n
  show Ideal.div _ _ = _
  rw [col_apply, scalar_apply, sum768_apply]
  show Ideal.div (∑ d : Fin 768, pas (hcent Y) p n d * pas (hcent Y) p n d) _ = _
  rw [hcent_eq]
  rfl

theorem hlnorm_eq (g b : FVec Ideal S768 .f32) (Y : FVec Ideal S64x512x768 .f32) (p : Fin 64) :
    pas (hlnorm g b Y) p = lnorm (bRow g) (bRow b) (pas Y p) := by
  funext n d
  show addf (mulf (mulf _ _) _) _ (ix3 p n d) = _
  rw [addf_apply, mulf_apply, mulf_apply, biasRow_apply, biasRow_apply, col768_apply]
  show pas (hcent Y) p n d * Ideal.rsqrt ((fun n => hvar Y (ix3 p n (0 : Fin 1))) n + _) * bRow g d + bRow b d = _
  rw [hcent_eq, hvar_eq, scalar_apply]
  rfl

theorem hlayer_eq (X : FVec Ideal S64x512x768 .f32) (Wq Wk Wv : FVec Ideal S768x768 .f32) (bq bk bv g b : FVec Ideal S768 .f32)
    (p : Fin 64) :
    pas (hlayer X Wq Wk Wv bq bk bv g b) p
      = layer (wMat Wq) (wMat Wk) (wMat Wv) (bRow bq) (bRow bk) (bRow bv) (bRow g) (bRow b) (pas X p) := by
  unfold hlayer layer
  rw [hlnorm_eq]
  refine congrArg (lnorm (bRow g) (bRow b)) ?_
  funext n d
  show X (ix3 p n d) + pas (hctx _ _) p n d = _
  rw [hctx_eq, hsoft_eq, hscores_eq, hproj_eq, hproj_eq, hproj_eq]

end Cert.ReferenceIdeal.HostLayer

end
-- ==== Proof.RefRun.lean ====
/-
  The reference's run, read stretch by stretch.

  The reference is one straight line of 187 host operations. Every weakly fair execution ends with each buffer at the
  fold of the operations' results over the launch contents, and that fold over a concatenation is the fold over the
  second part started from the fold over the first. The line is cut in four: the operations that assemble the batch,
  the first layer, the second layer, and the tail that slices the final activations into the two results. After each
  stretch only a few buffers matter (the batch or the layer's output, the assembled question rows, the word rows, the
  stacked parameters), each a short term of the buffers the stretch reads; a layer's stretch is the host layer of the
  specification's stages on its input buffer, with that layer's slices of the parameters.
-/
import proofs.«104126_j60206851555566_1_alg».proof.Proof.RefOps
import proofs.«104126_j60206851555566_1_alg».proof.Proof.HostLayer
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.HostLayer

/-! ## The four stretches -/

section Lists
variable {F : FTy → Type} [FloatOps F]

/-- Operations 1 to 16: the per-word weights gathered and applied, the question rows shifted, the batch joined. -/
abbrev opsA : List (HloOp τ sig (Elt F)) :=
  [ nullary main_c (constantI S_ 32 0#32),
    unary main_c main_v0 (broadcastInDim S28672 ![] bcast_S_S28672 : (⟨S_, .i32⟩ : BufTy).Contents (Elt F) → (⟨S28672, .i32⟩ : BufTy).Contents (Elt F)),
    binary main_arg3 main_v0 main_v1 (cmpi .slt : (⟨S28672, .i32⟩ : BufTy).Contents (Elt F) → (⟨S28672, .i32⟩ : BufTy).Contents (Elt F) → (⟨S28672, .i1⟩ : BufTy).Contents (Elt F)),
    nullary main_c_0 (constantI S_ 32 4096#32),
    unary main_c_0 main_v2 (broadcastInDim S28672 ![] bcast_S_S28672 : (⟨S_, .i32⟩ : BufTy).Contents (Elt F) → (⟨S28672, .i32⟩ : BufTy).Contents (Elt F)),
    binary main_arg3 main_v2 main_v3 (addi : (⟨S28672, .i32⟩ : BufTy).Contents (Elt F) → (⟨S28672, .i32⟩ : BufTy).Contents (Elt F) → (⟨S28672, .i32⟩ : BufTy).Contents (Elt F)),
    ternary main_v1 main_v3 main_arg3 main_v4 (select : (⟨S28672, .i1⟩ : BufTy).Contents (Elt F) → (⟨S28672, .i32⟩ : BufTy).Contents (Elt F) → (⟨S28672, .i32⟩ : BufTy).Contents (Elt F) → (⟨S28672, .i32⟩ : BufTy).Contents (Elt F)),
    unary main_v4 main_v5 (broadcastInDim S28672x1 ![0] bcast_S28672_S28672x1_0 : (⟨S28672, .i32⟩ : BufTy).Contents (Elt F) → (⟨S28672x1, .i32⟩ : BufTy).Contents (Elt F)),
    binary main_arg4 main_v5 main_v6 ((fun x i => Host.gather gather_S4096_S28672x1_S28672_n_0_n_n_0_1_1 x i) : (⟨S4096, .f32⟩ : BufTy).Contents (Elt F) → (⟨S28672x1, .i32⟩ : BufTy).Contents (Elt F) → (⟨S28672, .f32⟩ : BufTy).Contents (Elt F)),
    unary main_v6 main_v7 (broadcastInDim S28672x1 ![0] bcast_S28672_S28672x1_0 : (⟨S28672, .f32⟩ : BufTy).Contents (Elt F) → (⟨S28672x1, .f32⟩ : BufTy).Contents (Elt F)),
    unary main_v7 main_v8 (broadcastInDim S28672x768 ![0, 1] bcast_S28672x1_S28672x768_0_1 : (⟨S28672x1, .f32⟩ : BufTy).Contents (Elt F) → (⟨S28672x768, .f32⟩ : BufTy).Contents (Elt F)),
    binary main_arg2 main_v8 main_v9 (mulf : (⟨S28672x768, .f32⟩ : BufTy).Contents (Elt F) → (⟨S28672x768, .f32⟩ : BufTy).Contents (Elt F) → (⟨S28672x768, .f32⟩ : BufTy).Contents (Elt F)),
    reshape main_v9 main_v10 rfl shapeCasts_S28672x768_S64x448x768,
    unary main_arg1 main_v11 (broadcastInDim S64x64x768 ![0, 1, 2] bcast_S1x64x768_S64x64x768_0_1_2 : (⟨S1x64x768, .f32⟩ : BufTy).Contents (Elt F) → (⟨S64x64x768, .f32⟩ : BufTy).Contents (Elt F)),
    binary main_arg0 main_v11 main_v12 (addf : (⟨S64x64x768, .f32⟩ : BufTy).Contents (Elt F) → (⟨S64x64x768, .f32⟩ : BufTy).Contents (Elt F) → (⟨S64x64x768, .f32⟩ : BufTy).Contents (Elt F)),
    binary main_v12 main_v10 main_v13 ((fun a b => concatenate S64x512x768 1 [⟨S64x64x768, a⟩, ⟨S64x448x768, b⟩] concatenates_S64x64x768_S64x448x768_S64x512x768_d1) : (⟨S64x64x768, .f32⟩ : BufTy).Contents (Elt F) → (⟨S64x448x768, .f32⟩ : BufTy).Contents (Elt F) → (⟨S64x512x768, .f32⟩ : BufTy).Contents (Elt F)) ]

/-- Operations 17 to 99: the first layer. -/
abbrev opsB : List (HloOp τ sig (Elt F)) :=
  [ unary main_arg6 main_v14 ((extractStridedSlice S1x768x768 ![0, 0, 0] · slices_S2x768x768_S1x768x768_0_0_0) : (⟨S2x768x768, .f32⟩ : BufTy).Contents (Elt F) → (⟨S1x768x768, .f32⟩ : BufTy).Contents (Elt F)),
    reshape main_v14 main_v15 rfl shapeCasts_S1x768x768_S768x768,
    unary main_v15 main_v16 ((transpose S768x768 [1, 0] · transposes_S768x768_S768x768_1_0) : (⟨S768x768, .f32⟩ : BufTy).Contents (Elt F) → (⟨S768x768, .f32⟩ : BufTy).Contents (Elt F)),
    binary main_v13 main_v16 main_v17 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg7 main_v18 ((extractStridedSlice S1x768 ![0, 0] · slices_S2x768_S1x768_0_0) : (⟨S2x768, .f32⟩ : BufTy).Contents (Elt F) → (⟨S1x768, .f32⟩ : BufTy).Contents (Elt F)),
    reshape main_v18 main_v19 rfl shapeCasts_S1x768_S768,
    unary main_v19 main_v20 (broadcastInDim S1x1x768 ![2] bcast_S768_S1x1x768_2 : (⟨S768, .f32⟩ : BufTy).Contents (Elt F) → (⟨S1x1x768, .f32⟩ : BufTy).Contents (Elt F)),
    unary main_v20 main_v21 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v17 main_v21 main_v22 (addf : (⟨S64x512x768, .f32⟩ : BufTy).Contents (Elt F) → (⟨S64x512x768, .f32⟩ : BufTy).Contents (Elt F) → (⟨S64x512x768, .f32⟩ : BufTy).Contents (Elt F)),
    unary main_arg8 main_v23 ((extractStridedSlice S1x768x768 ![0, 0, 0] · slices_S2x768x768_S1x768x768_0_0_0) : (⟨S2x768x768, .f32⟩ : BufTy).Contents (Elt F) → (⟨S1x768x768, .f32⟩ : BufTy).Contents (Elt F)),
    reshape main_v23 main_v24 rfl shapeCasts_S1x768x768_S768x768,
    unary main_v24 main_v25 ((transpose S768x768 [1, 0] · transposes_S768x768_S768x768_1_0) : (⟨S768x768, .f32⟩ : BufTy).Contents (Elt F) → (⟨S768x768, .f32⟩ : BufTy).Contents (Elt F)),
    binary main_v13 main_v25 main_v26 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg9 main_v27 ((extractStridedSlice S1x768 ![0, 0] · slices_S2x768_S1x768_0_0) : (⟨S2x768, .f32⟩ : BufTy).Contents (Elt F) → (⟨S1x768, .f32⟩ : BufTy).Contents (Elt F)),
    reshape main_v27 main_v28 rfl shapeCasts_S1x768_S768,
    unary main_v28 main_v29 (broadcastInDim S1x1x768 ![2] bcast_S768_S1x1x768_2 : (⟨S768, .f32⟩ : BufTy).Contents (Elt F) → (⟨S1x1x768, .f32⟩ : BufTy).Contents (Elt F)),
    unary main_v29 main_v30 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v26 main_v30 main_v31 (addf : (⟨S64x512x768, .f32⟩ : BufTy).Contents (Elt F) → (⟨S64x512x768, .f32⟩ : BufTy).Contents (Elt F) → (⟨S64x512x768, .f32⟩ : BufTy).Contents (Elt F)),
    unary main_arg10 main_v32 ((extractStridedSlice S1x768x768 ![0, 0, 0] · slices_S2x768x768_S1x768x768_0_0_0) : (⟨S2x768x768, .f32⟩ : BufTy).Contents (Elt F) → (⟨S1x768x768, .f32⟩ : BufTy).Contents (Elt F)),
    reshape main_v32 main_v33 rfl shapeCasts_S1x768x768_S768x768,
    unary main_v33 main_v34 ((transpose S768x768 [1, 0] · transposes_S768x768_S768x768_1_0) : (⟨S768x768, .f32⟩ : BufTy).Contents (Elt F) → (⟨S768x768, .f32⟩ : BufTy).Contents (Elt F)),
    binary main_v13 main_v34 main_v35 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg11 main_v36 ((extractStridedSlice S1x768 ![0, 0] · slices_S2x768_S1x768_0_0) : (⟨S2x768, .f32⟩ : BufTy).Contents (Elt F) → (⟨S1x768, .f32⟩ : BufTy).Contents (Elt F)),
    reshape main_v36 main_v37 rfl shapeCasts_S1x768_S768,
    unary main_v37 main_v38 (broadcastInDim S1x1x768 ![2] bcast_S768_S1x1x768_2 : (⟨S768, .f32⟩ : BufTy).Contents (Elt F) → (⟨S1x1x768, .f32⟩ : BufTy).Contents (Elt F)),
    unary main_v38 main_v39 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v35 main_v39 main_v40 (addf : (⟨S64x512x768, .f32⟩ : BufTy).Contents (Elt F) → (⟨S64x512x768, .f32⟩ : BufTy).Contents (Elt F) → (⟨S64x512x768, .f32⟩ : BufTy).Contents (Elt F)),
    binary main_v22 main_v31 main_v41 ((fun l r => Host.dotGeneral dot_S64x512x768_S64x512x768_S64x512x512_2_2_1_1_0_0 none l r) : (⟨S64x512x768, .f32⟩ : BufTy).Contents (Elt F) → (⟨S64x512x768, .f32⟩ : BufTy).Contents (Elt F) → (⟨S64x512x512, .f32⟩ : BufTy).Contents (Elt F)),
    nullary main_cst (constant S_ .f32 0x3D13CD3A#32),
    unary main_cst main_v42 (broadcastInDim S64x512x512 ![] bcast_S_S64x512x512 : (⟨S_, .f32⟩ : BufTy).Contents (Elt F) → (⟨S64x512x512, .f32⟩ : BufTy).Contents (Elt F)),
    binary main_v42 main_v41 main_v43 (mulf : (⟨S64x512x512, .f32⟩ : BufTy).Contents (Elt F) → (⟨S64x512x512, .f32⟩ : BufTy).Contents (Elt F) → (⟨S64x512x512, .f32⟩ : BufTy).Contents (Elt F)),
    nullary main_cst_1 (constant S_ .f32 0xFF800000#32),
    binary main_v43 main_cst_1 main_v44 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    nullary main_cst_2 (constant S_ .f32 0xFF800000#32),
    unary main_cst_2 main_v45 (broadcastInDim S64x512 ![] bcast_S_S64x512 : (⟨S_, .f32⟩ : BufTy).Contents (Elt F) → (⟨S64x512, .f32⟩ : BufTy).Contents (Elt F)),
    binary main_v45 main_v44 main_v46 (maximumf : (⟨S64x512, .f32⟩ : BufTy).Contents (Elt F) → (⟨S64x512, .f32⟩ : BufTy).Contents (Elt F) → (⟨S64x512, .f32⟩ : BufTy).Contents (Elt F)),
    unary main_v46 main_v47 (broadcastInDim S64x512x1 ![0, 1] bcast_S64x512_S64x512x1_0_1 : (⟨S64x512, .f32⟩ : BufTy).Contents (Elt F) → (⟨S64x512x1, .f32⟩ : BufTy).Contents (Elt F)),
    unary main_v47 main_v48 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v43 main_v48 main_v49 (subf : (⟨S64x512x512, .f32⟩ : BufTy).Contents (Elt F) → (⟨S64x512x512, .f32⟩ : BufTy).Contents (Elt F) → (⟨S64x512x512, .f32⟩ : BufTy).Contents (Elt F)),
    unary main_v49 main_v50 (Host.exp : (⟨S64x512x512, .f32⟩ : BufTy).Contents (Elt F) → (⟨S64x512x512, .f32⟩ : BufTy).Contents (Elt F)),
    nullary main_cst_3 (constant S_ .f32 0x00000000#32),
    binary main_v50 main_cst_3 main_v51 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v51 main_v52 (broadcastInDim S64x512x1 ![0, 1] bcast_S64x512_S64x512x1_0_1 : (⟨S64x512, .f32⟩ : BufTy).Contents (Elt F) → (⟨S64x512x1, .f32⟩ : BufTy).Contents (Elt F)),
    unary main_v52 main_v53 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v50 main_v53 main_v54 (Host.divf : (⟨S64x512x512, .f32⟩ : BufTy).Contents (Elt F) → (⟨S64x512x512, .f32⟩ : BufTy).Contents (Elt F) → (⟨S64x512x512, .f32⟩ : BufTy).Contents (Elt F)),
    binary main_v54 main_v40 main_v55 ((fun l r => Host.dotGeneral dot_S64x512x512_S64x512x768_S64x512x768_2_1_1_2_0_0 none l r) : (⟨S64x512x512, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x512x768, .f32⟩) main_call0_v0) (broadcastInDim S64x512x768 ![] bcast_S_S64x512x768),
    TRef.binary (TRef.of (T := ⟨S64x512x768, .f32⟩) main_v55) (TRef.of (T := ⟨S64x512x768, .f32⟩) main_call0_v0) (TRef.of (T := ⟨S64x512x768, .f32⟩) main_v56) maximumf,
    binary main_v13 main_v56 main_v57 (addf : (⟨S64x512x768, .f32⟩ : BufTy).Contents (Elt F) → (⟨S64x512x768, .f32⟩ : BufTy).Contents (Elt F) → (⟨S64x512x768, .f32⟩ : BufTy).Contents (Elt F)),
    unary main_arg12 main_v58 ((extractStridedSlice S1x768 ![0, 0] · slices_S2x768_S1x768_0_0) : (⟨S2x768, .f32⟩ : BufTy).Contents (Elt F) → (⟨S1x768, .f32⟩ : BufTy).Contents (Elt F)),
    reshape main_v58 main_v59 rfl shapeCasts_S1x768_S768,
    unary main_arg13 main_v60 ((extractStridedSlice S1x768 ![0, 0] · slices_S2x768_S1x768_0_0) : (⟨S2x768, .f32⟩ : BufTy).Contents (Elt F) → (⟨S1x768, .f32⟩ : BufTy).Contents (Elt F)),
    reshape main_v60 main_v61 rfl shapeCasts_S1x768_S768,
    nullary main_cst_4 (constant S_ .f32 0x00000000#32),
    binary main_v57 main_cst_4 main_v62 ((fun x v => Host.reduceAdd x v reducesTo_S64x512x768_S64x512_d2 h_S_) : (⟨S64x512x768, .f32⟩ : BufTy).Contents (Elt F) → (⟨S_, .f32⟩ : BufTy).Contents (Elt F) → (⟨S64x512, .f32⟩ : BufTy).Contents (Elt F)),
    unary main_v62 main_v63 (broadcastInDim S64x512x1 ![0, 1] bcast_S64x512_S64x512x1_0_1 : (⟨S64x512, .f32⟩ : BufTy).Contents (Elt F) → (⟨S64x512x1, .f32⟩ : BufTy).Contents (Elt F)),
    nullary main_cst_5 (constant S_ .f32 0x44400000#32),
    unary main_cst_5 main_v64 (broadcastInDim S64x512x1 ![] bcast_S_S64x512x1 : (⟨S_, .f32⟩ : BufTy).Contents (Elt F) → (⟨S64x512x1, .f32⟩ : BufTy).Contents (Elt F)),
    binary main_v63 main_v64 main_v65 (Host.divf : (⟨S64x512x1, .f32⟩ : BufTy).Contents (Elt F) → (⟨S64x512x1, .f32⟩ : BufTy).Contents (Elt F) → (⟨S64x512x1, .f32⟩ : BufTy).Contents (Elt F)),
    unary main_v65 main_v66 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v57 main_v66 main_v67 (subf : (⟨S64x512x768, .f32⟩ : BufTy).Contents (Elt F) → (⟨S64x512x768, .f32⟩ : BufTy).Contents (Elt F) → (⟨S64x512x768, .f32⟩ : BufTy).Contents (Elt F)),
    binary main_v67 main_v67 main_v68 (mulf : (⟨S64x512x768, .f32⟩ : BufTy).Contents (Elt F) → (⟨S64x512x768, .f32⟩ : BufTy).Contents (Elt F) → (⟨S64x512x768, .f32⟩ : BufTy).Contents (Elt F)),
    nullary main_cst_6 (constant S_ .f32 0x00000000#32),
    binary main_v68 main_cst_6 main_v69 ((fun x v => Host.reduceAdd x v reducesTo_S64x512x768_S64x512_d2 h_S_) : (⟨S64x512x768, .f32⟩ : BufTy).Contents (Elt F) → (⟨S_, .f32⟩ : BufTy).Contents (Elt F) → (⟨S64x512, .f32⟩ : BufTy).Contents (Elt F)),
    unary main_v69 main_v70 (broadcastInDim S64x512x1 ![0, 1] bcast_S64x512_S64x512x1_0_1 : (⟨S64x512, .f32⟩ : BufTy).Contents (Elt F) → (⟨S64x512x1, .f32⟩ : BufTy).Contents (Elt F)),
    nullary main_cst_7 (constant S_ .f32 0x44400000#32),
    unary main_cst_7 main_v71 (broadcastInDim S64x512x1 ![] bcast_S_S64x512x1 : (⟨S_, .f32⟩ : BufTy).Contents (Elt F) → (⟨S64x512x1, .f32⟩ : BufTy).Contents (Elt F)),
    binary main_v70 main_v71 main_v72 (Host.divf : (⟨S64x512x1, .f32⟩ : BufTy).Contents (Elt F) → (⟨S64x512x1, .f32⟩ : BufTy).Contents (Elt F) → (⟨S64x512x1, .f32⟩ : BufTy).Contents (Elt F)),
    unary main_v65 main_v73 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v57 main_v73 main_v74 (subf : (⟨S64x512x768, .f32⟩ : BufTy).Contents (Elt F) → (⟨S64x512x768, .f32⟩ : BufTy).Contents (Elt F) → (⟨S64x512x768, .f32⟩ : BufTy).Contents (Elt F)),
    nullary main_cst_8 (constant S_ .f32 0x3727C5AC#32),
    unary main_cst_8 main_v75 (broadcastInDim S64x512x1 ![] bcast_S_S64x512x1 : (⟨S_, .f32⟩ : BufTy).Contents (Elt F) → (⟨S64x512x1, .f32⟩ : BufTy).Contents (Elt F)),
    binary main_v72 main_v75 main_v76 (addf : (⟨S64x512x1, .f32⟩ : BufTy).Contents (Elt F) → (⟨S64x512x1, .f32⟩ : BufTy).Contents (Elt F) → (⟨S64x512x1, .f32⟩ : BufTy).Contents (Elt F)),
    unary main_v76 main_v77 (Host.rsqrt : (⟨S64x512x1, .f32⟩ : BufTy).Contents (Elt F) → (⟨S64x512x1, .f32⟩ : BufTy).Contents (Elt F)),
    unary main_v77 main_v78 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v74 main_v78 main_v79 (mulf : (⟨S64x512x768, .f32⟩ : BufTy).Contents (Elt F) → (⟨S64x512x768, .f32⟩ : BufTy).Contents (Elt F) → (⟨S64x512x768, .f32⟩ : BufTy).Contents (Elt F)),
    unary main_v59 main_v80 (broadcastInDim S1x1x768 ![2] bcast_S768_S1x1x768_2 : (⟨S768, .f32⟩ : BufTy).Contents (Elt F) → (⟨S1x1x768, .f32⟩ : BufTy).Contents (Elt F)),
    unary main_v80 main_v81 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v79 main_v81 main_v82 (mulf : (⟨S64x512x768, .f32⟩ : BufTy).Contents (Elt F) → (⟨S64x512x768, .f32⟩ : BufTy).Contents (Elt F) → (⟨S64x512x768, .f32⟩ : BufTy).Contents (Elt F)),
    unary main_v61 main_v83 (broadcastInDim S1x1x768 ![2] bcast_S768_S1x1x768_2 : (⟨S768, .f32⟩ : BufTy).Contents (Elt F) → (⟨S1x1x768, .f32⟩ : BufTy).Contents (Elt F)),
    unary main_v83 main_v84 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v82 main_v84 main_v85 (addf : (⟨S64x512x768, .f32⟩ : BufTy).Contents (Elt F) → (⟨S64x512x768, .f32⟩ : BufTy).Contents (Elt F) → (⟨S64x512x768, .f32⟩ : BufTy).Contents (Elt F)) ]

/-- Operations 100 to 182: the second layer. -/
abbrev opsC : List (HloOp τ sig (Elt F)) :=
  [ unary main_arg6 main_v86 ((extractStridedSlice S1x768x768 ![1, 0, 0] · slices_S2x768x768_S1x768x768_1_0_0) : (⟨S2x768x768, .f32⟩ : BufTy).Contents (Elt F) → (⟨S1x768x768, .f32⟩ : BufTy).Contents (Elt F)),
    reshape main_v86 main_v87 rfl shapeCasts_S1x768x768_S768x768,
    unary main_v87 main_v88 ((transpose S768x768 [1, 0] · transposes_S768x768_S768x768_1_0) : (⟨S768x768, .f32⟩ : BufTy).Contents (Elt F) → (⟨S768x768, .f32⟩ : BufTy).Contents (Elt F)),
    binary main_v85 main_v88 main_v89 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg7 main_v90 ((extractStridedSlice S1x768 ![1, 0] · slices_S2x768_S1x768_1_0) : (⟨S2x768, .f32⟩ : BufTy).Contents (Elt F) → (⟨S1x768, .f32⟩ : BufTy).Contents (Elt F)),
    reshape main_v90 main_v91 rfl shapeCasts_S1x768_S768,
    unary main_v91 main_v92 (broadcastInDim S1x1x768 ![2] bcast_S768_S1x1x768_2 : (⟨S768, .f32⟩ : BufTy).Contents (Elt F) → (⟨S1x1x768, .f32⟩ : BufTy).Contents (Elt F)),
    unary main_v92 main_v93 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v89 main_v93 main_v94 (addf : (⟨S64x512x768, .f32⟩ : BufTy).Contents (Elt F) → (⟨S64x512x768, .f32⟩ : BufTy).Contents (Elt F) → (⟨S64x512x768, .f32⟩ : BufTy).Contents (Elt F)),
    unary main_arg8 main_v95 ((extractStridedSlice S1x768x768 ![1, 0, 0] · slices_S2x768x768_S1x768x768_1_0_0) : (⟨S2x768x768, .f32⟩ : BufTy).Contents (Elt F) → (⟨S1x768x768, .f32⟩ : BufTy).Contents (Elt F)),
    reshape main_v95 main_v96 rfl shapeCasts_S1x768x768_S768x768,
    unary main_v96 main_v97 ((transpose S768x768 [1, 0] · transposes_S768x768_S768x768_1_0) : (⟨S768x768, .f32⟩ : BufTy).Contents (Elt F) → (⟨S768x768, .f32⟩ : BufTy).Contents (Elt F)),
    binary main_v85 main_v97 main_v98 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg9 main_v99 ((extractStridedSlice S1x768 ![1, 0] · slices_S2x768_S1x768_1_0) : (⟨S2x768, .f32⟩ : BufTy).Contents (Elt F) → (⟨S1x768, .f32⟩ : BufTy).Contents (Elt F)),
    reshape main_v99 main_v100 rfl shapeCasts_S1x768_S768,
    unary main_v100 main_v101 (broadcastInDim S1x1x768 ![2] bcast_S768_S1x1x768_2 : (⟨S768, .f32⟩ : BufTy).Contents (Elt F) → (⟨S1x1x768, .f32⟩ : BufTy).Contents (Elt F)),
    unary main_v101 main_v102 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v98 main_v102 main_v103 (addf : (⟨S64x512x768, .f32⟩ : BufTy).Contents (Elt F) → (⟨S64x512x768, .f32⟩ : BufTy).Contents (Elt F) → (⟨S64x512x768, .f32⟩ : BufTy).Contents (Elt F)),
    unary main_arg10 main_v104 ((extractStridedSlice S1x768x768 ![1, 0, 0] · slices_S2x768x768_S1x768x768_1_0_0) : (⟨S2x768x768, .f32⟩ : BufTy).Contents (Elt F) → (⟨S1x768x768, .f32⟩ : BufTy).Contents (Elt F)),
    reshape main_v104 main_v105 rfl shapeCasts_S1x768x768_S768x768,
    unary main_v105 main_v106 ((transpose S768x768 [1, 0] · transposes_S768x768_S768x768_1_0) : (⟨S768x768, .f32⟩ : BufTy).Contents (Elt F) → (⟨S768x768, .f32⟩ : BufTy).Contents (Elt F)),
    binary main_v85 main_v106 main_v107 ((fun l r => Host.dotGeneral dot_S64x512x768_S768x768_S64x512x768_2_0_01_1_n_n none l r) : (⟨S64x512x768, .f32⟩ : BufTy).Contents (Elt F) → (⟨S768x768, .f32⟩ : BufTy).Contents (Elt F) → (⟨S64x512x768, .f32⟩ : BufTy).Contents (Elt F)),
    unary main_arg11 main_v108 ((extractStridedSlice S1x768 ![1, 0] · slices_S2x768_S1x768_1_0) : (⟨S2x768, .f32⟩ : BufTy).Contents (Elt F) → (⟨S1x768, .f32⟩ : BufTy).Contents (Elt F)),
    reshape main_v108 main_v109 rfl shapeCasts_S1x768_S768,
    unary main_v109 main_v110 (broadcastInDim S1x1x768 ![2] bcast_S768_S1x1x768_2 : (⟨S768, .f32⟩ : BufTy).Contents (Elt F) → (⟨S1x1x768, .f32⟩ : BufTy).Contents (Elt F)),
    unary main_v110 main_v111 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v107 main_v111 main_v112 (addf : (⟨S64x512x768, .f32⟩ : BufTy).Contents (Elt F) → (⟨S64x512x768, .f32⟩ : BufTy).Contents (Elt F) → (⟨S64x512x768, .f32⟩ : BufTy).Contents (Elt F)),
    binary main_v94 main_v103 main_v113 ((fun l r => Host.dotGeneral dot_S64x512x768_S64x512x768_S64x512x512_2_2_1_1_0_0 none l r) : (⟨S64x512x768, .f32⟩ : BufTy).Contents (Elt F) → (⟨S64x512x768, .f32⟩ : BufTy).Contents (Elt F) → (⟨S64x512x512, .f32⟩ : BufTy).Contents (Elt F)),
    nullary main_cst_9 (constant S_ .f32 0x3D13CD3A#32),
    unary main_cst_9 main_v114 (broadcastInDim S64x512x512 ![] bcast_S_S64x512x512 : (⟨S_, .f32⟩ : BufTy).Contents (Elt F) → (⟨S64x512x512, .f32⟩ : BufTy).Contents (Elt F)),
    binary main_v114 main_v113 main_v115 (mulf : (⟨S64x512x512, .f32⟩ : BufTy).Contents (Elt F) → (⟨S64x512x512, .f32⟩ : BufTy).Contents (Elt F) → (⟨S64x512x512, .f32⟩ : BufTy).Contents (Elt F)),
    nullary main_cst_10 (constant S_ .f32 0xFF800000#32),
    binary main_v115 main_cst_10 main_v116 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    nullary main_cst_11 (constant S_ .f32 0xFF800000#32),
    unary main_cst_11 main_v117 (broadcastInDim S64x512 ![] bcast_S_S64x512 : (⟨S_, .f32⟩ : BufTy).Contents (Elt F) → (⟨S64x512, .f32⟩ : BufTy).Contents (Elt F)),
    binary main_v117 main_v116 main_v118 (maximumf : (⟨S64x512, .f32⟩ : BufTy).Contents (Elt F) → (⟨S64x512, .f32⟩ : BufTy).Contents (Elt F) → (⟨S64x512, .f32⟩ : BufTy).Contents (Elt F)),
    unary main_v118 main_v119 (broadcastInDim S64x512x1 ![0, 1] bcast_S64x512_S64x512x1_0_1 : (⟨S64x512, .f32⟩ : BufTy).Contents (Elt F) → (⟨S64x512x1, .f32⟩ : BufTy).Contents (Elt F)),
    unary main_v119 main_v120 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v115 main_v120 main_v121 (subf : (⟨S64x512x512, .f32⟩ : BufTy).Contents (Elt F) → (⟨S64x512x512, .f32⟩ : BufTy).Contents (Elt F) → (⟨S64x512x512, .f32⟩ : BufTy).Contents (Elt F)),
    unary main_v121 main_v122 (Host.exp : (⟨S64x512x512, .f32⟩ : BufTy).Contents (Elt F) → (⟨S64x512x512, .f32⟩ : BufTy).Contents (Elt F)),
    nullary main_cst_12 (constant S_ .f32 0x00000000#32),
    binary main_v122 main_cst_12 main_v123 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v123 main_v124 (broadcastInDim S64x512x1 ![0, 1] bcast_S64x512_S64x512x1_0_1 : (⟨S64x512, .f32⟩ : BufTy).Contents (Elt F) → (⟨S64x512x1, .f32⟩ : BufTy).Contents (Elt F)),
    unary main_v124 main_v125 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v122 main_v125 main_v126 (Host.divf : (⟨S64x512x512, .f32⟩ : BufTy).Contents (Elt F) → (⟨S64x512x512, .f32⟩ : BufTy).Contents (Elt F) → (⟨S64x512x512, .f32⟩ : BufTy).Contents (Elt F)),
    binary main_v126 main_v112 main_v127 ((fun l r => Host.dotGeneral dot_S64x512x512_S64x512x768_S64x512x768_2_1_1_2_0_0 none l r) : (⟨S64x512x512, .f32⟩ : BufTy).Contents (Elt F) → (⟨S64x512x768, .f32⟩ : BufTy).Contents (Elt F) → (⟨S64x512x768, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x512x768, .f32⟩) main_call1_v0) (broadcastInDim S64x512x768 ![] bcast_S_S64x512x768),
    TRef.binary (TRef.of (T := ⟨S64x512x768, .f32⟩) main_v127) (TRef.of (T := ⟨S64x512x768, .f32⟩) main_call1_v0) (TRef.of (T := ⟨S64x512x768, .f32⟩) main_v128) maximumf,
    binary main_v85 main_v128 main_v129 (addf : (⟨S64x512x768, .f32⟩ : BufTy).Contents (Elt F) → (⟨S64x512x768, .f32⟩ : BufTy).Contents (Elt F) → (⟨S64x512x768, .f32⟩ : BufTy).Contents (Elt F)),
    unary main_arg12 main_v130 ((extractStridedSlice S1x768 ![1, 0] · slices_S2x768_S1x768_1_0) : (⟨S2x768, .f32⟩ : BufTy).Contents (Elt F) → (⟨S1x768, .f32⟩ : BufTy).Contents (Elt F)),
    reshape main_v130 main_v131 rfl shapeCasts_S1x768_S768,
    unary main_arg13 main_v132 ((extractStridedSlice S1x768 ![1, 0] · slices_S2x768_S1x768_1_0) : (⟨S2x768, .f32⟩ : BufTy).Contents (Elt F) → (⟨S1x768, .f32⟩ : BufTy).Contents (Elt F)),
    reshape main_v132 main_v133 rfl shapeCasts_S1x768_S768,
    nullary main_cst_13 (constant S_ .f32 0x00000000#32),
    binary main_v129 main_cst_13 main_v134 ((fun x v => Host.reduceAdd x v reducesTo_S64x512x768_S64x512_d2 h_S_) : (⟨S64x512x768, .f32⟩ : BufTy).Contents (Elt F) → (⟨S_, .f32⟩ : BufTy).Contents (Elt F) → (⟨S64x512, .f32⟩ : BufTy).Contents (Elt F)),
    unary main_v134 main_v135 (broadcastInDim S64x512x1 ![0, 1] bcast_S64x512_S64x512x1_0_1 : (⟨S64x512, .f32⟩ : BufTy).Contents (Elt F) → (⟨S64x512x1, .f32⟩ : BufTy).Contents (Elt F)),
    nullary main_cst_14 (constant S_ .f32 0x44400000#32),
    unary main_cst_14 main_v136 (broadcastInDim S64x512x1 ![] bcast_S_S64x512x1 : (⟨S_, .f32⟩ : BufTy).Contents (Elt F) → (⟨S64x512x1, .f32⟩ : BufTy).Contents (Elt F)),
    binary main_v135 main_v136 main_v137 (Host.divf : (⟨S64x512x1, .f32⟩ : BufTy).Contents (Elt F) → (⟨S64x512x1, .f32⟩ : BufTy).Contents (Elt F) → (⟨S64x512x1, .f32⟩ : BufTy).Contents (Elt F)),
    unary main_v137 main_v138 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v129 main_v138 main_v139 (subf : (⟨S64x512x768, .f32⟩ : BufTy).Contents (Elt F) → (⟨S64x512x768, .f32⟩ : BufTy).Contents (Elt F) → (⟨S64x512x768, .f32⟩ : BufTy).Contents (Elt F)),
    binary main_v139 main_v139 main_v140 (mulf : (⟨S64x512x768, .f32⟩ : BufTy).Contents (Elt F) → (⟨S64x512x768, .f32⟩ : BufTy).Contents (Elt F) → (⟨S64x512x768, .f32⟩ : BufTy).Contents (Elt F)),
    nullary main_cst_15 (constant S_ .f32 0x00000000#32),
    binary main_v140 main_cst_15 main_v141 ((fun x v => Host.reduceAdd x v reducesTo_S64x512x768_S64x512_d2 h_S_) : (⟨S64x512x768, .f32⟩ : BufTy).Contents (Elt F) → (⟨S_, .f32⟩ : BufTy).Contents (Elt F) → (⟨S64x512, .f32⟩ : BufTy).Contents (Elt F)),
    unary main_v141 main_v142 (broadcastInDim S64x512x1 ![0, 1] bcast_S64x512_S64x512x1_0_1 : (⟨S64x512, .f32⟩ : BufTy).Contents (Elt F) → (⟨S64x512x1, .f32⟩ : BufTy).Contents (Elt F)),
    nullary main_cst_16 (constant S_ .f32 0x44400000#32),
    unary main_cst_16 main_v143 (broadcastInDim S64x512x1 ![] bcast_S_S64x512x1 : (⟨S_, .f32⟩ : BufTy).Contents (Elt F) → (⟨S64x512x1, .f32⟩ : BufTy).Contents (Elt F)),
    binary main_v142 main_v143 main_v144 (Host.divf : (⟨S64x512x1, .f32⟩ : BufTy).Contents (Elt F) → (⟨S64x512x1, .f32⟩ : BufTy).Contents (Elt F) → (⟨S64x512x1, .f32⟩ : BufTy).Contents (Elt F)),
    unary main_v137 main_v145 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v129 main_v145 main_v146 (subf : (⟨S64x512x768, .f32⟩ : BufTy).Contents (Elt F) → (⟨S64x512x768, .f32⟩ : BufTy).Contents (Elt F) → (⟨S64x512x768, .f32⟩ : BufTy).Contents (Elt F)),
    nullary main_cst_17 (constant S_ .f32 0x3727C5AC#32),
    unary main_cst_17 main_v147 (broadcastInDim S64x512x1 ![] bcast_S_S64x512x1 : (⟨S_, .f32⟩ : BufTy).Contents (Elt F) → (⟨S64x512x1, .f32⟩ : BufTy).Contents (Elt F)),
    binary main_v144 main_v147 main_v148 (addf : (⟨S64x512x1, .f32⟩ : BufTy).Contents (Elt F) → (⟨S64x512x1, .f32⟩ : BufTy).Contents (Elt F) → (⟨S64x512x1, .f32⟩ : BufTy).Contents (Elt F)),
    unary main_v148 main_v149 (Host.rsqrt : (⟨S64x512x1, .f32⟩ : BufTy).Contents (Elt F) → (⟨S64x512x1, .f32⟩ : BufTy).Contents (Elt F)),
    unary main_v149 main_v150 (broadcastInDim S64x512x768 ![0, 1, 2] bcast_S64x512x1_S64x512x768_0_1_2 : (⟨S64x512x1, .f32⟩ : BufTy).Contents (Elt F) → (⟨S64x512x768, .f32⟩ : BufTy).Contents (Elt F)),
    binary main_v146 main_v150 main_v151 (mulf : (⟨S64x512x768, .f32⟩ : BufTy).Contents (Elt F) → (⟨S64x512x768, .f32⟩ : BufTy).Contents (Elt F) → (⟨S64x512x768, .f32⟩ : BufTy).Contents (Elt F)),
    unary main_v131 main_v152 (broadcastInDim S1x1x768 ![2] bcast_S768_S1x1x768_2 : (⟨S768, .f32⟩ : BufTy).Contents (Elt F) → (⟨S1x1x768, .f32⟩ : BufTy).Contents (Elt F)),
    unary main_v152 main_v153 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v151 main_v153 main_v154 (mulf : (⟨S64x512x768, .f32⟩ : BufTy).Contents (Elt F) → (⟨S64x512x768, .f32⟩ : BufTy).Contents (Elt F) → (⟨S64x512x768, .f32⟩ : BufTy).Contents (Elt F)),
    unary main_v133 main_v155 (broadcastInDim S1x1x768 ![2] bcast_S768_S1x1x768_2 : (⟨S768, .f32⟩ : BufTy).Contents (Elt F) → (⟨S1x1x768, .f32⟩ : BufTy).Contents (Elt F)),
    unary main_v155 main_v156 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v154 main_v156 main_v157 (addf : (⟨S64x512x768, .f32⟩ : BufTy).Contents (Elt F) → (⟨S64x512x768, .f32⟩ : BufTy).Contents (Elt F) → (⟨S64x512x768, .f32⟩ : BufTy).Contents (Elt F)) ]

/-- Operations 183 to 187: the two results sliced off the final activations. -/
abbrev opsD : List (HloOp τ sig (Elt F)) :=
  [ unary main_v157 main_v158 ((extractStridedSlice S64x64x768 ![0, 0, 0] · slices_S64x512x768_S64x64x768_0_0_0) : (⟨S64x512x768, .f32⟩ : BufTy).Contents (Elt F) → (⟨S64x64x768, .f32⟩ : BufTy).Contents (Elt F)),
    binary main_v12 main_v158 main_v159 (addf : (⟨S64x64x768, .f32⟩ : BufTy).Contents (Elt F) → (⟨S64x64x768, .f32⟩ : BufTy).Contents (Elt F) → (⟨S64x64x768, .f32⟩ : BufTy).Contents (Elt F)),
    unary main_v157 main_v160 ((extractStridedSlice S64x448x768 ![0, 64, 0] · slices_S64x512x768_S64x448x768_0_64_0) : (⟨S64x512x768, .f32⟩ : BufTy).Contents (Elt F) → (⟨S64x448x768, .f32⟩ : BufTy).Contents (Elt F)),
    reshape main_v160 main_v161 rfl shapeCasts_S64x448x768_S28672x768,
    binary main_arg2 main_v161 main_v162 (addf : (⟨S28672x768, .f32⟩ : BufTy).Contents (Elt F) → (⟨S28672x768, .f32⟩ : BufTy).Contents (Elt F) → (⟨S28672x768, .f32⟩ : BufTy).Contents (Elt F)) ]

theorem ops_split : (RunP.ops (F := F)) = opsA ++ (opsB ++ (opsC ++ opsD)) := rfl

end Lists

/-! ## What each stretch computes -/

/-- The assembled question rows: the question rows plus the shared question. -/
def pre12 (x0 : FVec Ideal S64x64x768 .f32) (x1 : FVec Ideal S1x64x768 .f32) : FVec Ideal S64x64x768 .f32 :=
  addf x0 (broadcastInDim S64x64x768 ![0, 1, 2] bcast_S1x64x768_S64x64x768_0_1_2 x1)

/-- The assembled batch: per passage, the 64 question rows, then its 448 word rows each scaled by its sentence's weight. -/
def pre13 (x0 : FVec Ideal S64x64x768 .f32) (x1 : FVec Ideal S1x64x768 .f32) (x2 : FVec Ideal S28672x768 .f32)
    (x3 : IVec S28672 32) (x4 : FVec Ideal S4096 .f32) : FVec Ideal S64x512x768 .f32 :=
  concatenate S64x512x768 1 [⟨S64x64x768, pre12 x0 x1⟩, ⟨S64x448x768, shapeCast S64x448x768 (mulf x2 (broadcastInDim S28672x768 ![0, 1] bcast_S28672x1_S28672x768_0_1
    (broadcastInDim S28672x1 ![0] bcast_S28672_S28672x1_0 (Host.gather gather_S4096_S28672x1_S28672_n_0_n_n_0_1_1 x4
      (broadcastInDim S28672x1 ![0] bcast_S28672_S28672x1_0 (select (cmpi .slt x3 (broadcastInDim S28672 ![] bcast_S_S28672 (constantI S_ 32 0#32)))
        (addi x3 (broadcastInDim S28672 ![] bcast_S_S28672 (constantI S_ 32 4096#32))) x3)))))) shapeCasts_S28672x768_S64x448x768⟩]
    concatenates_S64x64x768_S64x448x768_S64x512x768_d1

/-- Slice l of a stacked weight array, as the matrix a layer multiplies by. -/
def wsl (off : Fin 3 → Nat) (h : S2x768x768.Slices off S1x768x768) (A : FVec Ideal S2x768x768 .f32) : FVec Ideal S768x768 .f32 :=
  transpose S768x768 [1, 0] (shapeCast S768x768 (extractStridedSlice S1x768x768 off A h) shapeCasts_S1x768x768_S768x768)
    transposes_S768x768_S768x768_1_0

/-- Row l of a stacked row array. -/
def bsl (off : Fin 2 → Nat) (h : S2x768.Slices off S1x768) (B : FVec Ideal S2x768 .f32) : FVec Ideal S768 .f32 :=
  shapeCast S768 (extractStridedSlice S1x768 off B h) shapeCasts_S1x768_S768

theorem readA13 (W : Valuation τ sig (Elt Ideal)) :
    after (opsA (F := Ideal)) W (Proc.devRef .tc main_v13)
      = pre13 (W (Proc.devRef .tc main_arg0)) (W (Proc.devRef .tc main_arg1)) (W (Proc.devRef .tc main_arg2)) (W (Proc.devRef .tc main_arg3)) (W (Proc.devRef .tc main_arg4)) := by
  after_results
  rfl

theorem readA12 (W : Valuation τ sig (Elt Ideal)) :
    after (opsA (F := Ideal)) W (Proc.devRef .tc main_v12) = pre12 (W (Proc.devRef .tc main_arg0)) (W (Proc.devRef .tc main_arg1)) := by
  after_results
  rfl

theorem keepA_arg2 (W : Valuation τ sig (Elt Ideal)) :
    after (opsA (F := Ideal)) W (Proc.devRef .tc main_arg2) = W (Proc.devRef .tc main_arg2) := by after_results

theorem keepA_arg6 (W : Valuation τ sig (Elt Ideal)) :
    after (opsA (F := Ideal)) W (Proc.devRef .tc main_arg6) = W (Proc.devRef .tc main_arg6) := by after_results

theorem keepA_arg7 (W : Valuation τ sig (Elt Ideal)) :
    after (opsA (F := Ideal)) W (Proc.devRef .tc main_arg7) = W (Proc.devRef .tc main_arg7) := by after_results

theorem keepA_arg8 (W : Valuation τ sig (Elt Ideal)) :
    after (opsA (F := Ideal)) W (Proc.devRef .tc main_arg8) = W (Proc.devRef .tc main_arg8) := by after_results

theorem keepA_arg9 (W : Valuation τ sig (Elt Ideal)) :
    after (opsA (F := Ideal)) W (Proc.devRef .tc main_arg9) = W (Proc.devRef .tc main_arg9) := by after_results

theorem keepA_arg10 (W : Valuation τ sig (Elt Ideal)) :
    after (opsA (F := Ideal)) W (Proc.devRef .tc main_arg10) = W (Proc.devRef .tc main_arg10) := by after_results

theorem keepA_arg11 (W : Valuation τ sig (Elt Ideal)) :
    after (opsA (F := Ideal)) W (Proc.devRef .tc main_arg11) = W (Proc.devRef .tc main_arg11) := by after_results

theorem keepA_arg12 (W : Valuation τ sig (Elt Ideal)) :
    after (opsA (F := Ideal)) W (Proc.devRef .tc main_arg12) = W (Proc.devRef .tc main_arg12) := by after_results

theorem keepA_arg13 (W : Valuation τ sig (Elt Ideal)) :
    after (opsA (F := Ideal)) W (Proc.devRef .tc main_arg13) = W (Proc.devRef .tc main_arg13) := by after_results

theorem readB85 (W : Valuation τ sig (Elt Ideal)) :
    after (opsB (F := Ideal)) W (Proc.devRef .tc main_v85)
      = hlayer (W (Proc.devRef .tc main_v13)) (wsl ![0, 0, 0] slices_S2x768x768_S1x768x768_0_0_0 (W (Proc.devRef .tc main_arg6)))
          (wsl ![0, 0, 0] slices_S2x768x768_S1x768x768_0_0_0 (W (Proc.devRef .tc main_arg8))) (wsl ![0, 0, 0] slices_S2x768x768_S1x768x768_0_0_0 (W (Proc.devRef .tc main_arg10)))
          (bsl ![0, 0] slices_S2x768_S1x768_0_0 (W (Proc.devRef .tc main_arg7))) (bsl ![0, 0] slices_S2x768_S1x768_0_0 (W (Proc.devRef .tc main_arg9)))
          (bsl ![0, 0] slices_S2x768_S1x768_0_0 (W (Proc.devRef .tc main_arg11))) (bsl ![0, 0] slices_S2x768_S1x768_0_0 (W (Proc.devRef .tc main_arg12)))
          (bsl ![0, 0] slices_S2x768_S1x768_0_0 (W (Proc.devRef .tc main_arg13))) := by
  after_results_simp
  rfl

theorem keepB_v12 (W : Valuation τ sig (Elt Ideal)) :
    after (opsB (F := Ideal)) W (Proc.devRef .tc main_v12) = W (Proc.devRef .tc main_v12) := by after_results

theorem keepB_arg2 (W : Valuation τ sig (Elt Ideal)) :
    after (opsB (F := Ideal)) W (Proc.devRef .tc main_arg2) = W (Proc.devRef .tc main_arg2) := by after_results

theorem keepB_arg6 (W : Valuation τ sig (Elt Ideal)) :
    after (opsB (F := Ideal)) W (Proc.devRef .tc main_arg6) = W (Proc.devRef .tc main_arg6) := by after_results

theorem keepB_arg7 (W : Valuation τ sig (Elt Ideal)) :
    after (opsB (F := Ideal)) W (Proc.devRef .tc main_arg7) = W (Proc.devRef .tc main_arg7) := by after_results

theorem keepB_arg8 (W : Valuation τ sig (Elt Ideal)) :
    after (opsB (F := Ideal)) W (Proc.devRef .tc main_arg8) = W (Proc.devRef .tc main_arg8) := by after_results

theorem keepB_arg9 (W : Valuation τ sig (Elt Ideal)) :
    after (opsB (F := Ideal)) W (Proc.devRef .tc main_arg9) = W (Proc.devRef .tc main_arg9) := by after_results

theorem keepB_arg10 (W : Valuation τ sig (Elt Ideal)) :
    after (opsB (F := Ideal)) W (Proc.devRef .tc main_arg10) = W (Proc.devRef .tc main_arg10) := by after_results

theorem keepB_arg11 (W : Valuation τ sig (Elt Ideal)) :
    after (opsB (F := Ideal)) W (Proc.devRef .tc main_arg11) = W (Proc.devRef .tc main_arg11) := by after_results

theorem keepB_arg12 (W : Valuation τ sig (Elt Ideal)) :
    after (opsB (F := Ideal)) W (Proc.devRef .tc main_arg12) = W (Proc.devRef .tc main_arg12) := by after_results

theorem keepB_arg13 (W : Valuation τ sig (Elt Ideal)) :
    after (opsB (F := Ideal)) W (Proc.devRef .tc main_arg13) = W (Proc.devRef .tc main_arg13) := by after_results

theorem readC157 (W : Valuation τ sig (Elt Ideal)) :
    after (opsC (F := Ideal)) W (Proc.devRef .tc main_v157)
      = hlayer (W (Proc.devRef .tc main_v85)) (wsl ![1, 0, 0] slices_S2x768x768_S1x768x768_1_0_0 (W (Proc.devRef .tc main_arg6)))
          (wsl ![1, 0, 0] slices_S2x768x768_S1x768x768_1_0_0 (W (Proc.devRef .tc main_arg8))) (wsl ![1, 0, 0] slices_S2x768x768_S1x768x768_1_0_0 (W (Proc.devRef .tc main_arg10)))
          (bsl ![1, 0] slices_S2x768_S1x768_1_0 (W (Proc.devRef .tc main_arg7))) (bsl ![1, 0] slices_S2x768_S1x768_1_0 (W (Proc.devRef .tc main_arg9)))
          (bsl ![1, 0] slices_S2x768_S1x768_1_0 (W (Proc.devRef .tc main_arg11))) (bsl ![1, 0] slices_S2x768_S1x768_1_0 (W (Proc.devRef .tc main_arg12)))
          (bsl ![1, 0] slices_S2x768_S1x768_1_0 (W (Proc.devRef .tc main_arg13))) := by
  after_results_simp
  rfl

theorem keepC_v12 (W : Valuation τ sig (Elt Ideal)) :
    after (opsC (F := Ideal)) W (Proc.devRef .tc main_v12) = W (Proc.devRef .tc main_v12) := by after_results

theorem keepC_arg2 (W : Valuation τ sig (Elt Ideal)) :
    after (opsC (F := Ideal)) W (Proc.devRef .tc main_arg2) = W (Proc.devRef .tc main_arg2) := by after_results

/-- The first result from the assembled question rows q and the final activations Y. -/
def tail0 (q : FVec Ideal S64x64x768 .f32) (Y : FVec Ideal S64x512x768 .f32) : FVec Ideal S64x64x768 .f32 :=
  addf q (extractStridedSlice S64x64x768 ![0, 0, 0] Y slices_S64x512x768_S64x64x768_0_0_0)

/-- The second result from the word rows w and the final activations Y. -/
def tail1 (w : FVec Ideal S28672x768 .f32) (Y : FVec Ideal S64x512x768 .f32) : FVec Ideal S28672x768 .f32 :=
  addf w (shapeCast S28672x768 (extractStridedSlice S64x448x768 ![0, 64, 0] Y slices_S64x512x768_S64x448x768_0_64_0)
    shapeCasts_S64x448x768_S28672x768)

theorem readD159 (W : Valuation τ sig (Elt Ideal)) :
    after (opsD (F := Ideal)) W (Proc.devRef .tc main_v159) = tail0 (W (Proc.devRef .tc main_v12)) (W (Proc.devRef .tc main_v157)) := by
  after_results
  rfl

theorem readD162 (W : Valuation τ sig (Elt Ideal)) :
    after (opsD (F := Ideal)) W (Proc.devRef .tc main_v162) = tail1 (W (Proc.devRef .tc main_arg2)) (W (Proc.devRef .tc main_v157)) := by
  after_results
  rfl

end Cert.ReferenceIdeal.RefRun

end
-- ==== Proof.RefValue.lean ====
/-
  The reference's two results, and its final activations at an index.

  Composing the four stretches, the reference ends with its first result at the assembled question rows plus the first
  64 rows of every passage of the final activations, and its second at the word rows plus the remaining 448 rows of
  every passage laid out one row per word, where the final activations are the host layer twice: on the assembled batch
  with slice 0 of every stacked parameter, then on that output with slice 1. Each slice, read at an index, is the
  stacked argument at the slice's number, a weight matrix with its two coordinates exchanged (the reference multiplies
  by the transpose). So the final activations at (p, n, d) are the two layers of the specification on passage p.
-/
import proofs.«104126_j60206851555566_1_alg».proof.Proof.RefRun
import proofs.«104126_j60206851555566_1_alg».proof.Proof.HostLayer

set_option maxRecDepth 16384

noncomputable section

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.AttnLayer Cert.ReferenceIdeal.HostLayer Cert.ReferenceIdeal.RefRun

/-! ## The parameter slices at an index -/

/-- The stacked weights as the specification takes them: slice l, feature in, feature out. -/
abbrev wT (A : FVec Ideal S2x768x768 .f32) : Fin 2 → Mat 768 768 := fun l d e => A (ix3 l e d)
/-- The stacked rows as the specification takes them. -/
abbrev bR (B : FVec Ideal S2x768 .f32) : Fin 2 → Fin 768 → EReal := fun l e => B (ix2 l e)

/-- Slice l of a stacked weight array, transposed: at (d, e) the stacked array at (l, e, d). -/
theorem wsl_eq (A : FVec Ideal S2x768x768 .f32) (off : Fin 3 → Nat) (l : Fin 2) (hoff : off = ![l.val, 0, 0])
    (h : S2x768x768.Slices off S1x768x768) : wMat (wsl off h A) = wT A l := by
  subst hoff
  funext d e
  show transpose S768x768 [1, 0] _ transposes_S768x768_S768x768_1_0 (ix2 d e) = _
  rw [transpose_ix2_apply, shapeCast_1ab_ab_apply]
  exact extractStridedSlice_apply _ A h (ix3 (0 : Fin 1) e d) (ix3 l e d) (fun a => by
    match a with
    | ⟨0, _⟩ => show l.val = l.val + 0; omega
    | ⟨1, _⟩ => show e.val = 0 + e.val; omega
    | ⟨2, _⟩ => show d.val = 0 + d.val; omega)

/-- Row l of a stacked row array: at e the stacked array at (l, e). -/
theorem bsl_eq (B : FVec Ideal S2x768 .f32) (off : Fin 2 → Nat) (l : Fin 2) (hoff : off = ![l.val, 0])
    (h : S2x768.Slices off S1x768) : bRow (bsl off h B) = bR B l := by
  subst hoff
  funext e
  show shapeCast S768 _ shapeCasts_S1x768_S768 (ix1 e) = _
  rw [shapeCast_1a_a_apply]
  exact extractStridedSlice_apply _ B h (ix2 (0 : Fin 1) e) (ix2 l e) (fun a => by
    match a with
    | ⟨0, _⟩ => show l.val = l.val + 0; omega
    | ⟨1, _⟩ => show e.val = 0 + e.val; omega)

theorem wsl0_eq (A : FVec Ideal S2x768x768 .f32) (h : S2x768x768.Slices ![0, 0, 0] S1x768x768) : wMat (wsl ![0, 0, 0] h A) = wT A 0 :=
  wsl_eq A _ 0 rfl h
theorem wsl1_eq (A : FVec Ideal S2x768x768 .f32) (h : S2x768x768.Slices ![1, 0, 0] S1x768x768) : wMat (wsl ![1, 0, 0] h A) = wT A 1 :=
  wsl_eq A _ 1 rfl h
theorem bsl0_eq (B : FVec Ideal S2x768 .f32) (h : S2x768.Slices ![0, 0] S1x768) : bRow (bsl ![0, 0] h B) = bR B 0 :=
  bsl_eq B _ 0 rfl h
theorem bsl1_eq (B : FVec Ideal S2x768 .f32) (h : S2x768.Slices ![1, 0] S1x768) : bRow (bsl ![1, 0] h B) = bR B 1 :=
  bsl_eq B _ 1 rfl h

/-! ## The final activations and the two results, as functions of the arguments -/

/-- The final activations: the host layer twice. -/
def acts (x0 : FVec Ideal S64x64x768 .f32) (x1 : FVec Ideal S1x64x768 .f32) (x2 : FVec Ideal S28672x768 .f32)
    (x3 : IVec S28672 32) (x4 : FVec Ideal S4096 .f32) (x6 : FVec Ideal S2x768x768 .f32) (x7 : FVec Ideal S2x768 .f32)
    (x8 : FVec Ideal S2x768x768 .f32) (x9 : FVec Ideal S2x768 .f32) (x10 : FVec Ideal S2x768x768 .f32) (x11 : FVec Ideal S2x768 .f32)
    (x12 : FVec Ideal S2x768 .f32) (x13 : FVec Ideal S2x768 .f32) : FVec Ideal S64x512x768 .f32 :=
  hlayer (hlayer (pre13 x0 x1 x2 x3 x4) (wsl ![0, 0, 0] slices_S2x768x768_S1x768x768_0_0_0 x6) (wsl ![0, 0, 0] slices_S2x768x768_S1x768x768_0_0_0 x8)
      (wsl ![0, 0, 0] slices_S2x768x768_S1x768x768_0_0_0 x10) (bsl ![0, 0] slices_S2x768_S1x768_0_0 x7) (bsl ![0, 0] slices_S2x768_S1x768_0_0 x9)
      (bsl ![0, 0] slices_S2x768_S1x768_0_0 x11) (bsl ![0, 0] slices_S2x768_S1x768_0_0 x12) (bsl ![0, 0] slices_S2x768_S1x768_0_0 x13))
    (wsl ![1, 0, 0] slices_S2x768x768_S1x768x768_1_0_0 x6) (wsl ![1, 0, 0] slices_S2x768x768_S1x768x768_1_0_0 x8)
    (wsl ![1, 0, 0] slices_S2x768x768_S1x768x768_1_0_0 x10) (bsl ![1, 0] slices_S2x768_S1x768_1_0 x7) (bsl ![1, 0] slices_S2x768_S1x768_1_0 x9)
    (bsl ![1, 0] slices_S2x768_S1x768_1_0 x11) (bsl ![1, 0] slices_S2x768_S1x768_1_0 x12) (bsl ![1, 0] slices_S2x768_S1x768_1_0 x13)

/-- The first result. -/
def ref0 (x0 : FVec Ideal S64x64x768 .f32) (x1 : FVec Ideal S1x64x768 .f32) (x2 : FVec Ideal S28672x768 .f32)
    (x3 : IVec S28672 32) (x4 : FVec Ideal S4096 .f32) (x6 : FVec Ideal S2x768x768 .f32) (x7 : FVec Ideal S2x768 .f32)
    (x8 : FVec Ideal S2x768x768 .f32) (x9 : FVec Ideal S2x768 .f32) (x10 : FVec Ideal S2x768x768 .f32) (x11 : FVec Ideal S2x768 .f32)
    (x12 : FVec Ideal S2x768 .f32) (x13 : FVec Ideal S2x768 .f32) : FVec Ideal S64x64x768 .f32 :=
  tail0 (pre12 x0 x1) (acts x0 x1 x2 x3 x4 x6 x7 x8 x9 x10 x11 x12 x13)

/-- The second result. -/
def ref1 (x0 : FVec Ideal S64x64x768 .f32) (x1 : FVec Ideal S1x64x768 .f32) (x2 : FVec Ideal S28672x768 .f32)
    (x3 : IVec S28672 32) (x4 : FVec Ideal S4096 .f32) (x6 : FVec Ideal S2x768x768 .f32) (x7 : FVec Ideal S2x768 .f32)
    (x8 : FVec Ideal S2x768x768 .f32) (x9 : FVec Ideal S2x768 .f32) (x10 : FVec Ideal S2x768x768 .f32) (x11 : FVec Ideal S2x768 .f32)
    (x12 : FVec Ideal S2x768 .f32) (x13 : FVec Ideal S2x768 .f32) : FVec Ideal S28672x768 .f32 :=
  tail1 x2 (acts x0 x1 x2 x3 x4 x6 x7 x8 x9 x10 x11 x12 x13)

/-- The final activations at (p, n, d): the two layers of passage p of the assembled batch, at (n, d). -/
theorem acts_apply (x0 : FVec Ideal S64x64x768 .f32) (x1 : FVec Ideal S1x64x768 .f32) (x2 : FVec Ideal S28672x768 .f32)
    (x3 : IVec S28672 32) (x4 : FVec Ideal S4096 .f32) (x6 : FVec Ideal S2x768x768 .f32) (x7 : FVec Ideal S2x768 .f32)
    (x8 : FVec Ideal S2x768x768 .f32) (x9 : FVec Ideal S2x768 .f32) (x10 : FVec Ideal S2x768x768 .f32) (x11 : FVec Ideal S2x768 .f32)
    (x12 : FVec Ideal S2x768 .f32) (x13 : FVec Ideal S2x768 .f32) (p : Fin 64) (n : Fin 512) (d : Fin 768) :
    acts x0 x1 x2 x3 x4 x6 x7 x8 x9 x10 x11 x12 x13 (ix3 p n d)
      = twoLayers (wT x6) (wT x8) (wT x10) (bR x7) (bR x9) (bR x11) (bR x12) (bR x13) (pas (pre13 x0 x1 x2 x3 x4) p) n d := by
  unfold acts
  show pas (hlayer _ _ _ _ _ _ _ _ _) p n d = _
  rw [hlayer_eq, hlayer_eq]
  simp only [wsl0_eq, wsl1_eq, bsl0_eq, bsl1_eq]
  rfl

/-! ## The run -/

variable (m : (ℓ : Loc nD τ sig) → Buf (Elt Ideal) ℓ) (ρ : Dev nD → PrngReg)

theorem res159 (c : Dev nD) :
    after (RunP.ops (F := Ideal)) (launchContents m c) (Proc.devRef .tc main_v159) = ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ops_split, StableHlo.after_append, StableHlo.after_append, StableHlo.after_append, readD159, readC157, readB85, readA13]
  rw [keepC_v12, keepB_v12, readA12, keepB_arg6, keepB_arg7, keepB_arg8, keepB_arg9, keepB_arg10, keepB_arg11, keepB_arg12, keepB_arg13,
    keepA_arg6, keepA_arg7, keepA_arg8, keepA_arg9, keepA_arg10, keepA_arg11, keepA_arg12, keepA_arg13]
  rfl

theorem res162 (c : Dev nD) :
    after (RunP.ops (F := Ideal)) (launchContents m c) (Proc.devRef .tc main_v162) = ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [ops_split, StableHlo.after_append, StableHlo.after_append, StableHlo.after_append, readD162, readC157, readB85, readA13]
  rw [keepC_arg2, keepB_arg2, keepA_arg2, keepB_arg6, keepB_arg7, keepB_arg8, keepB_arg9, keepB_arg10, keepB_arg11, keepB_arg12, keepB_arg13,
    keepA_arg6, keepA_arg7, keepA_arg8, keepA_arg9, keepA_arg10, keepA_arg11, keepA_arg12, keepA_arg13]
  rfl

/-- Every weakly fair execution of the reference terminates with the two results at ref0 and ref1 of the arguments and
    the arguments unchanged. -/
theorem run : θ_run defs (onTc (τ := τ) (main (F := Ideal))) ⟨m, fun _ => 0, ρ⟩ fun r => ∀ c : Dev nD,
      r.2.mem ((c.tc : Thread nD τ).loc main_v159) = ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v162) = ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v159).trans (res159 m c), (h c main_v162).trans (res162 m c),
      (h c main_arg0).trans (after_of_forall_not_mem _ _ (by decide +kernel)),
      (h c main_arg1).trans (after_of_forall_not_mem _ _ (by decide +kernel)),
      (h c main_arg2).trans (after_of_forall_not_mem _ _ (by decide +kernel)),
      (h c main_arg3).trans (after_of_forall_not_mem _ _ (by decide +kernel)),
      (h c main_arg4).trans (after_of_forall_not_mem _ _ (by decide +kernel)),
      (h c main_arg5).trans (after_of_forall_not_mem _ _ (by decide +kernel)),
      (h c main_arg6).trans (after_of_forall_not_mem _ _ (by decide +kernel)),
      (h c main_arg7).trans (after_of_forall_not_mem _ _ (by decide +kernel)),
      (h c main_arg8).trans (after_of_forall_not_mem _ _ (by decide +kernel)),
      (h c main_arg9).trans (after_of_forall_not_mem _ _ (by decide +kernel)),
      (h c main_arg10).trans (after_of_forall_not_mem _ _ (by decide +kernel)),
      (h c main_arg11).trans (after_of_forall_not_mem _ _ (by decide +kernel)),
      (h c main_arg12).trans (after_of_forall_not_mem _ _ (by decide +kernel)),
      (h c main_arg13).trans (after_of_forall_not_mem _ _ (by decide +kernel))⟩)
    (run_seq RunP.scopedRefs_eq RunP.scopedSems_eq defs main (fun _ => RunP.ops) RunP.main_eq (fun _ => RunP.ops_sub) m ρ)

end Cert.ReferenceIdeal.RefValue

end
-- ==== Proof.LibMatmulRowsByRows.lean ====
/-
  A matrix product that contracts the LAST axis of both operands ("nk,mk→nm": rows against rows), over the
  extended reals, for any extents.

  For A of shape [N, K] and B of shape [M, K] and the dimension numbers contracting [1] × [1], free axes [0] and [0],
  no batch axis, the product's entry (n, m) is  Σₖ A(n, k) · B(m, k).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  Why a proof is needed at all: the contraction is indexed by the one-axis contraction shape, and each operand's
  index at (output entry, contraction index) is computed from the lists by position; here the positions are read
  once, symbolically in N, K, M, and the sum is re-indexed by the column k : Fin K.
-/
import Idealize.ShloMosaic.PureOps.Ideal
import Idealize.ShloMosaic.PureOps.Ideal.Laws
import Idealize.ShloMosaic.Lib.ValueIdx

noncomputable section

namespace Cert.RowsByRows

open Idealize.ShloMosaic Idealize.ShloMosaic.ValueIdx

variable {N K M : Nat}

/-- The dimension numbers of "nk,mk→nm": both operands contracted on axis 1, free on axis 0, no batch axis. -/
structure Is (d : DotDims ⟨2, ![N, K]⟩ ⟨2, ![M, K]⟩ ⟨2, ![N, M]⟩) : Prop where
  lc : d.lhsContracting = [1]
  rc : d.rhsContracting = [1]
  ln : d.lhsNonContracting = [0]
  rn : d.rhsNonContracting = [0]
  lb : d.lhsBatch = []
  rb : d.rhsBatch = []

/-- The side condition a record with these lists carries. -/
abbrev WFt (N K M : Nat) : Prop := DotDims.WF (⟨2, ![N, K]⟩ : Shape) ⟨2, ![M, K]⟩ ⟨2, ![N, M]⟩ [1] [1] [0] [0] [] []

/-- The record with these lists, over a given proof of its side condition. -/
abbrev dims (wf : WFt N K M) : DotDims ⟨2, ![N, K]⟩ ⟨2, ![M, K]⟩ ⟨2, ![N, M]⟩ := ⟨[1], [1], [0], [0], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row at output entry i is i's COLUMN. -/
theorem rhs_row (wf : WFt N K M) (i : (⟨2, ![N, M]⟩ : Shape).Idx) (k : (dims wf).contr.Idx) :
    ((dims wf).rhsIdx i k 0).val = (i 1).val := by
  unfold DotDims.rhsIdx
  rw [dif_neg (show ¬(0 : Fin (⟨2, ![M, K]⟩ : Shape).rank) ∈ (dims wf).rhsBatch from List.not_mem_nil),
    dif_pos (show (0 : Fin (⟨2, ![M, K]⟩ : Shape).rank) ∈ (dims wf).rhsNonContracting from List.mem_singleton.2 rfl)]
  rfl

/-- The right operand's column is the contraction index. -/
theorem rhs_col (wf : WFt N K M) (i : (⟨2, ![N, M]⟩ : Shape).Idx) (k : (dims wf).contr.Idx) :
    ((dims wf).rhsIdx i k 1).val = (k ⟨0, Nat.one_pos⟩).val :=
  (dims wf).rhsIdx_val_of_single rfl i k

/-- The contraction at entry (n, c), re-indexed by the shared column, for the record spelt with the lists. -/
theorem sum_dims (wf : WFt N K M) {φ₁ φ₂ : FTy}
    (A : FVec Ideal ⟨2, ![N, K]⟩ φ₁) (B : FVec Ideal ⟨2, ![M, K]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 c k) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 c k :=
    funext fun a => Fin.ext (by
      match a with
      | ⟨0, _⟩ => exact rhs_row wf _ _
      | ⟨1, _⟩ => exact (rhs_col wf _ _).trans hk)
  rw [el, er]

/-- The same for ANY record that has the lists: it is the record spelt with them. -/
theorem sum_apply (d : DotDims ⟨2, ![N, K]⟩ ⟨2, ![M, K]⟩ ⟨2, ![N, M]⟩) (h : Is d) {φ₁ φ₂ : FTy}
    (A : FVec Ideal ⟨2, ![N, K]⟩ φ₁) (B : FVec Ideal ⟨2, ![M, K]⟩ φ₂) (n : Fin N) (c : Fin M) :
    ∑ k : d.contr.Idx, A (d.lhsIdx (ix2 n c) k) * B (d.rhsIdx (ix2 n c) k) = ∑ k : Fin K, A (ix2 n k) * B (ix2 c k) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(c, k). -/
theorem matmul_zero_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    matmul d prec A B (constant (F := Ideal) ⟨2, ![N, M]⟩ .f32 0x00000000#32) (ix2 n c)
      = ∑ k : Fin K, A (ix2 n k) * B (ix2 c k) := by
  simp only [matmul]
  rw [Ideal.matmul_constant_zero_apply]
  exact sum_apply d h A B n c

/-- The HOST's general dot product, at entry (n, c): the same sum. -/
theorem dotGeneral_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    Host.dotGeneral d prec A B (ix2 n c) = ∑ k : Fin K, A (ix2 n k) * B (ix2 c k) := by
  simp only [Host.dotGeneral]
  rw [Ideal.dotGeneral_apply]
  exact sum_apply d h A B n c

end Cert.RowsByRows

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.KerLayer.lean ====
/-
  The kernel's arithmetic for one passage, stage by stage, read at an index.

  The kernel body computes, on whole vectors, the operations of one attention layer twice. Here each stage is written
  once as the vector operations the body applies (a matrix product into a zero accumulator, a row broadcast of a
  bias, a lane reduction, a column broadcast of a row statistic, the pointwise arithmetic), and is shown to be, entry
  by entry, the corresponding stage of the specification. A change of float format is the identity on the extended
  reals, so the narrowing of a matrix product's operands disappears.
-/
import proofs.«104126_j60206851555566_1_alg».proof.Proof.Gen.KernelIdeal.Skeleton
import proofs.«104126_j60206851555566_1_alg».proof.Proof.Spec
import proofs.«104126_j60206851555566_1_alg».proof.Proof.LibMatmulRowsByRows
import proofs.«104126_j60206851555566_1_alg».proof.Proof.LibMatmulRowsByCols
import proofs.«104126_j60206851555566_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerLayer

open Idealize.ShloMosaic Idealize.ShloMosaic.ValueIdx Cert.KernelIdeal
open Cert.AttnLayer Cert.KernelIdeal.Gen

/-! ## Vectors as functions of coordinates -/

/-- A [512, 768] vector as a matrix of its coordinates. -/
abbrev mat (x : FVec Ideal S512x768 .f32) : Mat 512 768 := fun n d => x (ix2 n d)
/-- A [512, 512] vector as a matrix of its coordinates. -/
abbrev sq (z : FVec Ideal S512x512 .f32) : Mat 512 512 := fun n m => z (ix2 n m)
/-- One [768, 768] weight matrix loaded as a [1, 768, 768] block. -/
abbrev wMat (w : Vec Ideal S1x768x768 .f32) : Mat 768 768 := fun d e => w (ix3 (0 : Fin 1) d e)
/-- One row of 768 loaded as a [1, 768] block. -/
abbrev bRow (c : Vec Ideal S1x768 .f32) : Fin 768 → EReal := fun e => c (ix2 (0 : Fin 1) e)

/-! ## Reductions along a row, at an entry -/

/-- The sum along axis 1 of an [a, b] vector, at row n, is the sum over the row's entries. -/
theorem rowSum_apply {a b : Nat} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ src 0x00000000#32 h hφ hacc (ix1 n) = ∑ k : Fin b, src (ix2 n k) :=
  (Ideal.multiReduction_add_single src _ h hφ hacc (ix1 n)).trans
    (Finset.sum_congr rfl fun k _ => congrArg src (funext fun c => Fin.ext (by
      match c with
      | ⟨0, _⟩ => rfl
      | ⟨1, _⟩ => rfl)))

/-- The maximum along axis 1 of an [a, b] vector, at row n, is the fold of max from the bottom word over the row. -/
theorem rowMax_apply {a b : Nat} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  (Ideal.multiReduction_maximumf_single src _ h hφ hacc (ix1 n)).trans
    (congrArg ((Finset.univ : Finset (Fin b)).fold max (Ideal.ofBits .f32 0xFF800000#32))
      (funext fun k => congrArg src (funext fun c => Fin.ext (by
        match c with
        | ⟨0, _⟩ => rfl
        | ⟨1, _⟩ => rfl))))

/-! ## The stages as vector operations -/

/-- A projection: the product of the passage with one weight matrix into zero, plus the bias row broadcast down the rows. -/
def kproj (x : FVec Ideal S512x768 .f32) (w : Vec Ideal S1x768x768 .f32) (c : Vec Ideal S1x768 .f32) : FVec Ideal S512x768 .f32 :=
  addf (matmul dot_S512x768_S768x768_S512x768_1_0_0_1_n_n none (truncf .bf16 x bitsLt_bf16_f32)
      (truncf .bf16 (shapeCast S768x768 w shapeCasts_S1x768x768_S768x768) bitsLt_bf16_f32) (constant S512x768 .f32 0x00000000#32))
    (broadcastTo S512x768 (shapeCast S1x768 (shapeCast S768 c shapeCasts_S1x768_S768) shapeCasts_S768_S1x768) broadcasts_S1x768_S512x768)

/-- The scaled scores: queries against keys, rows against rows. -/
def kscores (q k : FVec Ideal S512x768 .f32) : FVec Ideal S512x512 .f32 :=
  mulf (broadcast S512x512 (Scalar.ofBits .f32 0x3D13CD3A#32))
    (matmul dot_S512x768_S512x768_S512x512_1_1_0_0_n_n none (truncf .bf16 q bitsLt_bf16_f32) (truncf .bf16 k bitsLt_bf16_f32)
      (constant S512x512 .f32 0x00000000#32))

/-- Each row's maximum. -/
def krowmax (z : FVec Ideal S512x512 .f32) : FVec Ideal S512 .f32 :=
  maximumf (broadcast S512 (Scalar.ofBits .f32 0xFF800000#32))
    (multiReduction .maximumf [1] S512 z 0xFF800000#32 reduces_S512x512_S512 (.inl rfl) rfl)

/-- The scores shifted by their row's maximum. -/
def kshift (z : FVec Ideal S512x512 .f32) : FVec Ideal S512x512 .f32 :=
  subf z (broadcastTo S512x512 (shapeCast S512x1 (krowmax z) shapeCasts_S512_S512x1) broadcasts_S512x1_S512x512)

/-- The softmax of exponentials e along each row. -/
def knorm (e : FVec Ideal S512x512 .f32) : FVec Ideal S512x512 .f32 :=
  divf e (broadcastTo S512x512 (shapeCast S512x1 (multiReduction .add [1] S512 e 0x00000000#32 reduces_S512x512_S512 (.inl rfl) rfl)
    shapeCasts_S512_S512x1) broadcasts_S512x1_S512x512)

/-- The rectified context. -/
def kctx (p : FVec Ideal S512x512 .f32) (v : FVec Ideal S512x768 .f32) : FVec Ideal S512x768 .f32 :=
  maximumf (matmul dot_S512x512_S512x768_S512x768_1_0_0_1_n_n none (truncf .bf16 p bitsLt_bf16_f32) (truncf .bf16 v bitsLt_bf16_f32)
      (constant S512x768 .f32 0x00000000#32))
    (broadcast S512x768 (Scalar.ofBits .f32 0x00000000#32))

/-- Each row's mean, as a column. -/
def kmean (y : FVec Ideal S512x768 .f32) : FVec Ideal S512x1 .f32 :=
  divf (shapeCast S512x1 (multiReduction .add [1] S512 y 0x00000000#32 reduces_S512x768_S512 (.inl rfl) rfl) shapeCasts_S512_S512x1)
    (broadcast S512x1 (Scalar.ofBits .f32 0x44400000#32))

/-- Each row centred at its mean. -/
def kcent (y : FVec Ideal S512x768 .f32) : FVec Ideal S512x768 .f32 :=
  subf y (broadcastTo S512x768 (kmean y) broadcasts_S512x1_S512x768)

/-- Each row's variance, as a column. -/
def kvar (y : FVec Ideal S512x768 .f32) : FVec Ideal S512x1 .f32 :=
  divf (shapeCast S512x1 (multiReduction .add [1] S512 (mulf (kcent y) (kcent y)) 0x00000000#32 reduces_S512x768_S512 (.inl rfl) rfl)
      shapeCasts_S512_S512x1)
    (broadcast S512x1 (Scalar.ofBits .f32 0x44400000#32))

/-- The layer normalisation with gain row g and shift row b. -/
def klnorm (g b : Vec Ideal S1x768 .f32) (y : FVec Ideal S512x768 .f32) : FVec Ideal S512x768 .f32 :=
  addf (mulf (mulf (kcent y)
        (broadcastTo S512x768 (rsqrt (addf (kvar y) (broadcast S512x1 (Scalar.ofBits .f32 0x3727C5AC#32)))) broadcasts_S512x1_S512x768))
      (broadcastTo S512x768 (shapeCast S1x768 (shapeCast S768 g shapeCasts_S1x768_S768) shapeCasts_S768_S1x768) broadcasts_S1x768_S512x768))
    (broadcastTo S512x768 (shapeCast S1x768 (shapeCast S768 b shapeCasts_S1x768_S768) shapeCasts_S768_S1x768) broadcasts_S1x768_S512x768)

/-- One layer on the passage x. -/
def klayer (x : FVec Ideal S512x768 .f32) (wq wk wv : Vec Ideal S1x768x768 .f32) (bq bk bv g b : Vec Ideal S1x768 .f32) :
    FVec Ideal S512x768 .f32 :=
  klnorm g b (addf x (kctx (knorm (exp (kshift (kscores (kproj x wq bq) (kproj x wk bk))))) (kproj x wv bv)))

/-! ## Each stage at an entry -/

/-- A bias row broadcast down the rows, at (n, e), is the row's entry e. -/
theorem biasRow_apply (c : Vec Ideal S1x768 .f32) (n : Fin 512) (e : Fin 768) :
    broadcastTo S512x768 (shapeCast S1x768 (shapeCast S768 c shapeCasts_S1x768_S768) shapeCasts_S768_S1x768) broadcasts_S1x768_S512x768 (ix2 n e)
      = bRow c e :=
  (broadcastTo_1b_ab_apply _ broadcasts_S1x768_S512x768 n e).trans
    ((shapeCast_a_1a_apply _ shapeCasts_S768_S1x768 (0 : Fin 1) e).trans (shapeCast_1a_a_apply c shapeCasts_S1x768_S768 e))

/-- A column of row statistics broadcast along 512 columns, at (n, m), is the statistic of row n. -/
theorem colSq_apply (s : FVec Ideal S512 .f32) (n m : Fin 512) :
    broadcastTo S512x512 (shapeCast S512x1 s shapeCasts_S512_S512x1) broadcasts_S512x1_S512x512 (ix2 n m) = s (ix1 n) :=
  (Cert.LibColumnLayout.broadcastTo_a1_ab_apply _ broadcasts_S512x1_S512x512 n m).trans
    (Cert.LibColumnLayout.shapeCast_a_a1_apply s shapeCasts_S512_S512x1 n (0 : Fin 1))

theorem kproj_eq (x : FVec Ideal S512x768 .f32) (w : Vec Ideal S1x768x768 .f32) (c : Vec Ideal S1x768 .f32) :
    mat (kproj x w c) = proj (wMat w) (bRow c) (mat x) := by
  funext n e
  show addf _ _ (ix2 n e) = _
  rw [addf_apply, biasRow_apply]
  refine congrArg (· + bRow c e) ?_
  refine (Cert.RowsByCols.matmul_zero_apply dot_S512x768_S768x768_S512x768_1_0_0_1_n_n ⟨rfl, rfl, rfl, rfl, rfl, rfl⟩ none _ _ n e).trans ?_
  refine Finset.sum_congr rfl fun d _ => ?_
  exact congrArg (x (ix2 n d) * ·) (shapeCast_1ab_ab_apply w shapeCasts_S1x768x768_S768x768 d e)

theorem kscores_eq (q k : FVec Ideal S512x768 .f32) : sq (kscores q k) = scores (mat q) (mat k) := by
  funext n m
  show mulf _ _ (ix2 n m) = _
  rw [mulf_apply]
  exact congrArg (Ideal.ofBits .f32 0x3D13CD3A#32 * ·)
    (Cert.RowsByRows.matmul_zero_apply dot_S512x768_S512x768_S512x512_1_1_0_0_n_n ⟨rfl, rfl, rfl, rfl, rfl, rfl⟩ none _ _ n m)

theorem krowmax_eq (z : FVec Ideal S512x512 .f32) : (fun n => krowmax z (ix1 n)) = rowMax (sq z) := by
  funext n
  show maximumf _ _ (ix1 n) = _
  rw [maximumf_apply]
  exact congrArg (max (Ideal.ofBits .f32 0xFF800000#32) ·) (rowMax_apply z reduces_S512x512_S512 (.inl rfl) rfl n)

theorem kshift_apply (z : FVec Ideal S512x512 .f32) (n m : Fin 512) :
    kshift z (ix2 n m) = z (ix2 n m) - krowmax z (ix1 n) := by
  show subf z _ (ix2 n m) = _
  rw [subf_apply, colSq_apply]

theorem kexpo_eq (z : FVec Ideal S512x512 .f32) : sq (exp (kshift z)) = expo (sq z) := by
  funext n m
  show Ideal.exp (kshift z (ix2 n m)) = _
  rw [kshift_apply]
  exact congrArg (fun t => Ideal.exp (z (ix2 n m) - t)) (congrFun (krowmax_eq z) n)

theorem knorm_apply (e : FVec Ideal S512x512 .f32) (n m : Fin 512) :
    knorm e (ix2 n m) = Ideal.div (e (ix2 n m)) (∑ j : Fin 512, e (ix2 n j)) := by
  show divf _ _ (ix2 n m) = _
  rw [divf_apply, colSq_apply]
  exact congrArg (Ideal.div (e (ix2 n m))) (rowSum_apply e reduces_S512x512_S512 (.inl rfl) rfl n)

theorem ksoft_eq (z : FVec Ideal S512x512 .f32) : sq (knorm (exp (kshift z))) = soft (sq z) := by
  funext n m
  show knorm _ (ix2 n m) = _
  rw [knorm_apply]
  show Ideal.div (sq (exp (kshift z)) n m) (∑ j : Fin 512, sq (exp (kshift z)) n j) = _
  rw [kexpo_eq]
  rfl

theorem kctx_eq (p : FVec Ideal S512x512 .f32) (v : FVec Ideal S512x768 .f32) : mat (kctx p v) = ctx (sq p) (mat v) := by
  funext n d
  show maximumf _ _ (ix2 n d) = _
  rw [maximumf_apply]
  show max _ (Ideal.ofBits .f32 0x00000000#32) = _
  rw [Ideal.ofBits_zero_f32]
  exact congrArg (max · 0)
    (Cert.RowsByCols.matmul_zero_apply dot_S512x512_S512x768_S512x768_1_0_0_1_n_n ⟨rfl, rfl, rfl, rfl, rfl, rfl⟩ none _ _ n d)

/-- A column of row statistics broadcast along 768 columns, at (n, d), is the column's entry of row n. -/
theorem col768_apply (s : FVec Ideal S512x1 .f32) (n : Fin 512) (d : Fin 768) :
    broadcastTo S512x768 s broadcasts_S512x1_S512x768 (ix2 n d) = s (ix2 n (0 : Fin 1)) :=
  Cert.LibColumnLayout.broadcastTo_a1_ab_apply s broadcasts_S512x1_S512x768 n d

theorem kmean_eq (y : FVec Ideal S512x768 .f32) : (fun n => kmean y (ix2 n (0 : Fin 1))) = mean (mat y) := by
  funext n
  show divf _ _ (ix2 n (0 : Fin 1)) = _
  rw [divf_apply, Cert.LibColumnLayout.shapeCast_a_a1_apply _ shapeCasts_S512_S512x1 n (0 : Fin 1)]
  exact congrArg (Ideal.div · (Ideal.ofBits .f32 0x44400000#32)) (rowSum_apply y reduces_S512x768_S512 (.inl rfl) rfl n)

theorem kcent_eq (y : FVec Ideal S512x768 .f32) : mat (kcent y) = cent (mat y) := by
  funext n d
  show subf _ _ (ix2 n d) = _
  rw [subf_apply, col768_apply]
  exact congrArg (y (ix2 n d) - ·) (congrFun (kmean_eq y) n)

theorem kvar_eq (y : FVec Ideal S512x768 .f32) : (fun n => kvar y (ix2 n (0 : Fin 1))) = var (mat y) := by
  funext n
  show divf _ _ (ix2 n (0 : Fin 1)) = _
  rw [divf_apply, Cert.LibColumnLayout.shapeCast_a_a1_apply _ shapeCasts_S512_S512x1 n (0 : Fin 1)]
  refine congrArg (Ideal.div · (Ideal.ofBits .f32 0x44400000#32)) ?_
  refine (rowSum_apply _ reduces_S512x768_S512 (.inl rfl) rfl n).trans ?_
  show (∑ d : Fin 768, mat (kcent y) n d * mat (kcent y) n d) = _
  rw [kcent_eq]

theorem klnorm_eq (g b : Vec Ideal S1x768 .f32) (y : FVec Ideal S512x768 .f32) :
    mat (klnorm g b y) = lnorm (bRow g) (bRow b) (mat y) := by
  funext n d
  show addf (mulf (mulf _ _) _) _ (ix2 n d) = _
  rw [addf_apply, mulf_apply, mulf_apply, biasRow_apply, biasRow_apply, col768_apply]
  show mat (kcent y) n d * Ideal.rsqrt ((fun n => kvar y (ix2 n (0 : Fin 1))) n + Ideal.ofBits .f32 0x3727C5AC#32) * bRow g d + bRow b d = _
  rw [kcent_eq, kvar_eq]
  rfl

theorem klayer_eq (x : FVec Ideal S512x768 .f32) (wq wk wv : Vec Ideal S1x768x768 .f32) (bq bk bv g b : Vec Ideal S1x768 .f32) :
    mat (klayer x wq wk wv bq bk bv g b)
      = layer (wMat wq) (wMat wk) (wMat wv) (bRow bq) (bRow bk) (bRow bv) (bRow g) (bRow b) (mat x) := by
  unfold klayer layer
  rw [klnorm_eq]
  refine congrArg (lnorm (bRow g) (bRow b)) ?_
  funext n d
  show x (ix2 n d) + mat (kctx _ _) n d = _
  rw [kctx_eq, ksoft_eq, kscores_eq, kproj_eq, kproj_eq, kproj_eq]

end Cert.KernelIdeal.KerLayer

end
-- ==== Proof.LibSliceRead.lean ====
/-
  A unit-stride rectangle of a matrix, read at a pair of coordinates.

  For an [R, C] array X of any element type, the [r, c] rectangle with unit strides at offsets (o₀, o₁) reads, at its
  local index (p, q), the array at (o₀ + p, o₁ + q). The offsets may be given by any function that is known to equal
  the pair (a chain of integer operations with a proved closed form, say).
-/
import Idealize.ShloMosaic.Lib.Pipeline.Value
import Idealize.ShloMosaic.Lib.ValueIdx

noncomputable section

namespace Cert.SliceRead

open Idealize.ShloMosaic Idealize.ShloMosaic.ValueIdx

/-- The [r, c] unit-stride rectangle at offsets (o₀, o₁) of an [R, C] array, at local (p, q), is the array at
    (o₀ + p, o₁ + q). -/
theorem ld_unit2 {Val : EltTy → Type} {e : EltTy} {R C r c : Nat} (X : (⟨2, ![R, C]⟩ : Shape).Idx → Val e)
    (off : Fin 2 → Nat) (o0 o1 : Nat) (hoff : off = ![o0, o1])
    (inb : ∀ a, off a + (![r, c] : Fin 2 → Nat) a ≤ (⟨2, ![R, C]⟩ : Shape).size a)
    (p : Fin r) (q : Fin c) (h0 : o0 + p.val < R) (h1 : o1 + q.val < C) :
    View.ld X (Rect.unit (s := ⟨2, ![R, C]⟩) off ![r, c] inb) (ix2 p q)
      = X (ix2 ⟨o0 + p.val, h0⟩ ⟨o1 + q.val, h1⟩) := by
  subst hoff
  show X ((Rect.unit (s := ⟨2, ![R, C]⟩) ![o0, o1] ![r, c] inb).idx (ix2 p q)) = _
  refine congrArg X (funext fun a => Fin.ext ?_)
  match a with
  | ⟨0, _⟩ => show o0 + 1 * p.val = o0 + p.val; omega
  | ⟨1, _⟩ => show o1 + 1 * q.val = o1 + q.val; omega

end Cert.SliceRead

end
-- ==== Proof.LibSliceRead3.lean ====
/-
  A unit-stride box of a rank-3 array, read at a triple of coordinates.

  For an [L, R, C] array X of any element type, the [l, r, c] box with unit strides at offsets (o₀, o₁, o₂) reads, at
  its local index (u, p, q), the array at (o₀ + u, o₁ + p, o₂ + q). With l = 1 this is one matrix of a stack of
  matrices. The offsets may be given by any function known to equal the triple. No proof enumerates an extent.
-/
import Idealize.ShloMosaic.Lib.Pipeline.Value
import Idealize.ShloMosaic.Lib.ValueIdx

noncomputable section

namespace Cert.SliceRead3

open Idealize.ShloMosaic Idealize.ShloMosaic.ValueIdx

/-- The [l, r, c] unit-stride box at offsets (o₀, o₁, o₂) of an [L, R, C] array, at local (u, p, q), is the array at
    (o₀ + u, o₁ + p, o₂ + q). -/
theorem ld_unit3 {Val : EltTy → Type} {e : EltTy} {L R C l r c : Nat} (X : (⟨3, ![L, R, C]⟩ : Shape).Idx → Val e)
    (off : Fin 3 → Nat) (o0 o1 o2 : Nat) (hoff : off = ![o0, o1, o2])
    (inb : ∀ a, off a + (![l, r, c] : Fin 3 → Nat) a ≤ (⟨3, ![L, R, C]⟩ : Shape).size a)
    (u : Fin l) (p : Fin r) (q : Fin c) (h0 : o0 + u.val < L) (h1 : o1 + p.val < R) (h2 : o2 + q.val < C) :
    View.ld X (Rect.unit (s := ⟨3, ![L, R, C]⟩) off ![l, r, c] inb) (ix3 u p q)
      = X (ix3 ⟨o0 + u.val, h0⟩ ⟨o1 + p.val, h1⟩ ⟨o2 + q.val, h2⟩) := by
  subst hoff
  show X ((Rect.unit (s := ⟨3, ![L, R, C]⟩) ![o0, o1, o2] ![l, r, c] inb).idx (ix3 u p q)) = _
  refine congrArg X (funext fun a => Fin.ext ?_)
  match a with
  | ⟨0, _⟩ => show o0 + 1 * u.val = o0 + u.val; omega
  | ⟨1, _⟩ => show o1 + 1 * p.val = o1 + p.val; omega
  | ⟨2, _⟩ => show o2 + 1 * q.val = o2 + q.val; omega

end Cert.SliceRead3

end
-- ==== Proof.KerValue.lean ====
/-
  What the kernel's result array holds after the run: one function of the arrays the region finds.

  The grid has one point per passage. Point t stages block t of the batch (its passage) and the whole of every
  parameter array, runs the body, and writes back block t of the result. The body's one store holds the two layers of
  the specification applied to the staged passage, so block t of the result is the two layers of passage t, and the 64
  blocks tile the result array: it ends holding, at (p, n, d), the two layers of passage p at (n, d).
-/
import proofs.«104126_j60206851555566_1_alg».proof.Proof.Gen.KernelIdeal.Frame
import proofs.«104126_j60206851555566_1_alg».proof.Proof.KerLayer
import proofs.«104126_j60206851555566_1_alg».proof.Proof.LibSliceRead
import proofs.«104126_j60206851555566_1_alg».proof.Proof.LibSliceRead3

set_option maxRecDepth 16384

noncomputable section

namespace Cert.KernelIdeal.KerValue

open Idealize.ShloMosaic Idealize.ShloMosaic.ValueIdx Idealize.ShloMosaic.TcCoe Idealize.SL.Sem
open Cert.KernelIdeal Cert.KernelIdeal.Gen Cert.KernelIdeal.KerLayer Cert.AttnLayer
open Idealize.ShloMosaic.Pipeline (Dat)

/-! ## The staged parameter arrays as stacks of two -/

/-- Slice l of a stack of two weight matrices. -/
abbrev wOf (W : Vec Ideal S2x768x768 .f32) (l : Fin 2) : Mat 768 768 := fun d e => W (ix3 l d e)
/-- Row l of a stack of two rows. -/
abbrev bOf (B : Vec Ideal S2x768 .f32) (l : Fin 2) : Fin 768 → EReal := fun e => B (ix2 l e)

theorem wMat_ld0 (W : Vec Ideal S2x768x768 .f32) : wMat (View.ld W r0_1) = wOf W 0 := by
  funext d e
  refine (Cert.SliceRead3.ld_unit3 W ![0, 0, 0] 0 0 0 rfl _ (0 : Fin 1) d e (by decide) (by omega) (by omega)).trans ?_
  exact congrArg W (funext fun a => Fin.ext (by
    match a with
    | ⟨0, _⟩ => rfl
    | ⟨1, _⟩ => show 0 + d.val = d.val; omega
    | ⟨2, _⟩ => show 0 + e.val = e.val; omega))

theorem wMat_ld1 (W : Vec Ideal S2x768x768 .f32) : wMat (View.ld W r0_3) = wOf W 1 := by
  funext d e
  refine (Cert.SliceRead3.ld_unit3 W ![1, 0, 0] 1 0 0 rfl _ (0 : Fin 1) d e (by decide) (by omega) (by omega)).trans ?_
  exact congrArg W (funext fun a => Fin.ext (by
    match a with
    | ⟨0, _⟩ => rfl
    | ⟨1, _⟩ => show 0 + d.val = d.val; omega
    | ⟨2, _⟩ => show 0 + e.val = e.val; omega))

theorem bRow_ld0 (B : Vec Ideal S2x768 .f32) : bRow (View.ld B r0_2) = bOf B 0 := by
  funext e
  refine (Cert.SliceRead.ld_unit2 B ![0, 0] 0 0 rfl _ (0 : Fin 1) e (by decide) (by omega)).trans ?_
  exact congrArg B (funext fun a => Fin.ext (by
    match a with
    | ⟨0, _⟩ => rfl
    | ⟨1, _⟩ => show 0 + e.val = e.val; omega))

theorem bRow_ld1 (B : Vec Ideal S2x768 .f32) : bRow (View.ld B r0_4) = bOf B 1 := by
  funext e
  refine (Cert.SliceRead.ld_unit2 B ![1, 0] 1 0 rfl _ (0 : Fin 1) e (by decide) (by omega)).trans ?_
  exact congrArg B (funext fun a => Fin.ext (by
    match a with
    | ⟨0, _⟩ => rfl
    | ⟨1, _⟩ => show 0 + e.val = e.val; omega))

theorem hz3 : (![0, 0, 0] : Fin 3 → Nat) = fun _ => 0 := funext fun a => by fin_cases a <;> rfl

/-- The staged passage, cast from [1, 512, 768] to a matrix. -/
theorem mat_x0 (x0 : Vec Ideal S1x512x768 .f32) :
    mat (shapeCast S512x768 (View.ld x0 r0_0) shapeCasts_S1x512x768_S512x768) = fun n d => x0 (ix3 (0 : Fin 1) n d) := by
  funext n d
  show shapeCast S512x768 (View.ld x0 r0_0) shapeCasts_S1x512x768_S512x768 (ix2 n d) = _
  rw [View.ld_unit_zero (S := S1x512x768) hz3]
  exact shapeCast_1ab_ab_apply x0 shapeCasts_S1x512x768_S512x768 n d

/-- The body's one store, at (u, n, d): the two layers of the staged passage at (n, d). -/
theorem out0_9_apply (x0 : Vec Ideal S1x512x768 .f32) (x1 x2 x3 : Vec Ideal S2x768x768 .f32) (x4 x5 x6 x7 x8 : Vec Ideal S2x768 .f32)
    (u : Fin 1) (n : Fin 512) (d : Fin 768) :
    out0_9 x0 x1 x2 x3 x4 x5 x6 x7 x8 (ix3 u n d)
      = twoLayers (wOf x1) (wOf x2) (wOf x3) (bOf x4) (bOf x5) (bOf x6) (bOf x7) (bOf x8) (fun n d => x0 (ix3 (0 : Fin 1) n d)) n d := by
  unfold out0_9
  rw [View.canon_unit_zero hz3]
  show shapeCast S1x512x768 (klayer (klayer (shapeCast S512x768 (View.ld x0 r0_0) shapeCasts_S1x512x768_S512x768)
      (View.ld x1 r0_1) (View.ld x2 r0_1) (View.ld x3 r0_1) (View.ld x4 r0_2) (View.ld x5 r0_2) (View.ld x6 r0_2) (View.ld x7 r0_2) (View.ld x8 r0_2))
      (View.ld x1 r0_3) (View.ld x2 r0_3) (View.ld x3 r0_3) (View.ld x4 r0_4) (View.ld x5 r0_4) (View.ld x6 r0_4) (View.ld x7 r0_4) (View.ld x8 r0_4))
      shapeCasts_S512x768_S1x512x768 (ix3 u n d) = _
  rw [shapeCast_ab_1ab_apply]
  show mat (klayer _ _ _ _ _ _ _ _ _) n d = _
  rw [klayer_eq, klayer_eq, mat_x0, wMat_ld0, wMat_ld0, wMat_ld0, wMat_ld1, wMat_ld1, wMat_ld1,
    bRow_ld0, bRow_ld0, bRow_ld0, bRow_ld0, bRow_ld0, bRow_ld1, bRow_ld1, bRow_ld1, bRow_ld1, bRow_ld1]
  rfl

/-! ## The blocks of one point -/

section Run

variable (m : (ℓ : Loc nD τ sig) → Buf (Elt Ideal) ℓ) (ρ : Dev nD → PrngReg)

/-- The grid's point t as a passage number. -/
def pt (t : Fin cfg0.N) : Fin 64 := ⟨t.val, lt_of_lt_of_eq t.isLt N_0⟩

/-- The printed index maps, decided once over the 64 points: the passage window and the result window sit at block t
    of axis 0, every parameter window at block 0. -/
theorem idx_facts : ∀ t : Fin cfg0.N,
    win0_0.index t (0 : Fin 3) = t.val
    ∧ win0_0.index t (1 : Fin 3) = 0
    ∧ win0_0.index t (2 : Fin 3) = 0
    ∧ win0_9.index t (0 : Fin 3) = t.val
    ∧ win0_9.index t (1 : Fin 3) = 0
    ∧ win0_9.index t (2 : Fin 3) = 0
    ∧ win0_1.index t (0 : Fin 3) = 0
    ∧ win0_1.index t (1 : Fin 3) = 0
    ∧ win0_1.index t (2 : Fin 3) = 0
    ∧ win0_2.index t (0 : Fin 3) = 0
    ∧ win0_2.index t (1 : Fin 3) = 0
    ∧ win0_2.index t (2 : Fin 3) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- The passage window's block at point t is passage t of the batch the region finds. -/
theorem iblk0_apply (c : Dev nD) (t : Fin cfg0.N) (n : Fin 512) (d : Fin 768) :
    iblk m c 0 t (ix3 (0 : Fin 1) n d) = V m c main_v13 (ix3 (pt t) n d) := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_v13 (((cfg0.win 0).blk t).view.emb (ix3 (0 : Fin 1) n d)) = V m c main_v13 (ix3 (pt t) n d)
  refine congrArg _ (funext fun a => Fin.ext ?_)
  match a with
  | ⟨0, _⟩ => show win0_0.index t (0 : Fin 3) * 1 + 1 * 0 = t.val; rw [f0_0]; omega
  | ⟨1, _⟩ => show win0_0.index t (1 : Fin 3) * 512 + 1 * n.val = n.val; rw [f0_1]; omega
  | ⟨2, _⟩ => show win0_0.index t (2 : Fin 3) * 768 + 1 * d.val = d.val; rw [f0_2]; omega

theorem iblk1_eq (c : Dev nD) (t : Fin cfg0.N) (y : S2x768x768.Idx) :
    iblk m c 1 t y = V m c main_v14 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_v14 (((cfg0.win 1).blk t).view.emb y) = V m c main_v14 y
  refine congrArg _ (funext fun a => Fin.ext ?_)
  match a with
  | ⟨0, _⟩ => show win0_1.index t (0 : Fin 3) * 2 + 1 * (y 0).val = (y 0).val; rw [f1_0]; omega
  | ⟨1, _⟩ => show win0_1.index t (1 : Fin 3) * 768 + 1 * (y 1).val = (y 1).val; rw [f1_1]; omega
  | ⟨2, _⟩ => show win0_1.index t (2 : Fin 3) * 768 + 1 * (y 2).val = (y 2).val; rw [f1_2]; omega

theorem iblk2_eq (c : Dev nD) (t : Fin cfg0.N) (y : S2x768x768.Idx) :
    iblk m c 2 t y = V m c main_v15 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_v15 (((cfg0.win 2).blk t).view.emb y) = V m c main_v15 y
  refine congrArg _ (funext fun a => Fin.ext ?_)
  match a with
  | ⟨0, _⟩ => show win0_2.index t (0 : Fin 3) * 2 + 1 * (y 0).val = (y 0).val; rw [f2_0]; omega
  | ⟨1, _⟩ => show win0_2.index t (1 : Fin 3) * 768 + 1 * (y 1).val = (y 1).val; rw [f2_1]; omega
  | ⟨2, _⟩ => show win0_2.index t (2 : Fin 3) * 768 + 1 * (y 2).val = (y 2).val; rw [f2_2]; omega

theorem iblk3_eq (c : Dev nD) (t : Fin cfg0.N) (y : S2x768x768.Idx) :
    iblk m c 3 t y = V m c main_v16 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_v16 (((cfg0.win 3).blk t).view.emb y) = V m c main_v16 y
  refine congrArg _ (funext fun a => Fin.ext ?_)
  match a with
  | ⟨0, _⟩ => show win0_3.index t (0 : Fin 3) * 2 + 1 * (y 0).val = (y 0).val; rw [f3_0]; omega
  | ⟨1, _⟩ => show win0_3.index t (1 : Fin 3) * 768 + 1 * (y 1).val = (y 1).val; rw [f3_1]; omega
  | ⟨2, _⟩ => show win0_3.index t (2 : Fin 3) * 768 + 1 * (y 2).val = (y 2).val; rw [f3_2]; omega

theorem iblk4_eq (c : Dev nD) (t : Fin cfg0.N) (y : S2x768.Idx) :
    iblk m c 4 t y = V m c main_arg7 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_arg7 (((cfg0.win 4).blk t).view.emb y) = V m c main_arg7 y
  refine congrArg _ (funext fun a => Fin.ext ?_)
  match a with
  | ⟨0, _⟩ => show win0_4.index t (0 : Fin 2) * 2 + 1 * (y 0).val = (y 0).val; rw [f4_0]; omega
  | ⟨1, _⟩ => show win0_4.index t (1 : Fin 2) * 768 + 1 * (y 1).val = (y 1).val; rw [f4_1]; omega

theorem iblk5_eq (c : Dev nD) (t : Fin cfg0.N) (y : S2x768.Idx) :
    iblk m c 5 t y = V m c main_arg9 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_arg9 (((cfg0.win 5).blk t).view.emb y) = V m c main_arg9 y
  refine congrArg _ (funext fun a => Fin.ext ?_)
  match a with
  | ⟨0, _⟩ => show win0_5.index t (0 : Fin 2) * 2 + 1 * (y 0).val = (y 0).val; rw [f5_0]; omega
  | ⟨1, _⟩ => show win0_5.index t (1 : Fin 2) * 768 + 1 * (y 1).val = (y 1).val; rw [f5_1]; omega

theorem iblk6_eq (c : Dev nD) (t : Fin cfg0.N) (y : S2x768.Idx) :
    iblk m c 6 t y = V m c main_arg11 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_arg11 (((cfg0.win 6).blk t).view.emb y) = V m c main_arg11 y
  refine congrArg _ (funext fun a => Fin.ext ?_)
  match a with
  | ⟨0, _⟩ => show win0_6.index t (0 : Fin 2) * 2 + 1 * (y 0).val = (y 0).val; rw [f6_0]; omega
  | ⟨1, _⟩ => show win0_6.index t (1 : Fin 2) * 768 + 1 * (y 1).val = (y 1).val; rw [f6_1]; omega

theorem iblk7_eq (c : Dev nD) (t : Fin cfg0.N) (y : S2x768.Idx) :
    iblk m c 7 t y = V m c main_arg12 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_arg12 (((cfg0.win 7).blk t).view.emb y) = V m c main_arg12 y
  refine congrArg _ (funext fun a => Fin.ext ?_)
  match a with
  | ⟨0, _⟩ => show win0_7.index t (0 : Fin 2) * 2 + 1 * (y 0).val = (y 0).val; rw [f7_0]; omega
  | ⟨1, _⟩ => show win0_7.index t (1 : Fin 2) * 768 + 1 * (y 1).val = (y 1).val; rw [f7_1]; omega

theorem iblk8_eq (c : Dev nD) (t : Fin cfg0.N) (y : S2x768.Idx) :
    iblk m c 8 t y = V m c main_arg13 y := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show V m c main_arg13 (((cfg0.win 8).blk t).view.emb y) = V m c main_arg13 y
  refine congrArg _ (funext fun a => Fin.ext ?_)
  match a with
  | ⟨0, _⟩ => show win0_8.index t (0 : Fin 2) * 2 + 1 * (y 0).val = (y 0).val; rw [f8_0]; omega
  | ⟨1, _⟩ => show win0_8.index t (1 : Fin 2) * 768 + 1 * (y 1).val = (y 1).val; rw [f8_1]; omega

/-! ## The result array -/

/-- The result array's contents after the run, as one function of the arrays the region finds: at (p, n, d) the two
    layers of passage p, at (n, d). -/
def G (c : Dev nD) : S64x512x768.Idx → EReal := fun i =>
  twoLayers (wOf (V m c main_v14)) (wOf (V m c main_v15)) (wOf (V m c main_v16)) (bOf (V m c main_arg7)) (bOf (V m c main_arg9))
    (bOf (V m c main_arg11)) (bOf (V m c main_arg12)) (bOf (V m c main_arg13))
    (fun n d => V m c main_v13 (ix3 (⟨(i 0).val, (i 0).isLt⟩ : Fin 64) n d)) ⟨(i 1).val, (i 1).isLt⟩ ⟨(i 2).val, (i 2).isLt⟩

/-- What point t writes back is block t of G. -/
theorem flushed_eq (c : Dev nD) (t : Fin cfg0.N) :
    (dats m 0 c).flushed 9 t = ((cfg0.win 9).blk t).view.read (Elt Ideal) (G m c) := by
  obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
  show (cfg0.win 9).cut (grid0.coords t) ((dats m 0 c).after 9 t) = _
  rw [after0_9]
  funext (j : S1x512x768.Idx)
  obtain ⟨u, n, d, rfl⟩ : ∃ (u : Fin 1) (n : Fin 512) (d : Fin 768), j = ix3 u n d := ⟨j 0, j 1, j 2, eq_ix3 j⟩
  show out0_9 (iblk m c 0 t) (iblk m c 1 t) (iblk m c 2 t) (iblk m c 3 t) (iblk m c 4 t) (iblk m c 5 t) (iblk m c 6 t) (iblk m c 7 t)
      (iblk m c 8 t) (ix3 u n d) = G m c (((cfg0.win 9).blk t).view.emb (ix3 u n d))
  have e9 : ((cfg0.win 9).blk t).view.emb (ix3 u n d) = ix3 (pt t) n d := by
    refine funext fun a => Fin.ext ?_
    have hu : u.val = 0 := by omega
    match a with
    | ⟨0, _⟩ => show win0_9.index t (0 : Fin 3) * 1 + 1 * u.val = t.val; rw [f9_0]; omega
    | ⟨1, _⟩ => show win0_9.index t (1 : Fin 3) * 512 + 1 * n.val = n.val; rw [f9_1]; omega
    | ⟨2, _⟩ => show win0_9.index t (2 : Fin 3) * 768 + 1 * d.val = d.val; rw [f9_2]; omega
  rw [e9]
  refine (out0_9_apply _ _ _ _ _ _ _ _ _ u n d).trans ?_
  show twoLayers _ _ _ _ _ _ _ _ _ n d = twoLayers _ _ _ _ _ _ _ _ (fun n d => V m c main_v13 (ix3 (pt t) n d)) n d
  have h0 : (fun n d => iblk m c 0 t (ix3 (0 : Fin 1) n d)) = fun n d => V m c main_v13 (ix3 (pt t) n d) :=
    funext fun n => funext fun d => iblk0_apply m c t n d
  have h1 : wOf (iblk m c 1 t) = wOf (V m c main_v14) := funext fun l => funext fun d => funext fun e => iblk1_eq m c t _
  have h2 : wOf (iblk m c 2 t) = wOf (V m c main_v15) := funext fun l => funext fun d => funext fun e => iblk2_eq m c t _
  have h3 : wOf (iblk m c 3 t) = wOf (V m c main_v16) := funext fun l => funext fun d => funext fun e => iblk3_eq m c t _
  have h4 : bOf (iblk m c 4 t) = bOf (V m c main_arg7) := funext fun l => funext fun e => iblk4_eq m c t _
  have h5 : bOf (iblk m c 5 t) = bOf (V m c main_arg9) := funext fun l => funext fun e => iblk5_eq m c t _
  have h6 : bOf (iblk m c 6 t) = bOf (V m c main_arg11) := funext fun l => funext fun e => iblk6_eq m c t _
  have h7 : bOf (iblk m c 7 t) = bOf (V m c main_arg12) := funext fun l => funext fun e => iblk7_eq m c t _
  have h8 : bOf (iblk m c 8 t) = bOf (V m c main_arg13) := funext fun l => funext fun e => iblk8_eq m c t _
  rw [h0, h1, h2, h3, h4, h5, h6, h7, h8]

/-- An index of the result array is in point t's block iff each coordinate is in the block's range on its axis. -/
theorem mem_blk (t : Fin cfg0.N) (i : S64x512x768.Idx) :
    i ∈ ((cfg0.win 9).blk t).view.set ↔ ∀ a : Fin 3, win0_9.index t a * S1x512x768.size a ≤ (i a).val
      ∧ (i a).val < win0_9.index t a * S1x512x768.size a + S1x512x768.size a := by
  show i ∈ ((View.whole main_v17).slice (win0_9.rect t)).set ↔ _
  rw [View.set_slice_whole, Rect.mem_set_unit]
  exact Iff.rfl

/-- The 64 blocks tile the result array: it ends holding G. -/
theorem final (c : Dev nD) : (dats m 0 c).arrAt 9 cfg0.N = G m c :=
  (dats m 0 c).arrAt_eq_of_cover 9 (G m c) (fun t _ => flushed_eq m c t) fun i => by
    have h0 : (i 0).val < 64 := (i 0).isLt
    have h1 : (i 1).val < 512 := (i 1).isLt
    have h2 : (i 2).val < 768 := (i 2).isLt
    let t : Fin cfg0.N := ⟨(i 0).val, lt_of_lt_of_eq h0 N_0.symm⟩
    obtain ⟨f0_0, f0_1, f0_2, f9_0, f9_1, f9_2, f1_0, f1_1, f1_2, f2_0, f2_1, f2_2, f3_0, f3_1, f3_2, f4_0, f4_1, f5_0, f5_1, f6_0, f6_1, f7_0, f7_1, f8_0, f8_1⟩ := idx_facts t
    refine ⟨t, flush0_9 t, ?_⟩
    rw [mem_blk]
    intro a
    match a with
    | ⟨0, _⟩ => show win0_9.index t (0 : Fin 3) * 1 ≤ (i 0).val ∧ (i 0).val < win0_9.index t (0 : Fin 3) * 1 + 1; rw [f9_0]; show (i 0).val * 1 ≤ (i 0).val ∧ (i 0).val < (i 0).val * 1 + 1; omega
    | ⟨1, _⟩ => show win0_9.index t (1 : Fin 3) * 512 ≤ (i 1).val ∧ (i 1).val < win0_9.index t (1 : Fin 3) * 512 + 512; rw [f9_1]; omega
    | ⟨2, _⟩ => show win0_9.index t (2 : Fin 3) * 768 ≤ (i 2).val ∧ (i 2).val < win0_9.index t (2 : Fin 3) * 768 + 768; rw [f9_2]; omega

end Run

end Cert.KernelIdeal.KerValue

end
-- ==== Proof.KerRun.lean ====
/-
  The kernel program's run, with both results named.

  After the region the program slices the result array: the first 64 token rows of every passage are added to the
  question rows it assembled before the region, and the remaining 448 rows of every passage, laid out again as one row
  per word, are added to the word rows it was given. Both results are therefore those host operations of the array the
  region leaves (the two layers on every passage) and of arrays assembled before the region.
-/
import proofs.«104126_j60206851555566_1_alg».proof.Proof.Gen.KernelIdeal.Frame
import proofs.«104126_j60206851555566_1_alg».proof.Proof.KerValue

set_option maxRecDepth 16384

noncomputable section

namespace Cert.KernelIdeal.KerRun

open Idealize.ShloMosaic Idealize.ShloMosaic.ValueIdx Idealize.ShloMosaic.TcCoe Idealize.SL.Sem
open Cert.KernelIdeal Cert.KernelIdeal.Gen Cert.KernelIdeal.KerValue
open Idealize.ShloMosaic.Pipeline (Dat)

variable (m : (ℓ : Loc nD τ sig) → Buf (Elt Ideal) ℓ) (ρ : Dev nD → PrngReg)

/-- The first result: the assembled question rows plus the first 64 rows of every passage of the region's result. -/
def out0 (c : Dev nD) : FVec Ideal S64x64x768 .f32 :=
  addf (V m c main_v12 : FVec Ideal S64x64x768 .f32)
    (extractStridedSlice S64x64x768 ![0, 0, 0] (G m c : FVec Ideal S64x512x768 .f32) slices_S64x512x768_S64x64x768_0_0_0)

/-- The second result: the word rows plus the last 448 rows of every passage, one row per word. -/
def out1 (c : Dev nD) : FVec Ideal S28672x768 .f32 :=
  addf (V m c main_arg2 : FVec Ideal S28672x768 .f32)
    (shapeCast S28672x768 (extractStridedSlice S64x448x768 ![0, 64, 0] (G m c : FVec Ideal S64x512x768 .f32) slices_S64x512x768_S64x448x768_0_64_0)
      shapeCasts_S64x448x768_S28672x768)

/-- After the region the result window's array holds what the blocks left. -/
theorem region_array (c : Dev nD) :
    Pipeline.withArrays (cfgs 0).spec c (V0 m c) (fun w => (dats m 0 c).arrAt w (cfgs 0).N) (Proc.devRef .tc main_v17)
      = (dats m 0 c).arrAt 9 cfg0.N :=
  Pipeline.withArrays_arr spec0 launch0.win.arr_inj c _ _ 9

theorem tail19 (c : Dev nD) : Pipeline.afterTail₀ cfgs (dats m) 0 (V0 m) [hostOps1] c main_v19 = out0 m c := by
  unfold Pipeline.afterTail₀
  show StableHlo.after hostOps1 _ (Proc.devRef .tc main_v19) = _
  after_results
  rw [Pipeline.withArrays_of_ne _ c (V0 m c) _ main_v12 (by decide)]
  rw [region_array, final]
  rfl

theorem tail22 (c : Dev nD) : Pipeline.afterTail₀ cfgs (dats m) 0 (V0 m) [hostOps1] c main_v22 = out1 m c := by
  unfold Pipeline.afterTail₀
  show StableHlo.after hostOps1 _ (Proc.devRef .tc main_v22) = _
  after_results
  rw [Pipeline.withArrays_of_ne _ c (V0 m c) _ main_arg2 (by decide)]
  rw [region_array, final]
  rfl

/-- Every weakly fair execution of the kernel program terminates with the two results at out0 and out1 and the
    argument arrays unchanged. -/
theorem run : θ_run defs (onTc (τ := τ) (main (F := Ideal))) ⟨m, fun _ => 0, ρ⟩ fun r => ∀ c : Dev nD,
      r.2.mem ((c.tc : Thread nD τ).loc main_v19) = out0 m c
      ∧ r.2.mem ((c.tc : Thread nD τ).loc main_v22) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨((h c).2 main_v19 (Pipeline.mem_restRefs_of main_v19 (by decide) (by decide))).trans (tail19 m c),
      ((h c).2 main_v22 (Pipeline.mem_restRefs_of main_v22 (by decide) (by decide))).trans (tail22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).1 5).trans (((dats m 0 c).arrAt_in 5 rfl _).trans ((A_eq m c 5).trans (V_main_arg9 m c))),
      ((h c).2 main_arg10 (Pipeline.mem_restRefs_of main_arg10 (by decide) (by decide))).trans (W_main_arg10 m (dats m) c),
      ((h c).1 6).trans (((dats m 0 c).arrAt_in 6 rfl _).trans ((A_eq m c 6).trans (V_main_arg11 m c))),
      ((h c).1 7).trans (((dats m 0 c).arrAt_in 7 rfl _).trans ((A_eq m c 7).trans (V_main_arg12 m c))),
      ((h c).1 8).trans (((dats m 0 c).arrAt_in 8 rfl _).trans ((A_eq m c 8).trans (V_main_arg13 m c)))⟩)
    (run_main m ρ)

end Cert.KernelIdeal.KerRun

end
-- ==== Proof.Bridge.lean ====
/-
  The two programs meet: the kernel program's results are the reference's results as functions of the arguments, read
  on the kernel program's own argument arrays.

  Before the region both programs assemble the same batch (the question rows plus the shared question, joined with
  the word rows scaled by their sentence's weight) by the same host operations; the kernel program also exchanges the
  last two axes of each stacked weight array, which the reference does slice by slice inside each iteration. With the
  parameters read at an index both sides are the two layers of the specification on each passage, and the tails after
  the layers are the same host operations.
-/
import proofs.«104126_j60206851555566_1_alg».proof.Proof.KerRun
import proofs.«104126_j60206851555566_1_alg».proof.Proof.RefValue

set_option maxRecDepth 16384

noncomputable section

namespace Cert.Bridge

open Idealize.ShloMosaic Idealize.ShloMosaic.ValueIdx Idealize.ShloMosaic.TcCoe Idealize.SL.Sem Idealize.ShloMosaic.StableHlo
open Cert.AttnLayer

variable (m : (ℓ : Loc Cert.KernelIdeal.nD Cert.KernelIdeal.τ Cert.KernelIdeal.sig) → Buf (Elt Ideal) ℓ)

/-! ## The arrays the region finds, as the reference's stages of the same arguments -/

theorem V12 (c : Dev Cert.KernelIdeal.nD) :
    Cert.KernelIdeal.Gen.V m c Cert.KernelIdeal.main_v12
      = Cert.ReferenceIdeal.RefRun.pre12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v12) = _
  after_results
  rfl

set_option maxHeartbeats 4000000 in
theorem V13 (c : Dev Cert.KernelIdeal.nD) :
    Cert.KernelIdeal.Gen.V m c Cert.KernelIdeal.main_v13
      = Cert.ReferenceIdeal.RefRun.pre13 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v13) = _
  after_results
  unfold Cert.ReferenceIdeal.RefRun.pre13 Cert.ReferenceIdeal.RefRun.pre12
  rfl

theorem V14 (c : Dev Cert.KernelIdeal.nD) :
    Cert.KernelIdeal.Gen.V m c Cert.KernelIdeal.main_v14
      = transpose Cert.KernelIdeal.S2x768x768 [0, 2, 1] (m ((c.tc : Thread Cert.KernelIdeal.nD Cert.KernelIdeal.τ).loc Cert.KernelIdeal.main_arg6)) Cert.KernelIdeal.Gen.transposes_S2x768x768_S2x768x768_0_2_1 := by
  show StableHlo.after Cert.KernelIdeal.Gen.hostOps0 (fun b => m (c, b)) (Proc.devRef .tc Cert.KernelIdeal.main_v14) = _
  after_results

theorem V15 (c : Dev Cert.KernelIdeal.nD) :
    Cert.KernelIdeal.Gen.V m c Cert.KernelIdeal.main_v15
      = transpose Cert.KernelIdeal.S2x768x768 [0, 2, 1] (m ((c.tc : Thread Cert.KernelIdeal.nD Cert.KernelIdeal.τ).loc Cert.KernelIdeal.main_arg8)) Cert.KernelIdeal.Gen.transposes_S2x768x768_S2x768x768_0_2_1 := by
  show StableHlo.after Cert.KernelIdeal.Gen.hostOps0 (fun b => m (c, b)) (Proc.devRef .tc Cert.KernelIdeal.main_v15) = _
  after_results

theorem V16 (c : Dev Cert.KernelIdeal.nD) :
    Cert.KernelIdeal.Gen.V m c Cert.KernelIdeal.main_v16
      = transpose Cert.KernelIdeal.S2x768x768 [0, 2, 1] (m ((c.tc : Thread Cert.KernelIdeal.nD Cert.KernelIdeal.τ).loc Cert.KernelIdeal.main_arg10)) Cert.KernelIdeal.Gen.transposes_S2x768x768_S2x768x768_0_2_1 := by
  show StableHlo.after Cert.KernelIdeal.Gen.hostOps0 (fun b => m (c, b)) (Proc.devRef .tc Cert.KernelIdeal.main_v16) = _
  after_results

/-- A stack of weight matrices with its last two axes exchanged, read as the specification takes the weights. -/
theorem wOf_transpose (A : Vec Ideal Cert.KernelIdeal.S2x768x768 .f32) (h : Cert.KernelIdeal.S2x768x768.Transposes [0, 2, 1] Cert.KernelIdeal.S2x768x768) :
    Cert.KernelIdeal.KerValue.wOf (transpose Cert.KernelIdeal.S2x768x768 [0, 2, 1] A h) = Cert.ReferenceIdeal.RefValue.wT A :=
  funext fun l => funext fun d => funext fun e => transpose_ix3_021_apply A h l d e

/-! ## The region's result array is the reference's final activations -/

theorem G_eq (c : Dev Cert.KernelIdeal.nD) :
    Cert.KernelIdeal.KerValue.G m c = Cert.ReferenceIdeal.RefValue.acts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  funext i
  obtain ⟨p, n, d, rfl⟩ : ∃ (p : Fin 64) (n : Fin 512) (d : Fin 768), i = ix3 p n d := ⟨i 0, i 1, i 2, eq_ix3 i⟩
  rw [Cert.ReferenceIdeal.RefValue.acts_apply]
  show twoLayers _ _ _ _ _ _ _ _ (fun n d => Cert.KernelIdeal.Gen.V m c Cert.KernelIdeal.main_v13 (ix3 p n d)) n d = _
  rw [V13, V14, V15, V16, wOf_transpose, wOf_transpose, wOf_transpose, Cert.KernelIdeal.Gen.V_main_arg7, Cert.KernelIdeal.Gen.V_main_arg9,
    Cert.KernelIdeal.Gen.V_main_arg11, Cert.KernelIdeal.Gen.V_main_arg12, Cert.KernelIdeal.Gen.V_main_arg13]

theorem out0_eq (c : Dev Cert.KernelIdeal.nD) :
    Cert.KernelIdeal.KerRun.out0 m c = Cert.ReferenceIdeal.RefValue.ref0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  unfold Cert.KernelIdeal.KerRun.out0 Cert.ReferenceIdeal.RefValue.ref0 Cert.ReferenceIdeal.RefRun.tail0
  rw [V12, G_eq]

theorem out1_eq (c : Dev Cert.KernelIdeal.nD) :
    Cert.KernelIdeal.KerRun.out1 m c = Cert.ReferenceIdeal.RefValue.ref1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  unfold Cert.KernelIdeal.KerRun.out1 Cert.ReferenceIdeal.RefValue.ref1 Cert.ReferenceIdeal.RefRun.tail1
  rw [Cert.KernelIdeal.Gen.V_main_arg2, G_eq]

end Cert.Bridge

end
-- ==== Proof.Claims.lean ====
/-
  The five claims.

  The two kernel programs' frames are the generated frame runs; the reference's frame is its run with the
  results dropped; the idealization rewrote nothing, so it preserves the program trivially. For the value claim the
  witnesses are the kernel program's two results; the reference, run from a memory that agrees on the arguments, ends
  with its two results as functions of those arguments, which are the kernel program's results.
-/
import proofs.«104126_j60206851555566_1_alg».proof.Defs
import proofs.«104126_j60206851555566_1_alg».proof.Proof.Gen.Kernel.Frame
import proofs.«104126_j60206851555566_1_alg».proof.Proof.Gen.KernelIdeal.Frame
import proofs.«104126_j60206851555566_1_alg».proof.Proof.Gen.ReferenceIdeal
import proofs.«104126_j60206851555566_1_alg».proof.Proof.RefValue
import proofs.«104126_j60206851555566_1_alg».proof.Proof.Gen.Pre_finite_inputs
import proofs.«104126_j60206851555566_1_alg».proof.Proof.Bridge

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

theorem algebraic : Cert.algebraic_KernelIdeal_ReferenceIdeal := by
  intro m ρ m' ρ' _ hagree
  refine ⟨fun c => Cert.KernelIdeal.KerRun.out0 m c, fun c => Cert.KernelIdeal.KerRun.out1 m c, Cert.KernelIdeal.KerRun.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · obtain ⟨h0, h1, h2, h3, h4, _, h6, h7, h8, h9, h10, h11, h12, h13⟩ := hagree c
    rw [h0, h1, h2, h3, h4, h6, h7, h8, h9, h10, h11, h12, h13]
    exact (Cert.Bridge.out0_eq m c).symm
  · obtain ⟨h0, h1, h2, h3, h4, _, h6, h7, h8, h9, h10, h11, h12, h13⟩ := hagree c
    rw [h0, h1, h2, h3, h4, h6, h7, h8, h9, h10, h11, h12, h13]
    exact (Cert.Bridge.out1_eq m c).symm

end Cert.Proof.Claims

end
-- ==== Proof.lean ====
/- The proof of `Cert.Claim`: per-passage self-attention with layer normalisation, twice, as a kernel over a grid of
   passages against the same computation on the whole batch.

   The specification (Proof/Spec.lean) is one layer on one passage, index by index over the extended reals. The kernel
   body's vector operations (Proof/KerLayer.lean) and the reference's batched host operations (Proof/HostLayer.lean) are
   each that layer, entry by entry: a matrix product into zero and a general dot product are the same finite sum, a lane
   reduction and a host reduction the same sum or fold of max, a change of float format the identity. The kernel's
   blocks tile its result array (Proof/KerValue.lean), the host operations after the region are read off the frame run
   (Proof/KerRun.lean), the reference's stages compose to two host layers (Proof/RefValue.lean), and the two programs'
   parameter slices and assembled inputs agree (Proof/Bridge.lean). No algebraic law beyond re-indexing is used, so the
   finiteness precondition is never opened. -/
import proofs.«104126_j60206851555566_1_alg».proof.Defs
import proofs.«104126_j60206851555566_1_alg».proof.Proof.Claims
import proofs.«104126_j60206851555566_1_alg».proof.Proof.Gen.Kernel
import proofs.«104126_j60206851555566_1_alg».proof.Proof.Gen.KernelIdeal
import proofs.«104126_j60206851555566_1_alg».proof.Proof.Gen.ReferenceIdeal
import proofs.«104126_j60206851555566_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
